-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x512x1024 : Shape := ⟨4, ![1, 16, 512, 1024]⟩
abbrev S1x1024x1024 : Shape := ⟨3, ![1, 1024, 1024]⟩
abbrev S1x512x1024 : Shape := ⟨3, ![1, 512, 1024]⟩
abbrev S1x512x96103 : Shape := ⟨3, ![1, 512, 96103]⟩
abbrev S1024 : Shape := ⟨1, ![1024]⟩
abbrev S1x3072 : Shape := ⟨2, ![1, 3072]⟩
abbrev S1 : Shape := ⟨1, ![1]⟩
abbrev S_ : Shape := ⟨0, ![]⟩

class Facts : Prop where
  bcast_S_S1x16x512x1024 : S_.BroadcastsInDim S1x16x512x1024 (![] : Fin 0 → Fin S1x16x512x1024.rank)
  reducesTo_S1x16x512x1024_S_d0_1_2_3 : S1x16x512x1024.ReducesTo [0, 1, 2, 3] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x512x96103 : S_.BroadcastsInDim S1x512x96103 (![] : Fin 0 → Fin S1x512x96103.rank)
  reducesTo_S1x512x96103_S_d0_1_2 : S1x512x96103.ReducesTo [0, 1, 2] S_
  bcast_S_S1x3072 : S_.BroadcastsInDim S1x3072 (![] : Fin 0 → Fin S1x3072.rank)
  reducesTo_S1x3072_S_d0_1 : S1x3072.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x512x96103 .f32) (main_arg6 : FVec F S1x3072 .f32) (main_arg7 : FVec F S1 .f32) (main_v13 : IVec S_ 1) (main_v16 : IVec S1x512x1024 1) : IVec S_ 1 :=
  let main_c_5 : IVec S_ 1 := constantI S_ 1 1#1
  let main_v17 : IVec S_ 1 := (fun x v => Host.reduce IntOp.andi x v reducesTo_S1x512x1024_S_d0_1_2 h_S_) main_v16 main_c_5
  let main_v18 : IVec S_ 1 := andi main_v13 main_v17
  let main_v19 : FVec F S1x512x96103 .f32 := Host.absf main_arg4
  let main_cst_6 : FVec F S_ .f32 := constant S_ .f32 0x7F800000#32
  let main_v20 : FVec F S1x512x96103 .f32 := broadcastInDim S1x512x96103 ![] bcast_S_S1x512x96103 main_cst_6
  let main_v21 : IVec S1x512x96103 1 := cmpf .olt main_v19 main_v20
  let main_c_7 : IVec S_ 1 := constantI S_ 1 1#1
  let main_v22 : IVec S_ 1 := (fun x v => Host.reduce IntOp.andi x v reducesTo_S1x512x96103_S_d0_1_2 h_S_) main_v21 main_c_7
  let main_v23 : IVec S_ 1 := andi main_v18 main_v22
  let main_v24 : FVec F S1x3072 .f32 := Host.absf main_arg6
  let main_cst_8 : FVec F S_ .f32 := constant S_ .f32 0x7F800000#32
  let main_v25 : FVec F S1x3072 .f32 := broadcastInDim S1x3072 ![] bcast_S_S1x3072 main_cst_8
  let main_v26 : IVec S1x3072 1 := cmpf .olt main_v24 main_v25
  let main_c_9 : IVec S_ 1 := constantI S_ 1 1#1
  let main_v27 : IVec S_ 1 := (fun x v => Host.reduce IntOp.andi x v reducesTo_S1x3072_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1x16x512x1024 .f32) (main_arg1 : FVec F S1x1024x1024 .f32) (main_arg2 : FVec F S1x512x1024 .f32) (main_arg3 : FVec F S1x512x1024 .f32) (main_arg4 : FVec F S1x512x96103 .f32) (main_arg5 : IVec S1024 32) (main_arg6 : FVec F S1x3072 .f32) (main_arg7 : FVec F S1 .f32) : IVec S_ 1 :=
  let main_v0 : FVec F S1x16x512x1024 .f32 := Host.absf main_arg0
  let main_cst : FVec F S_ .f32 := constant S_ .f32 0x7F800000#32
  let main_v1 : FVec F S1x16x512x1024 .f32 := broadcastInDim S1x16x512x1024 ![] bcast_S_S1x16x512x1024 main_cst
  let main_v2 : IVec S1x16x512x1024 1 := cmpf .olt main_v0 main_v1
  let main_c : IVec S_ 1 := constantI S_ 1 1#1
  let main_v3 : IVec S_ 1 := (fun x v => Host.reduce IntOp.andi x v reducesTo_S1x16x512x1024_S_d0_1_2_3 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S1x512x1024 .f32 := Host.absf main_arg2
  let main_cst_2 : FVec F S_ .f32 := constant S_ .f32 0x7F800000#32
  let main_v10 : FVec F S1x512x1024 .f32 := broadcastInDim S1x512x1024 ![] bcast_S_S1x512x1024 main_cst_2
  let main_v11 : IVec S1x512x1024 1 := cmpf .olt main_v9 main_v10
  let main_c_3 : IVec S_ 1 := constantI S_ 1 1#1
  let main_v12 : IVec S_ 1 := (fun x v => Host.reduce IntOp.andi x v reducesTo_S1x512x1024_S_d0_1_2 h_S_) main_v11 main_c_3
  let main_v13 : IVec S_ 1 := andi main_v8 main_v12
  let main_v14 : FVec F S1x512x1024 .f32 := Host.absf main_arg3
  let main_cst_4 : FVec F S_ .f32 := constant S_ .f32 0x7F800000#32
  let main_v15 : FVec F S1x512x1024 .f32 := broadcastInDim S1x512x1024 ![] bcast_S_S1x512x1024 main_cst_4
  let main_v16 : IVec S1x512x1024 1 := cmpf .olt main_v14 main_v15
  fn_part1 (F := F) main_arg4 main_arg6 main_arg7 main_v13 main_v16
-- ==== Kernel.lean ====
abbrev S1x16x512x1024 : Shape := ⟨4, ![1, 16, 512, 1024]⟩
abbrev S1x1024x1024 : Shape := ⟨3, ![1, 1024, 1024]⟩
abbrev S1x512x1024 : Shape := ⟨3, ![1, 512, 1024]⟩
abbrev S1x512x96103 : Shape := ⟨3, ![1, 512, 96103]⟩
abbrev S1024 : Shape := ⟨1, ![1024]⟩
abbrev S1x3072 : Shape := ⟨2, ![1, 3072]⟩
abbrev S1 : Shape := ⟨1, ![1]⟩
abbrev S1024x1024 : Shape := ⟨2, ![1024, 1024]⟩
abbrev S512x1024 : Shape := ⟨2, ![512, 1024]⟩
abbrev S1x1 : Shape := ⟨2, ![1, 1]⟩
abbrev S512x1 : Shape := ⟨2, ![512, 1]⟩
abbrev S1x1x512x1024 : Shape := ⟨4, ![1, 1, 512, 1024]⟩
abbrev S512x3072 : Shape := ⟨2, ![512, 3072]⟩
abbrev S3072x1 : Shape := ⟨2, ![3072, 1]⟩
abbrev S_ : Shape := ⟨0, ![]⟩
abbrev S96103 : Shape := ⟨1, ![96103]⟩
abbrev S1024x1 : Shape := ⟨2, ![1024, 1]⟩
abbrev S1x96103 : Shape := ⟨2, ![1, 96103]⟩
abbrev S512x96103 : Shape := ⟨2, ![512, 96103]⟩
abbrev S512 : Shape := ⟨1, ![512]⟩
abbrev S1x1024 : Shape := ⟨2, ![1, 1024]⟩

abbrev nBuf : Space → Nat
  | .hbm => 41
  | .vmem => 24
  | .smem => 0
  | _ => 0

abbrev bufTy : (tb : Table) → Fin (tcTables nBuf tb) → BufTy
  | .hbm, ⟨0, _⟩ => ⟨S1x16x512x1024, .f32⟩
  | .hbm, ⟨1, _⟩ => ⟨S1x1024x1024, .f32⟩
  | .hbm, ⟨2, _⟩ => ⟨S1x512x1024, .f32⟩
  | .hbm, ⟨3, _⟩ => ⟨S1x512x1024, .f32⟩
  | .hbm, ⟨4, _⟩ => ⟨S1x512x96103, .f32⟩
  | .hbm, ⟨5, _⟩ => ⟨S1024, .i32⟩
  | .hbm, ⟨6, _⟩ => ⟨S1x3072, .f32⟩
  | .hbm, ⟨7, _⟩ => ⟨S1, .f32⟩
  | .hbm, ⟨8, _⟩ => ⟨S1024x1024, .f32⟩
  | .hbm, ⟨9, _⟩ => ⟨S1024x1024, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x3072, .bf16⟩
  | .hbm, ⟨15, _⟩ => ⟨S1x1, .f32⟩
  | .hbm, ⟨16, _⟩ => ⟨S512x1024, .bf16⟩
  | .hbm, ⟨17, _⟩ => ⟨S512x1, .f32⟩
  | .hbm, ⟨18, _⟩ => ⟨S_, .i32⟩
  | .hbm, ⟨19, _⟩ => ⟨S96103, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S96103, .i32⟩
  | .hbm, ⟨33, _⟩ => ⟨S_, .i32⟩
  | .hbm, ⟨34, _⟩ => ⟨S96103, .i32⟩
  | .hbm, ⟨35, _⟩ => ⟨S96103, .i32⟩
  | .hbm, ⟨36, _⟩ => ⟨S1x96103, .i32⟩
  | .hbm, ⟨37, _⟩ => ⟨S512x96103, .f32⟩
  | .hbm, ⟨38, _⟩ => ⟨S512x1, .f32⟩
  | .hbm, ⟨39, _⟩ => ⟨S512x1, .f32⟩
  | .hbm, ⟨40, _⟩ => ⟨S512x96103, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x3072, .bf16⟩
  | .local _ .vmem, ⟨6, _⟩ => ⟨S1x1, .f32⟩
  | .local _ .vmem, ⟨7, _⟩ => ⟨S512x1024, .bf16⟩
  | .local _ .vmem, ⟨8, _⟩ => ⟨S512x1, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S1x1024, .i32⟩
  | .local _ .vmem, ⟨18, _⟩ => ⟨S1x1024, .i32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1024, .f32⟩
  | .local _ .vmem, ⟨23, _⟩ => ⟨S512x1024, .f32⟩
  | _, _ => ⟨S1x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_8 : BitVec 32 := 0#32
  let v12 : BitVec 1 := Scalar.cmpi .ne v11 c0_i32_8
  v12

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![94], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![94], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S1x1024x1024_S1024x1024 : S1x1024x1024.ShapeCasts S1024x1024
  bitsLt_bf16_f32 : FTy.bits .bf16 < FTy.bits .f32
  shapeCasts_S1x512x1024_S512x1024 : S1x512x1024.ShapeCasts S512x1024
  shapeCasts_S1_S1x1 : S1.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  concatenates_S512x1024_S512x1024_S512x1024_S512x3072_d1 : Shape.Concatenates [S512x1024, S512x1024, S512x1024] S512x3072 1
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  transposes_S1x3072_p1_0_S3072x1 : S1x3072.Transposes [1, 0] S3072x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  bcast_S_S96103 : S_.BroadcastsInDim S96103 (![] : Fin 0 → Fin S96103.rank)
  bcast_S_S1024 : S_.BroadcastsInDim S1024 (![] : Fin 0 → Fin S1024.rank)
  bcast_S1024_S1024x1_0 : S1024.BroadcastsInDim S1024x1 (![0] : Fin 1 → Fin S1024x1.rank)
  shapeCasts_S96103_S1x96103 : S96103.ShapeCasts S1x96103
  shapeCasts_S1x512x96103_S512x96103 : S1x512x96103.ShapeCasts S512x96103
  iota_S512x1024_d1_w32 : S512x1024.Iotas .tc 32 [1]
  reduces_S512x1024_S512 : S512x1024.Reduces [1] S512
  shapeCasts_S512_S512x1 : S512.ShapeCasts S512x1
  shapeCasts_S512x1_S512x1 : S512x1.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  broadcasts_S1x1024_S1024x1024 : S1x1024.Broadcasts S1024x1024
  natLt_1_32 : 1 < 32
  dot_S512x1024_S1024x1024_S512x1024_1_0_0_1_n_n_wf : DotDims.WF S512x1024 S1024x1024 S512x1024 [1] [0] [0] [1] [] []
  dot_S512x3072_S3072x1_S512x1_1_0_0_1_n_n_wf : DotDims.WF S512x3072 S3072x1 S512x1 [1] [0] [0] [1] [] []
  scatter_S96103_S1024x1_S1024_n_0_0_1_wf : ScatterDims.WF S96103 S1024x1 S1024 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S1x16x512x1024.size a
  hwx0_0 : ∀ i : grid0.Coords, EltTy.bits .f32 = 32 ∨ (Rect.block (s := S1x16x512x1024) S1x1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .bf16 = 32 ∨ (Rect.block (s := S1x3072) S1x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S512x1024.size a < S512x96103.size a
  hwx1_0 : ∀ i : grid1.Coords, EltTy.bits .f32 = 32 ∨ (Rect.unit (s := S512x96103) (fun a => cc1_transform_0 i a * S512x1024.size a) (fun a => (Pipeline.Clip.of (cc1_transform_0 i a) (S512x1024.size a) (S512x96103.size a)).extent (S512x1024.size a)) fun a => Pipeline.Clip.inb (Pipeline.Clip.ok_of (hstart1_0 i a))).WholeWords (EltTy.packing .f32)
  hwxs1_0 : ∀ i : grid1.Coords, EltTy.bits .f32 = 32 ∨ (Rect.unit (s := S512x1024) (fun _ => 0) (fun a => (Pipeline.Clip.of (cc1_transform_0 i a) (S512x1024.size a) (S512x96103.size a)).extent (S512x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S512x1024.size a < S512x96103.size a
  hwx2_0 : ∀ i : grid2.Coords, EltTy.bits .f32 = 32 ∨ (Rect.unit (s := S512x96103) (fun a => cc2_transform_0 i a * S512x1024.size a) (fun a => (Pipeline.Clip.of (cc2_transform_0 i a) (S512x1024.size a) (S512x96103.size a)).extent (S512x1024.size a)) fun a => Pipeline.Clip.inb (Pipeline.Clip.ok_of (hstart2_0 i a))).WholeWords (EltTy.packing .f32)
  hwxs2_0 : ∀ i : grid2.Coords, EltTy.bits .f32 = 32 ∨ (Rect.unit (s := S512x1024) (fun _ => 0) (fun a => (Pipeline.Clip.of (cc2_transform_0 i a) (S512x1024.size a) (S512x96103.size a)).extent (S512x1024.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .bf16 = 32 ∨ (Rect.block (s := S512x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x1024.size a < S1x96103.size a
  hwx2_2 : ∀ i : grid2.Coords, EltTy.bits .i32 = 32 ∨ (Rect.unit (s := S1x96103) (fun a => cc2_transform_2 i a * S1x1024.size a) (fun a => (Pipeline.Clip.of (cc2_transform_2 i a) (S1x1024.size a) (S1x96103.size a)).extent (S1x1024.size a)) fun a => Pipeline.Clip.inb (Pipeline.Clip.ok_of (hstart2_2 i a))).WholeWords (EltTy.packing .i32)
  hwxs2_2 : ∀ i : grid2.Coords, EltTy.bits .i32 = 32 ∨ (Rect.unit (s := S1x1024) (fun _ => 0) (fun a => (Pipeline.Clip.of (cc2_transform_2 i a) (S1x1024.size a) (S1x96103.size a)).extent (S1x1024.size a)) fun a => (Nat.zero_add _).trans_le (Pipeline.Clip.extent_le (Pipeline.Clip.ok_of (hstart2_2 i a)))).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S512x1.size a
  hwx2_4 : ∀ i : grid2.Coords, EltTy.bits .f32 = 32 ∨ (Rect.block (s := S512x1) S512x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hstart2_6 : ∀ (i : grid2.Coords) a, cc2_transform_6 i a * S512x1024.size a < S512x96103.size a
  hwx2_6 : ∀ i : grid2.Coords, EltTy.bits .f32 = 32 ∨ (Rect.unit (s := S512x96103) (fun a => cc2_transform_6 i a * S512x1024.size a) (fun a => (Pipeline.Clip.of (cc2_transform_6 i a) (S512x1024.size a) (S512x96103.size a)).extent (S512x1024.size a)) fun a => Pipeline.Clip.inb (Pipeline.Clip.ok_of (hstart2_6 i a))).WholeWords (EltTy.packing .f32)
  hwxs2_6 : ∀ i : grid2.Coords, EltTy.bits .f32 = 32 ∨ (Rect.unit (s := S512x1024) (fun _ => 0) (fun a => (Pipeline.Clip.of (cc2_transform_6 i a) (S512x1024.size a) (S512x96103.size a)).extent (S512x1024.size a)) fun a => (Nat.zero_add _).trans_le (Pipeline.Clip.extent_le (Pipeline.Clip.ok_of (hstart2_6 i a)))).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x3072_S3072x1_S512x1_1_0_0_1_n_n : DotDims S512x3072 S3072x1 S512x1 where
  lhsContracting := [1]
  rhsContracting := [0]
  lhsNonContracting := [0]
  rhsNonContracting := [1]
  lhsBatch := []
  rhsBatch := []
  wf := dot_S512x3072_S3072x1_S512x1_1_0_0_1_n_n_wf
def scatter_S96103_S1024x1_S1024_n_0_0_1 : ScatterDims S96103 S1024x1 S1024 where
  updateWindowDims := []
  insertedWindowDims := [0]
  scatterDimsToOperandDims := [0]
  indexVectorDim := 1
  wf := scatter_S96103_S1024x1_S1024_n_0_0_1_wf

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x1024.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpecClip (Memref.whole main_v23) S512x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v24_0) S512x1.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24_1) S512x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v23) S512x1024.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v8_0) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v22) S1x1024.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v8_1) S512x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24_0) S512x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24_1) S512x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpecClip (Memref.whole main_v25) S512x1024.size cc2_transform_6 reads2_6 true false 2 stage2_6 sem2_6
    hrank2 hreads2_6 hstart2_6 nbuf2_6 (Memref.isWhole_whole _) hwx2_6 hwxs2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1x16x512x1024 : Shape := ⟨4, ![1, 16, 512, 1024]⟩
abbrev S1x1024x1024 : Shape := ⟨3, ![1, 1024, 1024]⟩
abbrev S1x512x1024 : Shape := ⟨3, ![1, 512, 1024]⟩
abbrev S1x512x96103 : Shape := ⟨3, ![1, 512, 96103]⟩
abbrev S1024 : Shape := ⟨1, ![1024]⟩
abbrev S1x3072 : Shape := ⟨2, ![1, 3072]⟩
abbrev S1 : Shape := ⟨1, ![1]⟩
abbrev S16x512x1024 : Shape := ⟨3, ![16, 512, 1024]⟩
abbrev S_ : Shape := ⟨0, ![]⟩
abbrev S512x1024 : Shape := ⟨2, ![512, 1024]⟩
abbrev S1024x1024 : Shape := ⟨2, ![1024, 1024]⟩
abbrev S512x96103 : Shape := ⟨2, ![512, 96103]⟩
abbrev S512x3072 : Shape := ⟨2, ![512, 3072]⟩
abbrev S3072x1 : Shape := ⟨2, ![3072, 1]⟩
abbrev S512x1 : Shape := ⟨2, ![512, 1]⟩
abbrev S1x1 : Shape := ⟨2, ![1, 1]⟩
abbrev S512 : Shape := ⟨1, ![512]⟩
abbrev S1x1024 : Shape := ⟨2, ![1, 1024]⟩
abbrev S512x1024x1 : Shape := ⟨3, ![512, 1024, 1]⟩
abbrev S512x1024x2 : Shape := ⟨3, ![512, 1024, 2]⟩

abbrev nBuf : Space → Nat
  | .hbm => 80
  | .vmem => 0
  | .smem => 0
  | _ => 0

abbrev bufTy : (tb : Table) → Fin (tcTables nBuf tb) → BufTy
  | .hbm, ⟨0, _⟩ => ⟨S1x16x512x1024, .f32⟩
  | .hbm, ⟨1, _⟩ => ⟨S1x1024x1024, .f32⟩
  | .hbm, ⟨2, _⟩ => ⟨S1x512x1024, .f32⟩
  | .hbm, ⟨3, _⟩ => ⟨S1x512x1024, .f32⟩
  | .hbm, ⟨4, _⟩ => ⟨S1x512x96103, .f32⟩
  | .hbm, ⟨5, _⟩ => ⟨S1024, .i32⟩
  | .hbm, ⟨6, _⟩ => ⟨S1x3072, .f32⟩
  | .hbm, ⟨7, _⟩ => ⟨S1, .f32⟩
  | .hbm, ⟨8, _⟩ => ⟨S16x512x1024, .f32⟩
  | .hbm, ⟨9, _⟩ => ⟨S_, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S512x96103, .f32⟩
  | .hbm, ⟨18, _⟩ => ⟨S512x1024, .f32⟩
  | .hbm, ⟨19, _⟩ => ⟨S512x3072, .f32⟩
  | .hbm, ⟨20, _⟩ => ⟨S3072x1, .f32⟩
  | .hbm, ⟨21, _⟩ => ⟨S512x1, .f32⟩
  | .hbm, ⟨22, _⟩ => ⟨S1x1, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S_, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512x1, .f32⟩
  | .hbm, ⟨39, _⟩ => ⟨S512x96103, .f32⟩
  | .hbm, ⟨40, _⟩ => ⟨S512x96103, .f32⟩
  | .hbm, ⟨41, _⟩ => ⟨S512x96103, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S512x96103, .f32⟩
  | .hbm, ⟨46, _⟩ => ⟨S512x96103, .f32⟩
  | .hbm, ⟨47, _⟩ => ⟨S512x96103, .f32⟩
  | .hbm, ⟨48, _⟩ => ⟨S512x96103, .f32⟩
  | .hbm, ⟨49, _⟩ => ⟨S512, .i32⟩
  | .hbm, ⟨50, _⟩ => ⟨S512x1, .i32⟩
  | .hbm, ⟨51, _⟩ => ⟨S512x1024, .i32⟩
  | .hbm, ⟨52, _⟩ => ⟨S1x1024, .i32⟩
  | .hbm, ⟨53, _⟩ => ⟨S512x1024, .i32⟩
  | .hbm, ⟨54, _⟩ => ⟨S_, .f32⟩
  | .hbm, ⟨55, _⟩ => ⟨S512x96103, .f32⟩
  | .hbm, ⟨56, _⟩ => ⟨S_, .i32⟩
  | .hbm, ⟨57, _⟩ => ⟨S512x1024, .i32⟩
  | .hbm, ⟨58, _⟩ => ⟨S512x1024, .i1⟩
  | .hbm, ⟨59, _⟩ => ⟨S_, .i32⟩
  | .hbm, ⟨60, _⟩ => ⟨S512x1024, .i32⟩
  | .hbm, ⟨61, _⟩ => ⟨S512x1024, .i32⟩
  | .hbm, ⟨62, _⟩ => ⟨S512x1024, .i32⟩
  | .hbm, ⟨63, _⟩ => ⟨S_, .i32⟩
  | .hbm, ⟨64, _⟩ => ⟨S512x1024, .i32⟩
  | .hbm, ⟨65, _⟩ => ⟨S512x1024, .i1⟩
  | .hbm, ⟨66, _⟩ => ⟨S_, .i32⟩
  | .hbm, ⟨67, _⟩ => ⟨S512x1024, .i32⟩
  | .hbm, ⟨68, _⟩ => ⟨S512x1024, .i32⟩
  | .hbm, ⟨69, _⟩ => ⟨S512x1024, .i32⟩
  | .hbm, ⟨70, _⟩ => ⟨S512x1024x1, .i32⟩
  | .hbm, ⟨71, _⟩ => ⟨S512x1024x1, .i32⟩
  | .hbm, ⟨72, _⟩ => ⟨S512x1024x2, .i32⟩
  | .hbm, ⟨73, _⟩ => ⟨S512x96103, .f32⟩
  | .hbm, ⟨74, _⟩ => ⟨S_, .f32⟩
  | .hbm, ⟨75, _⟩ => ⟨S512x1, .f32⟩
  | .hbm, ⟨76, _⟩ => ⟨S512x1, .f32⟩
  | .hbm, ⟨77, _⟩ => ⟨S512x96103, .f32⟩
  | .hbm, ⟨78, _⟩ => ⟨S512x96103, .f32⟩
  | .hbm, ⟨79, _⟩ => ⟨S512x96103, .f32⟩
  | _, _ => ⟨S1x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  shapeCasts_S1x16x512x1024_S16x512x1024 : S1x16x512x1024.ShapeCasts S16x512x1024
  reducesTo_S16x512x1024_S512x1024_d0 : S16x512x1024.ReducesTo [0] S512x1024
  h_S_ : 0 < S_.numel
  bcast_S_S512x1024 : S_.BroadcastsInDim S512x1024 (![] : Fin 0 → Fin S512x1024.rank)
  shapeCasts_S1x1024x1024_S1024x1024 : S1x1024x1024.ShapeCasts S1024x1024
  shapeCasts_S1x512x1024_S512x1024 : S1x512x1024.ShapeCasts S512x1024
  shapeCasts_S1x512x96103_S512x96103 : S1x512x96103.ShapeCasts S512x96103
  concatenates_S512x1024_S512x1024_S512x1024_S512x3072_d1 : Shape.Concatenates [S512x1024, S512x1024, S512x1024] S512x3072 1
  transposes_S1x3072_S3072x1_1_0 : S1x3072.Transposes [1, 0] S3072x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  reducesTo_S512x96103_S512_d1 : S512x96103.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x96103_0_1 : S512x1.BroadcastsInDim S512x96103 (![0, 1] : Fin 2 → Fin S512x96103.rank)
  bcast_S512x1_S512x1024_0_1 : S512x1.BroadcastsInDim S512x1024 (![0, 1] : Fin 2 → Fin S512x1024.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x96103 : S_.BroadcastsInDim S512x96103 (![] : Fin 0 → Fin S512x96103.rank)
  bcast_S512x1024_S512x1024x1_0_1 : S512x1024.BroadcastsInDim S512x1024x1 (![0, 1] : Fin 2 → Fin S512x1024x1.rank)
  concatenates_S512x1024x1_S512x1024x1_S512x1024x2_d2 : Shape.Concatenates [S512x1024x1, S512x1024x1] S512x1024x2 2
  dot_S512x1024_S1024x1024_S512x1024_1_0_0_1_n_n_wf : DotDims.WF S512x1024 S1024x1024 S512x1024 [1] [0] [0] [1] [] []
  dot_S512x3072_S3072x1_S512x1_1_0_0_1_n_n_wf : DotDims.WF S512x3072 S3072x1 S512x1 [1] [0] [0] [1] [] []
  scatter_S512x96103_S512x1024x2_S512x1024_n_01_01_2_wf : ScatterDims.WF S512x96103 S512x1024x2 S512x1024 [] [0, 1] [0, 1] 2

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x3072_S3072x1_S512x1_1_0_0_1_n_n : DotDims S512x3072 S3072x1 S512x1 where
  lhsContracting := [1]
  rhsContracting := [0]
  lhsNonContracting := [0]
  rhsNonContracting := [1]
  lhsBatch := []
  rhsBatch := []
  wf := dot_S512x3072_S3072x1_S512x1_1_0_0_1_n_n_wf
def scatter_S512x96103_S512x1024x2_S512x1024_n_01_01_2 : ScatterDims S512x96103 S512x1024x2 S512x1024 where
  updateWindowDims := []
  insertedWindowDims := [0, 1]
  scatterDimsToOperandDims := [0, 1]
  indexVectorDim := 2
  wf := scatter_S512x96103_S512x1024x2_S512x1024_n_01_01_2_wf

class Facts : Prop extends Facts₀ where

variable [Facts]
-- ==== Proof.K.Region0.Runs.lean ====
/-
  Region 0 (the head-average kernel on its grid of 16 points): what its three cases share. The windows' blocks read off
  the entry contents, each input found at its block at every point, the two branch conditions in closed form, where the
  two outputs are idle, the staging memrefs and the carried accumulator, and the class invariant with the accumulator
  as a memref.
-/
import proofs.«156806_j16080357556617_2_alg».proof.Proof.Gen.Kernel.Launch
import proofs.«156806_j16080357556617_2_alg».proof.Proof.Gen.Kernel.Skeleton
import proofs.«156806_j16080357556617_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition (the accumulator is zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the epilogue), from the grid coordinates. -/
abbrev cond0_1 (i : grid0.Coords) : Prop := k0_cond2 i = 1#1
/-- It holds at the last point only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point output 6 is idle and not written back; at the last point it is live. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
/-- Away from the last point output 7 is idle and not written back; at the last point it is live. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The staging memrefs and the accumulator -/

/-- One staging buffer of each output window, through which its contents are stated. -/
abbrev VO0_6 : View sig .tc .vmem S512x1024 .bf16 := (Memref.whole cc0_stg6_0 : Memref sig .tc .vmem S512x1024 .bf16).view
abbrev VO0_7 : View sig .tc .vmem S512x1 .f32 := (Memref.whole cc0_stg7_0 : Memref sig .tc .vmem S512x1 .f32).view
abbrev ms0_0 (t : Fin cfg0.N) : Memref sig .tc .vmem S1x1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The accumulator: a whole scoped buffer of the kernel's own, carried between the points. -/
abbrev scM0_0 : Memref sig .tc .vmem S512x1024 .f32 := Memref.whole cc0_scratch0
abbrev VS0_0 : View sig .tc .vmem S512x1024 .f32 := scM0_0.view

/-- The other scoped buffers of the core that are no staging buffer of this region: each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA restS0; rw [scopedRest0_eq]; simp only [scM0_0, owns_whole]; try rfl

end Cert.Kernel.Hand

end
-- ==== Proof.K.Region0.RunA.lean ====
/-
  Region 0, the kernel body run whole at the first point (the accumulator is zeroed, then the head's block added; no epilogue).
-/
import proofs.«156806_j16080357556617_2_alg».proof.Proof.K.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 4000000 in
/-- What the body's stores leave in each output's staging memref and in the accumulator, as pieces (last first), at
    the first point (the accumulator is zeroed, then the head's block added; no epilogue), with the proof that on whole staging memrefs — the inputs' at their contents, the two outputs' at contents handed back untouched, the accumulator at anything —
    the body runs to the continuation holding the inputs' as they were and the accumulator with its pieces written. -/
noncomputable def kernelRun0_A (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) :
    Σ' (L6 : List (View.Piece (Elt F) S512x1024 .bf16)) (L7 : List (View.Piece (Elt F) S512x1 .f32)), { LS0 : List (View.Piece (Elt F) S512x1024 .f32) //
      ∀ (xi6 : Vec F S512x1024 .bf16) (xi7 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__prelim_kernel i arg1 harg1 arg2 harg2 arg3 harg3 arg4 harg4 arg5 harg5 arg6 harg6 arg7 harg7 arg8 harg8 arg9 harg9) K } := by
  refine ⟨[], [], ?_, fun xi6 xi7 E K => ?run⟩
  case run =>
    simp only [cc0__prelim_kernel_eq_skeleton]; unfold cc0__prelim_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.Kernel.Hand

end
-- ==== Proof.K.Region0.RunB.lean ====
/-
  Region 0, the kernel body run whole at a middle point (the head's block is added to the accumulator; no epilogue).
-/
import proofs.«156806_j16080357556617_2_alg».proof.Proof.K.Region0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 4000000 in
/-- What the body's stores leave in each output's staging memref and in the accumulator, as pieces (last first), at
    a middle point (the head's block is added to the accumulator; no epilogue), with the proof that on whole staging memrefs — the inputs' at their contents, the two outputs' at contents handed back untouched, the accumulator at what the point before left —
    the body runs to the continuation holding the inputs' as they were and the accumulator with its pieces written. -/
noncomputable def kernelRun0_B (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    Σ' (L6 : List (View.Piece (Elt F) S512x1024 .bf16)) (L7 : List (View.Piece (Elt F) S512x1 .f32)), { LS0 : List (View.Piece (Elt F) S512x1024 .f32) //
      ∀ (xi6 : Vec F S512x1024 .bf16) (xi7 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__prelim_kernel i arg1 harg1 arg2 harg2 arg3 harg3 arg4 harg4 arg5 harg5 arg6 harg6 arg7 harg7 arg8 harg8 arg9 harg9) K } := by
  refine ⟨[], [], ?_, fun xi6 xi7 E K => ?run⟩
  case run =>
    simp only [cc0__prelim_kernel_eq_skeleton]; unfold cc0__prelim_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.Kernel.Hand

end
-- ==== Proof.K.Region0.RunC.lean ====
/-
  Region 0, the kernel body run whole at the last point (the head's block is added, then the epilogue stores both outputs).
-/
import proofs.«156806_j16080357556617_2_alg».proof.Proof.K.Region0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 4000000 in
/-- What the body's stores leave in each output's staging memref and in the accumulator, as pieces (last first), at
    the last point (the head's block is added, then the epilogue stores both outputs), with the proof that on whole staging memrefs — the inputs' at their contents, the outputs' at anything, the accumulator at what the point before left —
    the body runs to the continuation holding the inputs' as they were, each output's buffer with its pieces written and the accumulator with its pieces written. -/
noncomputable def kernelRun0_C (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    Σ' (L6 : List (View.Piece (Elt F) S512x1024 .bf16)) (L7 : List (View.Piece (Elt F) S512x1 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__prelim_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__prelim_kernel_eq_skeleton]; unfold cc0__prelim_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.Kernel.Hand

end
-- ==== Proof.K.Region0.lean ====
/-
  Region 0 (the head-average kernel, grid of 16 points): its proof data at the entry contents `V`, the body obligation
  and the two invariant entailments. The accumulator is carried between the points: the invariant before a point that
  is not the first holds it at what the point before left. The two outputs are stored at the last point only and idle
  (handed back untouched, not written back) at the others.
-/
import proofs.«156806_j16080357556617_2_alg».proof.Proof.K.Region0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-- What the case leaves in output 6's staging buffer: its pieces read back over junk (no piece: a placeholder nothing consults, the window being idle and not written back there). -/
def out0_A_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) : Vec F S512x1024 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4 x5).1)

/-- The same of output 7. -/
def out0_A_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) : Vec F S512x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5).2.1)

/-- The case's pieces for the accumulator cover it. -/
theorem scover0_A_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (y : S512x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).2.2.1 S512x1024.size (by sl_kernel_rfl) y

/-- What the case leaves in the accumulator: its pieces read back over junk. -/
def sout0_A_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) : Vec F S512x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5).2.2.1)

/-- What the case leaves in output 6's staging buffer: its pieces read back over junk (no piece: a placeholder nothing consults, the window being idle and not written back there). -/
def out0_B_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 x5 xs0).1)

/-- The same of output 7. -/
def out0_B_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5 xs0).2.1)

/-- The case's pieces for the accumulator cover it. -/
theorem scover0_B_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1024.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xs0).2.2.1 S512x1024.size (by sl_kernel_rfl) y

/-- What the case leaves in the accumulator: its pieces read back over junk. -/
def sout0_B_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 x5 xs0).2.2.1)

/-- At the last point the pieces stored into output 6 tile its block, so they cover it. -/
theorem cover0_C_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1024.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).1 S512x1024.size (by sl_kernel_rfl) y

/-- At the last point the pieces stored into output 7 tile its block, so they cover it. -/
theorem cover0_C_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.1 S512x1.size (by sl_kernel_rfl) y

/-- What the case leaves in output 6's staging buffer: its pieces read back over junk. -/
def out0_C_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .bf16 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0).1)

/-- The same of output 7. -/
def out0_C_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 xs0).2.1)

/-- The case's pieces for the accumulator cover it. -/
theorem scover0_C_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1024.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.2.1 S512x1024.size (by sl_kernel_rfl) y

/-- What the case leaves in the accumulator: its pieces read back over junk. -/
def sout0_C_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the accumulator hold after each point -/

/-- What the two outputs' staging buffers and the accumulator hold after the body at position `n`: the case the closed
    forms select there, run at the point's memrefs and input blocks, over what the point before left in the accumulator. -/
def outsAt0 (c : Dev nD) : (n : ℕ) → n < cfg0.N → Vec F S512x1024 .bf16 × Vec F S512x1 .f32 × Vec F S512x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restS0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS0 (F := F) c) ∗ (∃ r, prngReg c r)) := by
  cases n with
  | zero => exact absurd rfl hz
  | succ n => rfl

/-! ## The proof data -/

/-- The proof data of region 0 on core `c`: the arrays as the region finds them (`V`); after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      ·
        rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

  · by_cases h1 : t.val % 16 = 15
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_6 out0_C_7 sout0_C_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Region1.Runs.lean ====
/-
  Region 1 (the row statistics of the logits, 94 tiles of 1024 columns): what the two cases of its body share.
  The body resets the running maximum and the running sum at the first tile (case A) and updates them at every
  later tile (case B).
-/
import proofs.«156806_j16080357556617_2_alg».proof.Proof.Gen.Kernel.Launch
import proofs.«156806_j16080357556617_2_alg».proof.Proof.Gen.Kernel.Skeleton
import proofs.«156806_j16080357556617_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's branch condition -/

/-- The condition of the body's one conditional, from the grid coordinates: the tile index is zero. -/
abbrev cond1_0 (i : grid1.Coords) : Prop := (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val % 94 = 0 :=
  (by decide +kernel : ∀ t : Fin grid1.N, cond1_0 (grid1.coords t) ↔ t.val % 94 = 0)

/-! ## The staging memrefs -/

/-- One staging buffer of each output window, through which its contents are stated. -/
abbrev VO1_1 : View sig .tc .vmem S512x1 .f32 := (Memref.whole cc1_stg1_0 : Memref sig .tc .vmem S512x1 .f32).view
abbrev VO1_2 : View sig .tc .vmem S512x1 .f32 := (Memref.whole cc1_stg2_0 : Memref sig .tc .vmem S512x1 .f32).view

/-- Each window's current staging memref at point `t`, as the pipeline passes it to the body, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)

end Cert.Kernel.Hand

end
-- ==== Proof.K.Region1.RunA.lean ====
/-
  Region 1, case A (the first tile): the whole body run once on whole staging memrefs. The two outputs' buffers are
  first set to the reset values, read back, and then hold the updated statistics.
-/
import proofs.«156806_j16080357556617_2_alg».proof.Proof.K.Region1.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- What the body's stores leave in each output's staging memref, as pieces (last first), at the first tile, with the
    proof that on whole staging memrefs — the input's at its contents, the outputs' at anything — the body runs to the
    continuation holding the input's as it was and each output's buffer with its pieces written. -/
noncomputable def kernelRun1_A (c : Dev nD) (i : grid1.Coords) (arg1 : Memref sig .tc .vmem S512x1024 .f32) (harg1 : arg1.IsWhole) (arg2 : Memref sig .tc .vmem S512x1 .f32) (harg2 : arg2.IsWhole) (arg3 : Memref sig .tc .vmem S512x1 .f32) (harg3 : arg3.IsWhole) (hc0 : cond1_0 i)
    (x0 : Vec F S512x1024 .f32) :
    Σ' (L1 : List (View.Piece (Elt F) S512x1 .f32)), { L2 : List (View.Piece (Elt F) S512x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.K.Region1.RunB.lean ====
/-
  Region 1, case B (every later tile): the whole body run once on whole staging memrefs, the two outputs' buffers at
  the running statistics the tile before left.
-/
import proofs.«156806_j16080357556617_2_alg».proof.Proof.K.Region1.RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- What the body's stores leave in each output's staging memref, as pieces (last first), at a later tile, with the
    proof that on whole staging memrefs — the input's at its contents, the outputs' at the running statistics
    `xo1`, `xo2` — the body runs to the continuation holding the input's as it was and each output's buffer with its
    pieces written. -/
noncomputable def kernelRun1_B (c : Dev nD) (i : grid1.Coords) (arg1 : Memref sig .tc .vmem S512x1024 .f32) (harg1 : arg1.IsWhole) (arg2 : Memref sig .tc .vmem S512x1 .f32) (harg2 : arg2.IsWhole) (arg3 : Memref sig .tc .vmem S512x1 .f32) (harg3 : arg3.IsWhole) (hc0 : ¬cond1_0 i)
    (x0 : Vec F S512x1024 .f32) (xo1 : Vec F S512x1 .f32) (xo2 : Vec F S512x1 .f32) :
    Σ' (L1 : List (View.Piece (Elt F) S512x1 .f32)), { L2 : List (View.Piece (Elt F) S512x1 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.K.Region1.Outs.lean ====
/-
  Region 1: the row statistics of the logits, tile by tile. The grid has 94 points, one per tile of 1024 columns.
  The two outputs (the running row maximum and the running sum of shifted exponentials) sit in one staging block
  each, reset at the first tile, updated at every later one and written back after the last. The input's last tile
  overhangs the array: its columns past the array's end hold anything, and the body replaces them by a large negative
  constant before it reduces, so what it leaves does not depend on them.
-/
import proofs.«156806_j16080357556617_2_alg».proof.Proof.K.Region1.RunB
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-! ## The masked tile does not depend on the columns past the array's end -/

/-- The part of window 0's block a transfer moves at point `t`: all 512 rows, and the columns inside the array. -/
theorem xsize1_0 : ∀ t : Fin grid1.N, win1_0.xsize (grid1.coords t) 0 = 512 ∧ win1_0.xsize (grid1.coords t) 1 = min 1024 (96103 - 1024 * (grid1.coords t 0).val) := by decide +kernel

/-- The column test of the mask, as a comparison of naturals: no 32-bit wrap below 94 tiles of 1024 columns. -/
theorem slt_mask (n k : Nat) (hn : n < 94) (hk : k < 1024) :
    (IntOp.cmpi .slt (IntOp.addi (Scalar.muli (BitVec.ofNat 32 n) 1024#32) (BitVec.ofNat 32 (0 * 1024 + k))) 96103#32 = 1#1) ↔ 1024 * n + k < 96103 := by
  unfold IntOp.cmpi IntOp.addi Scalar.muli IntOp.muli
  have e : (BitVec.ofNat 32 n * 1024#32 + BitVec.ofNat 32 (0 * 1024 + k)).toInt = ((1024 * n + k : Nat) : Int) := by
    rw [BitVec.toInt_eq_toNat_cond]
    simp only [BitVec.toNat_add, BitVec.toNat_mul, BitVec.toNat_ofNat]
    omega
  have e2 : (96103#32 : BitVec 32).toInt = 96103 := by decide
  simp only [BitVec.slt, e, e2]
  constructor
  · intro h
    by_contra hc
    have hn' : ¬(((1024 * n + k : Nat) : Int) < 96103) := by omega
    rw [decide_eq_false hn'] at h
    exact absurd h (by decide)
  · intro h
    have hp : ((1024 * n + k : Nat) : Int) < 96103 := by omega
    rw [decide_eq_true hp]
    rfl

/-- The masked tile, entry by entry: the tile's entry where the global column lies inside the array, the large negative constant elsewhere. -/
theorem pay3_apply (i : grid1.Coords) (v3 : Vec F S512x1024 .f32) (j : S512x1024.Idx) :
    k1_pay3 i v3 j = Scalar.select (IntOp.cmpi .slt (IntOp.addi (Scalar.muli (BitVec.ofNat 32 (i 0).val) 1024#32) (BitVec.ofNat 32 (0 * 1024 + (j 1).val))) 96103#32) (v3 j) (Scalar.ofBits .f32 0xF149F2CA#32) := by
  unfold k1_pay3
  simp only [shapeCast_self]
  rfl

/-- Where the mask keeps an entry, the transfer moved it. -/
theorem moved_of_mask (t : Fin cfg1.N) (j : S512x1024.Idx)
    (h : IntOp.cmpi .slt (IntOp.addi (Scalar.muli (BitVec.ofNat 32 (grid1.coords t 0).val) 1024#32) (BitVec.ofNat 32 (0 * 1024 + (j 1).val))) 96103#32 = 1#1) :
    win1_0.moved (grid1.coords t) j = true := by
  rw [Window.moved_iff]
  have hx := xsize1_0 t
  have hlt := (slt_mask _ _ (grid1.coords t 0).isLt (j 1).isLt).mp h
  intro a
  match a with
  | ⟨0, _⟩ => show (j 0).val < win1_0.xsize (grid1.coords t) 0; rw [hx.1]; exact (j 0).isLt
  | ⟨1, _⟩ => show (j 1).val < win1_0.xsize (grid1.coords t) 1; rw [hx.2]; have hj : (j 1).val < 1024 := (j 1).isLt; omega

/-- So the masked tile is the same whatever the staging buffer held past the array's end. -/
theorem pay3_fill (t : Fin cfg1.N) (d d' : S512x1024.Idx → Elt F .f32) (g : (win1_0.xblock (grid1.coords t)).Idx → Elt F .f32) :
    k1_pay3 (grid1.coords t) (win1_0.fill (grid1.coords t) d g) = k1_pay3 (grid1.coords t) (win1_0.fill (grid1.coords t) d' g) := by
  funext j
  rw [pay3_apply, pay3_apply]
  unfold Scalar.select
  split
  · next h =>
    have hm := moved_of_mask t j h
    unfold Window.fill
    rw [dif_pos hm, dif_pos hm]
  · rfl

theorem pay5_fill (t : Fin cfg1.N) (d d' : S512x1024.Idx → Elt F .f32) (g : (win1_0.xblock (grid1.coords t)).Idx → Elt F .f32) (v15 : Vec F S512x1 .f32) :
    k1_pay5 (grid1.coords t) (win1_0.fill (grid1.coords t) d g) v15 = k1_pay5 (grid1.coords t) (win1_0.fill (grid1.coords t) d' g) v15 := by
  unfold k1_pay5
  rw [pay3_fill t d d']

theorem pay6_fill (t : Fin cfg1.N) (d d' : S512x1024.Idx → Elt F .f32) (g : (win1_0.xblock (grid1.coords t)).Idx → Elt F .f32) (v15 v25 : Vec F S512x1 .f32) :
    k1_pay6 (grid1.coords t) (win1_0.fill (grid1.coords t) d g) v15 v25 = k1_pay6 (grid1.coords t) (win1_0.fill (grid1.coords t) d' g) v15 v25 := by
  unfold k1_pay6
  rw [pay3_fill t d d', pay5_fill t d d']

/-! ## What each case leaves in the outputs' buffers -/

theorem cover1_A_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x0 : Vec F S512x1024 .f32) (y : S512x1.Idx) :
    ∃ pc ∈ (kernelRun1_A c i a1 h1 a2 h2 a3 h3 hc x0).1, y ∈ pc.1.set :=
  View.cover_of_tiledL (kernelRun1_A c i a1 h1 a2 h2 a3 h3 hc x0).1 S512x1.size (by sl_kernel_rfl) y

theorem cover1_A_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x0 : Vec F S512x1024 .f32) (y : S512x1.Idx) :
    ∃ pc ∈ (kernelRun1_A c i a1 h1 a2 h2 a3 h3 hc x0).2.1, y ∈ pc.1.set :=
  View.cover_of_tiledL (kernelRun1_A c i a1 h1 a2 h2 a3 h3 hc x0).2.1 S512x1.size (by sl_kernel_rfl) y

theorem cover1_B_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x0 : Vec F S512x1024 .f32) (xo1 xo2 : Vec F S512x1 .f32) (y : S512x1.Idx) :
    ∃ pc ∈ (kernelRun1_B c i a1 h1 a2 h2 a3 h3 hc x0 xo1 xo2).1, y ∈ pc.1.set :=
  View.cover_of_tiledL (kernelRun1_B c i a1 h1 a2 h2 a3 h3 hc x0 xo1 xo2).1 S512x1.size (by sl_kernel_rfl) y

theorem cover1_B_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x0 : Vec F S512x1024 .f32) (xo1 xo2 : Vec F S512x1 .f32) (y : S512x1.Idx) :
    ∃ pc ∈ (kernelRun1_B c i a1 h1 a2 h2 a3 h3 hc x0 xo1 xo2).2.1, y ∈ pc.1.set :=
  View.cover_of_tiledL (kernelRun1_B c i a1 h1 a2 h2 a3 h3 hc x0 xo1 xo2).2.1 S512x1.size (by sl_kernel_rfl) y

/-- The first tile leaves the running maximum at the update of the reset value, -/
theorem out1_A_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x : Vec F S512x1024 .f32) :
    VO1_1.read (Elt F) (VO1_1.writes (Elt F) VO1_1.junk (kernelRun1_A c i a1 h1 a2 h2 a3 h3 hc x).1) = k1_pay5 i x (k1_pay1 (F := F)) := by
  rw [View.read_writes_eq_canon _ _ _ (cover1_A_1 c i a1 h1 a2 h2 a3 h3 hc x)]
  unfold kernelRun1_A
  dsimp only
  sl_unfold_words
  rw [View.canon_cons_unit_zero (S := S512x1) hz1]
  simp only [View.readCov_unit_zero (S := S512x1) _ hz1, View.readAt_eq_ld, h1.read_unread, View.ld_unit_zero (S := S512x1024) hz1]

/-- and the running sum at the update of the reset values. -/
theorem out1_A_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x : Vec F S512x1024 .f32) :
    VO1_2.read (Elt F) (VO1_2.writes (Elt F) VO1_2.junk (kernelRun1_A c i a1 h1 a2 h2 a3 h3 hc x).2.1) = k1_pay6 i x (k1_pay1 (F := F)) (k1_pay2 (F := F)) := by
  rw [View.read_writes_eq_canon _ _ _ (cover1_A_2 c i a1 h1 a2 h2 a3 h3 hc x)]
  unfold kernelRun1_A
  dsimp only
  sl_unfold_words
  rw [View.canon_cons_unit_zero (S := S512x1) hz1]
  simp only [View.readCov_unit_zero (S := S512x1) _ hz1, View.readAt_eq_ld, h1.read_unread, View.ld_unit_zero (S := S512x1024) hz1]

/-- A later tile leaves the update of the running statistics it found. -/
theorem out1_B_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x : Vec F S512x1024 .f32) (xo1 xo2 : Vec F S512x1 .f32) :
    VO1_1.read (Elt F) (VO1_1.writes (Elt F) VO1_1.junk (kernelRun1_B c i a1 h1 a2 h2 a3 h3 hc x xo1 xo2).1) = k1_pay5 i x xo1 := by
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, h3.read_unread, View.ld_unit_zero (S := S512x1024) hz1, View.ld_unit_zero (S := S512x1) hz1]

theorem out1_B_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x : Vec F S512x1024 .f32) (xo1 xo2 : Vec F S512x1 .f32) :
    VO1_2.read (Elt F) (VO1_2.writes (Elt F) VO1_2.junk (kernelRun1_B c i a1 h1 a2 h2 a3 h3 hc x xo1 xo2).2.1) = k1_pay6 i x xo1 xo2 := by
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h2.read_unread, h3.read_unread, View.ld_unit_zero (S := S512x1024) hz1, View.ld_unit_zero (S := S512x1) hz1]

end Cert.Kernel.Hand

end
-- ==== Proof.K.Region1.lean ====
/-
  Region 1 (the row statistics of the logits): the proof data, point by point, and the body obligation.
  After tile `n` the two outputs' staging blocks hold the pair of running statistics: the update of the reset values
  at the first tile, the update of the pair the tile before left at every later one.
-/
import proofs.«156806_j16080357556617_2_alg».proof.Proof.K.Region1.Outs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input tile at point `t` filled out to the whole staging block: the block's part inside the array, and the
    zero word past the array's end (which the body masks before it reduces). -/
def xin1 (c : Dev nD) (t : Fin cfg1.N) : Vec F S512x1024 .f32 :=
  win1_0.fill (grid1.coords t) (fun _ => Scalar.ofBits .f32 0#32) (iblk1 V c 0 t)

/-! ## What the outputs hold after each point -/

/-- The pair (running maximum, running sum) after the body at tile `n`. -/
def outsAt1 (c : Dev nD) : (n : ℕ) → n < cfg1.N → Vec F S512x1 .f32 × Vec F S512x1 .f32
  | 0, hn => (k1_pay5 (grid1.coords ⟨0, hn⟩) (xin1 V c ⟨0, hn⟩) (k1_pay1 (F := F)),
              k1_pay6 (grid1.coords ⟨0, hn⟩) (xin1 V c ⟨0, hn⟩) (k1_pay1 (F := F)) (k1_pay2 (F := F)))
  | n + 1, hn =>
    (k1_pay5 (grid1.coords ⟨n + 1, hn⟩) (xin1 V c ⟨n + 1, hn⟩) (outsAt1 c n (Nat.lt_of_succ_lt hn)).1,
     k1_pay6 (grid1.coords ⟨n + 1, hn⟩) (xin1 V c ⟨n + 1, hn⟩) (outsAt1 c n (Nat.lt_of_succ_lt hn)).1 (outsAt1 c n (Nat.lt_of_succ_lt hn)).2)

theorem outsAt1_A (c : Dev nD) (t : Fin cfg1.N) (h0 : t.val % 94 = 0) :
    outsAt1 V c t.val t.isLt = (k1_pay5 (grid1.coords t) (xin1 V c t) (k1_pay1 (F := F)),
      k1_pay6 (grid1.coords t) (xin1 V c t) (k1_pay1 (F := F)) (k1_pay2 (F := F))) := by
  obtain ⟨n, hn⟩ := t
  have hN : n < 94 := lt_of_lt_of_eq hn (show cfg1.N = 94 from N_1)
  cases n with
  | zero => rfl
  | succ n => exact absurd h0 (by dsimp only; omega)

theorem outsAt1_B (c : Dev nD) (t : Fin cfg1.N) (h0 : ¬t.val % 94 = 0) :
    outsAt1 V c t.val t.isLt = (k1_pay5 (grid1.coords t) (xin1 V c t) (outsAt1 V c (t.val - 1) (Nat.lt_of_le_of_lt (Nat.sub_le _ _) t.isLt)).1,
      k1_pay6 (grid1.coords t) (xin1 V c t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd (Nat.zero_mod _) h0
  | succ n => rfl

/-! ## The pipeline's proof data -/

/-- The proof data of the pipeline on core `c`: the arrays as the region finds them; after the body at point `t` the
    input's buffer at its filled-out tile and the outputs' at the running statistics; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => xin1 V c t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xin1 V c t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

/-- The input's current staging buffer, fetched at every point, holds its block on the part inside the array and what
    it held before (`d`) past the array's end. -/
theorem before1_0 (c : Dev nD) (t : Fin cfg1.N) (d) :
    (dat1 V c).before 0 t d = win1_0.fill (grid1.coords t) d (iblk1 V c 0 t) := by
  rw [Dat.before_fetched _ 0 t (fetch1_0 t)]
  unfold Dat.fetched Dat.blockOf iblk1
  rw [A_eq1]

/-- At a later tile each output's staging buffer holds what the body left at the tile before: the block is not written
    back in between. -/
theorem before1_1_B (c : Dev nD) (t : Fin cfg1.N) (h0 : ¬t.val % 94 = 0) (d) :
    (dat1 V c).before 1 t d = (outsAt1 V c (t.val - 1) (Nat.lt_of_le_of_lt (Nat.sub_le _ _) t.isLt)).1 := by
  have hN : t.val < 94 := lt_of_lt_of_eq t.isLt (show cfg1.N = 94 from N_1)
  rw [Dat.before_out_kept _ 1 rfl t (by omega) (Bool.eq_false_iff.mpr fun h => by have := (flush1_1 _).mp h; dsimp only at this; omega)
    (fun _ => rfl) (fun _ _ => rfl)]
  dsimp only [dat1]

theorem before1_2_B (c : Dev nD) (t : Fin cfg1.N) (h0 : ¬t.val % 94 = 0) (d) :
    (dat1 V c).before 2 t d = (outsAt1 V c (t.val - 1) (Nat.lt_of_le_of_lt (Nat.sub_le _ _) t.isLt)).2 := by
  have hN : t.val < 94 := lt_of_lt_of_eq t.isLt (show cfg1.N = 94 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the input's buffer stated on the part the transfers move only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ owns (c : Thread nD τ) (st1_1 t) fullShare ((dat1 V c).after 1 t)
    ∗ owns (c : Thread nD τ) (st1_2 t) fullShare ((dat1 V c).after 2 t))

set_option maxHeartbeats 1600000 in
/-- The body at any point: the input's memref holds its tile, anything past the array's end; the point is the first
    tile or a later one, where the outputs' memrefs hold what the tile before left; so the case's run applies; what it
    leaves does not depend on the columns past the array's end. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hcut : (cfg1.win 0).cut (cfg1.grid.coords t) (xin1 V c t) = iblk1 V c 0 t := by
    unfold xin1; exact Window.cut_fill _ _ _ _
  rw [hcut]
  by_cases h0 : t.val % 94 = 0
  · rw [outsAt1_A V c t h0]
    iintro ⟨HΦ, Ho, ⟨%d0, H0⟩, ⟨%d1, H1⟩, ⟨%d2, H2⟩⟩
    iapply ((kernelRun1_A c (grid1.coords t) _ _ _ _ _ _ ((hcond1_0 t).mpr h0) (win1_0.fill (grid1.coords t) d0 (iblk1 V c 0 t))).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexists d0; iexact H0
    isplitl [H1]
    · unfold owns; iexists _; isplitr
      swap; · iexact H1
      ipureintro
      refine (View.read_writes_of_cover _ _ _ _ _ (cover1_A_1 c _ _ _ _ _ _ _ _ _)).trans ((out1_A_1 c _ _ _ _ _ _ _ _ _).trans ?_)
      exact pay5_fill t _ _ _ _
    · unfold owns; iexists _; isplitr
      swap; · iexact H2
      ipureintro
      refine (View.read_writes_of_cover _ _ _ _ _ (cover1_A_2 c _ _ _ _ _ _ _ _ _)).trans ((out1_A_2 c _ _ _ _ _ _ _ _ _).trans ?_)
      exact pay6_fill t _ _ _ _ _
  · rw [outsAt1_B V c t h0]
    simp only [before1_1_B V c t h0, before1_2_B V c t h0]
    iintro ⟨HΦ, Ho, ⟨%d0, H0⟩, ⟨%d1, H1⟩, ⟨%d2, H2⟩⟩
    iapply ((kernelRun1_B c (grid1.coords t) _ _ _ _ _ _ (fun h => h0 ((hcond1_0 t).mp h)) (win1_0.fill (grid1.coords t) d0 (iblk1 V c 0 t)) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexists d0; iexact H0
    isplitl [H1]
    · unfold owns; iexists _; isplitr
      swap; · iexact H1
      ipureintro
      refine (View.read_writes_of_cover _ _ _ _ _ (cover1_B_1 c _ _ _ _ _ _ _ _ _ _ _)).trans ((out1_B_1 c _ _ _ _ _ _ _ _ _ _ _).trans ?_)
      exact pay5_fill t _ _ _ _
    · unfold owns; iexists _; isplitr
      swap; · iexact H2
      ipureintro
      refine (View.read_writes_of_cover _ _ _ _ _ (cover1_B_2 c _ _ _ _ _ _ _ _ _ _ _)).trans ((out1_B_2 c _ _ _ _ _ _ _ _ _ _ _).trans ?_)
      exact pay6_fill t _ _ _ _ _

/-- The body obligation as the loop uses it (the input window's buffer stated on the moved part), at every point. -/
theorem body_obligation1 (c : Dev nD) : BodyObligationLoose (dat1 (F := F) V c) (defs₀ (F := F)) Variants.none () Set.univ := fun t => by
  rw [bigSep_W1, bigSep_W1]
  exact sound_body1 V c t

/-- The invariant is the class's at every point: entering and leaving the region are the identity. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Region

end Cert.Kernel.Hand

end
-- ==== Proof.K.Region2.Body.lean ====
import proofs.«156806_j16080357556617_2_alg».proof.Proof.Gen.Kernel.Launch
import proofs.«156806_j16080357556617_2_alg».proof.Proof.Gen.Kernel.Skeleton
import proofs.«156806_j16080357556617_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The third kernel's body on whole staging buffers

The body loads its six inputs through whole rectangles, loads the output's buffer (a value nothing reads) and stores
one whole [512, 1024] tile: the blend of the softmax term and the one-hot product. -/

/-- The whole [512, 1024] rectangle: every load of the two large inputs and the one store go through it. -/
abbrev rTile : Rect S512x1024 := Rect.unit (s := S512x1024) ![0, 0] S512x1024.size inb_S512x1024_S512x1024_0_0
/-- The whole [512, 1] rectangle of the three per-row inputs. -/
abbrev rCol : Rect S512x1 := Rect.unit (s := S512x1) ![0, 0] S512x1.size inb_S512x1_S512x1_0_0
/-- The whole [1, 1024] rectangle of the table of winning positions. -/
abbrev rRow : Rect S1x1024 := Rect.unit (s := S1x1024) ![0, 0] S1x1024.size inb_S1x1024_S1x1024_0_0

/-- What the body leaves in the output's staging buffer, from what the six input buffers hold: its one store, the
    payload over the values the loads read. The arguments in the windows' order: logits tile, attention weights,
    winning positions, gate, row maximum, row sum. -/
def out2_6 (x0 : Vec F S512x1024 .f32) (x1 : Vec F S512x1024 .bf16) (x2 : Vec F S1x1024 .i32)
    (x3 x4 x5 : Vec F S512x1 .f32) : Vec F S512x1024 .f32 :=
  View.canon [⟨rTile, k2_pay1 (View.ld x0 rTile) (View.ld x4 rCol) (View.ld x5 rCol) (View.ld x3 rCol) (View.ld x1 rTile) (View.ld x2 rRow)⟩]

/-- The one store covers the buffer. -/
theorem cover2_6 (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

set_option maxHeartbeats 1000000 in
/-- The body on whole staging memrefs, the inputs' at contents `x0 … x5` and the output's at anything, runs to the
    continuation holding the inputs' as they were and the output's at `out2_6` of them. -/
theorem sound_kernel2 (c : Dev nD) (E : Set ℕ) (i : grid2.Coords)
    (arg1 : Memref sig .tc .vmem S512x1024 .f32) (harg1 : arg1.IsWhole) (arg2 : Memref sig .tc .vmem S512x1024 .bf16) (harg2 : arg2.IsWhole)
    (arg3 : Memref sig .tc .vmem S1x1024 .i32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (arg7 : Memref sig .tc .vmem S512x1024 .f32) (harg7 : arg7.IsWhole)
    (x0 : Vec F S512x1024 .f32) (x1 : Vec F S512x1024 .bf16) (x2 : Vec F S1x1024 .i32) (x3 x4 x5 : Vec F S512x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__final_kernel i arg1 harg1 arg2 harg2 arg3 harg3 arg4 harg4 arg5 harg5 arg6 harg6 arg7 harg7) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

end Cert.Kernel.Hand

end
-- ==== Proof.K.Region2.Data.lean ====
import proofs.«156806_j16080357556617_2_alg».proof.Proof.K.Region2.Body
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The third region's proof data, at the buffer contents `V` the region is entered with

Three of the seven windows overhang their arrays at the last point (the logits tile, the table of winning positions
and the output tile: 96103 = 93 · 1024 + 871): there a fetch fills the staging buffer's first 871 columns and leaves
the rest at words nothing names, and the write-back moves the first 871 columns only. -/

section Regions

variable (V : (c : Dev nD) → (b : Ref sig .tc) → Buf (Elt F) ((c : Thread nD τ).loc b))

/-- Window `w`'s block at point `t`, read off its array as the region finds it: the part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The logits tile at point `t` filled out to the staging buffer's shape: past the array's end a word nothing reads. -/
def fblk2_0 (c : Dev nD) (t : Fin cfg2.N) : Vec F S512x1024 .f32 :=
  win2_0.fill (grid2.coords t) (fun _ => Classical.choice (Elt.nonempty F _)) (iblk2 V c 0 t)
/-- The tile of winning positions, likewise. -/
def fblk2_2 (c : Dev nD) (t : Fin cfg2.N) : Vec F S1x1024 .i32 :=
  win2_2.fill (grid2.coords t) (fun _ => Classical.choice (Elt.nonempty F _)) (iblk2 V c 2 t)

/-- The proof data: the arrays as the region finds them; after the body at point `t` each input's buffer at its
    block (the two clipped ones filled out) and the output's at the body's store over them; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => fblk2_0 V c t
    | ⟨1, _⟩ => iblk2 V c 1 t
    | ⟨2, _⟩ => fblk2_2 V c t
    | ⟨3, _⟩ => iblk2 V c 3 t
    | ⟨4, _⟩ => iblk2 V c 4 t
    | ⟨5, _⟩ => iblk2 V c 5 t
    | ⟨6, _⟩ => out2_6 (fblk2_0 V c t) (iblk2 V c 1 t) (fblk2_2 V c t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = fblk2_0 V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = fblk2_2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (fblk2_0 V c t) (iblk2 V c 1 t) (fblk2_2 V c t) (iblk2 V c 3 t) (iblk2 V c 4 t) (iblk2 V c 5 t) := by dsimp only [dat2]

/-- The invariant is the class's at every point: entering and leaving it are the identity. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

/-! ## What the body finds -/

/-- The two clipped inputs are fetched at every point: the block on the part inside the array, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl

/-- The four whole-array inputs, fetched at the first point only, hold their block at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- The output's buffer, written back at every point, is found at contents nothing names. -/
theorem before2_6 (c : Dev nD) (t : Fin cfg2.N) (d) : (dat2 V c).before 6 t d = d :=
  (dat2 V c).before_out_reset 6 rfl t
    (by by_cases h : t.val = 0
        · exact .inl h
        · exact .inr ⟨h, flush2_6 _⟩) d

end Regions

end Cert.Kernel.Hand

end
-- ==== Proof.K.Region2.lean ====
import proofs.«156806_j16080357556617_2_alg».proof.Proof.K.Region2.Data
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The third region's body obligation

Generic in the float values, with the OUTPUT window's buffer handed back at contents nothing names: at the last point
the body's matrix product reads the whole staging tile of winning positions, whose columns past the array's end hold
words nothing names, and for a generic product nothing says the output's columns inside the array do not depend on
them. (The idealized program's copy of this region states the obligation exactly at the ideal values, where the product is a sum column by column.) -/

section Regions

variable (V : (c : Dev nD) → (b : Ref sig .tc) → Buf (Elt F) ((c : Thread nD τ).loc b))

/-- What the body is called with at point `t`: the invariant, the core's `owes`, the six inputs' current buffers at
    what they hold, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ X, owns (c : Thread nD τ) (st2_6 t) fullShare X))

/-- What it returns: the inputs' buffers as found — the two clipped ones at their block filled out with the words
    `d0`, `d2` they were found with past the array's end — and the output's at the store over exactly those. -/
def bodyMid2 (c : Dev nD) (t : Fin cfg2.N) : sProp 𝕄 :=
  iprop((dat2 V c).Φ t.succ ∗ (dat2 V c).owesAt () t.succ
    ∗ ∃ d0 d2, owns (c : Thread nD τ) (st2_0 t) fullShare (win2_0.fill (grid2.coords t) d0 (iblk2 V c 0 t))
      ∗ owns (c : Thread nD τ) (st2_1 t) fullShare (iblk2 V c 1 t)
      ∗ owns (c : Thread nD τ) (st2_2 t) fullShare (win2_2.fill (grid2.coords t) d2 (iblk2 V c 2 t))
      ∗ owns (c : Thread nD τ) (st2_3 t) fullShare (iblk2 V c 3 t)
      ∗ owns (c : Thread nD τ) (st2_4 t) fullShare (iblk2 V c 4 t)
      ∗ owns (c : Thread nD τ) (st2_5 t) fullShare (iblk2 V c 5 t)
      ∗ owns (c : Thread nD τ) (st2_6 t) fullShare (out2_6 (win2_0.fill (grid2.coords t) d0 (iblk2 V c 0 t)) (iblk2 V c 1 t) (win2_2.fill (grid2.coords t) d2 (iblk2 V c 2 t)) (iblk2 V c 3 t) (iblk2 V c 4 t) (iblk2 V c 5 t)))

/-- The body at any point: the inputs' buffers hold their blocks, so the body's triple applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyMid2 V c t) := by
  unfold bodyPre2 bodyMid2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (win2_0.fill (grid2.coords t) d0 (iblk2 V c 0 t)) (iblk2 V c 1 t) (win2_2.fill (grid2.coords t) d2 (iblk2 V c 2 t)) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  iexists d0; iexists d2
  isplitl [H0]; · iexact H0
  isplitl [H1]; · iexact H1
  isplitl [H2]; · iexact H2
  isplitl [H3]; · iexact H3
  isplitl [H4]; · iexact H4
  isplitl [H5]; · iexact H5
  iexact H6

/-- The windows the generic obligation forgets: the output's. -/
abbrev fgt2 : Fin 7 → Bool := fun | 0 => false | 1 => false | 2 => false | 3 => false | 4 => false | 5 => false | 6 => true | ⟨_ + 7, h⟩ => absurd h (Nat.not_lt.2 (Nat.le_add_left _ _))

/-- The obligation's post with the output forgotten, the windows one by one: each clipped input at its block on the
    part inside the array, the whole-array inputs at their blocks, the output's buffer at anything. -/
def bodyPostF2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ owns (c : Thread nD τ) (st2_1 t) fullShare ((dat2 V c).after 1 t)
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (∃ X, owns (c : Thread nD τ) (st2_6 t) fullShare X))

theorem mid_postF2 (c : Dev nD) (t : Fin cfg2.N) : bodyMid2 V c t ⊢ bodyPostF2 V c t := by
  unfold bodyMid2 bodyPostF2
  rw [after2_0, after2_1, after2_2, after2_3, after2_4, after2_5]
  unfold fblk2_0 fblk2_2
  rw [Window.cut_fill, Window.cut_fill]
  iintro ⟨HΦ, Ho, %d0, %d2, H0, H1, H2, H3, H4, H5, H6⟩
  isplitl [HΦ]; · iexact HΦ
  isplitl [Ho]; · iexact Ho
  isplitl [H0]; · iexists d0; iexact H0
  isplitl [H1]; · iexact H1
  isplitl [H2]; · iexists d2; iexact H2
  isplitl [H3]; · iexact H3
  isplitl [H4]; · iexact H4
  isplitl [H5]; · iexact H5
  iexists _; iexact H6

/-- The body obligation at every point, the output window forgotten: for any float values. -/
theorem body_obligation2_fgt (c : Dev nD) :
    BodyObligationLoose (dat2 (F := F) V c) (defs₀ (F := F)) Variants.none () Set.univ fgt2 := fun t => by
  rw [bigSep_W2, bigSep_W2]
  exact (sound_body2 V c t).trans (wp_mono _ _ _ fun _ => mid_postF2 V c t)

end Regions

end Cert.Kernel.Hand

end
-- ==== Proof.K.Fold.lean ====
/-
  The buffer contents at every boundary of @main — first host stretch, region 0, second host stretch, region 1,
  region 2 — as a fold from the launch memory: a host stretch applies its operations, a region leaves each of its
  arrays at what its write-backs make of it and every other buffer alone. No host operation writes an argument
  and no region changes one, so each argument is read back through the fold to its launch contents; the two
  results are read off the fold at the arrays regions 0 and 2 leave.
-/
import proofs.«156806_j16080357556617_2_alg».proof.Proof.K.Region0
import proofs.«156806_j16080357556617_2_alg».proof.Proof.K.Region1
import proofs.«156806_j16080357556617_2_alg».proof.Proof.K.Region2
import proofs.«156806_j16080357556617_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: host stretch, region 0, host stretch, region 1, region 2 -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, an output at its write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, an output at its write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (an input as entered, an output at its write-backs
    folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments at the boundaries: no host stretch writes one, no region changes one -/

theorem W1_of (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h
/-- The first argument is region 0's first window: an input array is never written. -/
theorem W4_main_arg0 (c : Dev nD) : W4 m c (Proc.devRef .tc main_arg0) = m ((c : Thread nD τ).loc main_arg0) :=
  (W4_of_ne m c main_arg0 (by decide)).trans <| (W3_of m c main_arg0 (by decide)).trans <|
    (W2_arr m c 0).trans <| ((dat0 (V1 m) c).arrAt_in 0 rfl _).trans <| (A_eq0 (V1 m) c 0).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <|
    (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <|
    (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <|
    (W2_of_ne m c main_arg5 (by decide)).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <|
    (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <|
    (W2_of_ne m c main_arg7 (by decide)).trans <| (W1_of m c main_arg7 (by decide)).trans rfl

/-! ## What the last boundary holds at the arguments and at the two results; what region 2 is entered with -/
theorem W5_main_arg0 (c : Dev nD) : W5 m c (Proc.devRef .tc main_arg0) = m ((c : Thread nD τ).loc main_arg0) :=
  (W5_of_ne m c main_arg0 (by decide)).trans (W4_main_arg0 m c)
theorem W5_main_arg1 (c : Dev nD) : W5 m c (Proc.devRef .tc main_arg1) = m ((c : Thread nD τ).loc main_arg1) :=
  (W5_of_ne m c main_arg1 (by decide)).trans (W4_main_arg1 m c)
theorem W5_main_arg2 (c : Dev nD) : W5 m c (Proc.devRef .tc main_arg2) = m ((c : Thread nD τ).loc main_arg2) :=
  (W5_of_ne m c main_arg2 (by decide)).trans (W4_main_arg2 m c)
theorem W5_main_arg3 (c : Dev nD) : W5 m c (Proc.devRef .tc main_arg3) = m ((c : Thread nD τ).loc main_arg3) :=
  (W5_of_ne m c main_arg3 (by decide)).trans (W4_main_arg3 m c)
theorem W5_main_arg4 (c : Dev nD) : W5 m c (Proc.devRef .tc main_arg4) = m ((c : Thread nD τ).loc main_arg4) :=
  (W5_of_ne m c main_arg4 (by decide)).trans (W4_main_arg4 m c)
theorem W5_main_arg5 (c : Dev nD) : W5 m c (Proc.devRef .tc main_arg5) = m ((c : Thread nD τ).loc main_arg5) :=
  (W5_of_ne m c main_arg5 (by decide)).trans (W4_main_arg5 m c)
theorem W5_main_arg6 (c : Dev nD) : W5 m c (Proc.devRef .tc main_arg6) = m ((c : Thread nD τ).loc main_arg6) :=
  (W5_of_ne m c main_arg6 (by decide)).trans (W4_main_arg6 m c)
theorem W5_main_arg7 (c : Dev nD) : W5 m c (Proc.devRef .tc main_arg7) = m ((c : Thread nD τ).loc main_arg7) :=
  (W5_of_ne m c main_arg7 (by decide)).trans (W4_main_arg7 m c)
/-- Region 2 finds the gate where region 0 left it. -/
theorem V4_main_v8_1 (c : Dev nD) : V4 m c main_v8_1 = (dat0 (V1 m) c).arrAt 7 cfg0.N :=
  (W4_of_ne m c main_v8_1 (by decide)).trans <| (W3_of m c main_v8_1 (by decide)).trans (W2_arr m c 7)
/-- Region 2 finds the head average where region 0 left it. -/
theorem V4_main_v8_0 (c : Dev nD) : V4 m c main_v8_0 = (dat0 (V1 m) c).arrAt 6 cfg0.N :=
  (W4_of_ne m c main_v8_0 (by decide)).trans <| (W3_of m c main_v8_0 (by decide)).trans (W2_arr m c 6)
/-- Region 2 finds the row statistics where region 1 left them. -/
theorem V4_main_v24_0 (c : Dev nD) : V4 m c main_v24_0 = (dat1 (V3 m) c).arrAt 1 cfg1.N := W4_arr m c 1
theorem V4_main_v24_1 (c : Dev nD) : V4 m c main_v24_1 = (dat1 (V3 m) c).arrAt 2 cfg1.N := W4_arr m c 2
/-- The logits and the table of winning positions reach region 2 as the second host stretch wrote them. -/
theorem V4_main_v23 (c : Dev nD) : V4 m c main_v23 = V3 m c main_v23 :=
  (W4_arr m c 0).trans <| ((dat1 (V3 m) c).arrAt_in 0 rfl _).trans (A_eq1 (V3 m) c 0)
theorem V4_main_v22 (c : Dev nD) : V4 m c main_v22 = V3 m c main_v22 := W4_of_ne m c main_v22 (by decide)
/-- The first result: the gate, as region 0 left it (region 2 only reads it). -/
theorem W5_main_v8_1 (c : Dev nD) : W5 m c (Proc.devRef .tc main_v8_1) = (dat0 (V1 m) c).arrAt 7 cfg0.N :=
  (W5_arr m c 3).trans <| ((dat2 (V4 m) c).arrAt_in 3 rfl _).trans <| (A_eq2 (V4 m) c 3).trans (V4_main_v8_1 m c)
/-- The second result: what region 2 leaves in its output array. -/
theorem W5_main_v25 (c : Dev nD) : W5 m c (Proc.devRef .tc main_v25) = (dat2 (V4 m) c).arrAt 6 cfg2.N := W5_arr m c 6

end Cert.Kernel.Hand

end
-- ==== Proof.K.RunR.Data.lean ====
/- The three regions' proof data read relationally, the third kernel's output window forgotten, and the last thread state. -/
import proofs.«156806_j16080357556617_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data read relationally; region 2's output window forgotten (what the third kernel leaves in the
    overhanging part of its last block is not named). -/
def rdats : (p : Fin 3) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V4 m) c).toRForget fgt2

/-- The last thread state without the `owes`: every unscoped buffer as region 2 found it, its arrays at something. -/
abbrev TₙR (c : Dev nD) : sProp 𝕄 := iprop((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ ∃ r, prngReg c r)

end Cert.Kernel.Hand

end
-- ==== Proof.K.RunR.Reg0.lean ====
/- Region 0 as a segment over the thread state: entry, invariant in and out, exit. -/
import proofs.«156806_j16080357556617_2_alg».proof.Proof.K.RunR.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] PhiS outsAt0

set_option maxHeartbeats 8000000 in
set_option backward.isDefEq.respectTransparency.types false in
/-- Region 0 over the thread state, its proof data read relationally. -/
def regR0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V1 m) c)
  hout c := (hout0 (V1 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.K.RunR.Reg1.lean ====
/- Region 1 as a segment over the thread state: entry, invariant in and out, exit. -/
import proofs.«156806_j16080357556617_2_alg».proof.Proof.K.RunR.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
set_option backward.isDefEq.respectTransparency.types false in
/-- Region 1 over the thread state, its proof data read relationally. -/
def regR1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m) c)
  hout c := (hout1 (V3 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    rw [show (rdats m 1 c).arraysAt (Pipeline.pin (pcfgs (F := F)) adm 1).N = ((pdats m 1 c).arrays ((pdats m 1 c).arrAt · cfg1.N) : sProp 𝕄)
      from (pdats m 1 c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.K.RunR.Reg2.lean ====
/- Region 2 as a segment over the thread state; what it leaves in its arrays is not named. -/
import proofs.«156806_j16080357556617_2_alg».proof.Proof.K.RunR.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
set_option backward.isDefEq.respectTransparency.types false in
/-- Region 2 over the thread state, its proof data read relationally. -/
def regR2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_fgt (V4 m) c).toRForget
  hwaits := Pipeline.RDat.hwaits_of_owed_zero _ _ _ _ L lv 2 fun _ _ => rfl
  pre c := iprop(StableHlo.held (c : Thread nD τ) (Pipeline.ucRefs τ sig) (W4 m c) ∗ R c)
  post c := iprop((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hin2 (V4 m) c)
  hout c := (hout2 (V4 m) c).trans (by
    rw [Pipeline.ownSems0_none]
    unfold Pipeline.ΦA
    iintro ⟨Hr, Hp⟩
    isplitl [Hp]; · iexact Hp
    isplitr; · iempintro
    iexact Hr)
  hexit c := by
    unfold Pipeline.RDat.arraysAt
    iintro ⟨Ha, HO, HY, Hrest⟩
    ihave Ha' := (BI.bigSep_exists_pi Finset.univ (fun w B => iprop(⌜(rdats m 2 c).ArrAt w (Pipeline.pin (pcfgs (F := F)) adm 2).N B⌝
        ∗ ((Pipeline.pin (pcfgs (F := F)) adm 2).win w).arr.view.loc (c.tc : Thread nD τ) ↦[((Pipeline.pin (pcfgs (F := F)) adm 2).win w).arr.view.set]{(rdats m 2 c).share w} B))) $$ Ha
    icases Ha' with ⟨%A, Ha⟩
    ihave Ha2 := (BI.bigSep_pure_sep Finset.univ (fun w => (rdats m 2 c).ArrAt w (Pipeline.pin (pcfgs (F := F)) adm 2).N (A w))
        (fun w => ((Pipeline.pin (pcfgs (F := F)) adm 2).win w).arr.view.loc (c.tc : Thread nD τ) ↦[((Pipeline.pin (pcfgs (F := F)) adm 2).win w).arr.view.set]{(rdats m 2 c).share w} A w)) $$ Ha
    icases Ha2 with ⟨-, Ha⟩
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (fun b => Pipeline.withArrays spec2 c (W4 m c) A b) A
      (fun w => (Pipeline.withArrays_arr spec2 launch2.win.arr_inj c _ _ w).symm)
      (fun b hb => Pipeline.withArrays_of_ne spec2 c _ _ b fun w e => hb (Finset.mem_image.mpr ⟨w, Finset.mem_univ _, e⟩))
    rw [Pipeline.unscopedBufs_held] at hjoin
    imodintro
    isplitl [Ha Hrest]
    · iexists A; iapply hjoin; isplitl [Ha]
      · unfold Pipeline.Dat.arrays; iexact Ha
      iexact Hrest
    isplitl [HY]; · iexact HY
    unfold Pipeline.RDat.owesAt Pipeline.owesWithin
    icases HO with ⟨%W, -, HO⟩; iexists W; iexact HO

end Cert.Kernel.Hand

end
-- ==== Proof.K.RunR.lean ====
/-
  The frame of the kernel program at any instance: @main as five segments (host stretch, region 0, host stretch,
  region 1, region 2) over one thread state — every unscoped buffer of the core at the boundary's contents, the
  generator register at some state, nothing owed. The regions' proof data are read relationally; what the third
  kernel leaves in its output array is not named (the overhanging part of its last block depends on words no
  statement names), which the frame does not need: it only says the arguments end as launched.
-/
import proofs.«156806_j16080357556617_2_alg».proof.Proof.K.RunR.Reg0
import proofs.«156806_j16080357556617_2_alg».proof.Proof.K.RunR.Reg1
import proofs.«156806_j16080357556617_2_alg».proof.Proof.K.RunR.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsR : List (Pipeline.RDat.Seg (pcfgs (F := F)) adm (rdats m) () defs₀ 𝒱₀ L lv) :=
  [ .host (hseg hostOps0 hostOps0_sub hostOps0_fresh (W0 m)),
    .region (regR0 m),
    .host (hseg hostOps1 hostOps1_sub hostOps1_fresh (W2 m)),
    .region (regR1 m),
    .region (regR2 m) ]
theorem main_runR (c : Dev nD) : main (F := F) c = Pipeline.RDat.Seg.run (segsR m) := (main_chain c).trans (by chain_rfl)

set_option maxHeartbeats 8000000 in
set_option backward.isDefEq.respectTransparency.types false in
/-- THE FRAME at any instance: from any memory with zero counters every weakly fair execution of @main terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj emb₁ defs₀ 𝒱₀ L lv m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := TₙR m)
    (hch := ⟨fun _ => .rfl, fun _ => .rfl, fun _ => .rfl, fun _ => .rfl, fun _ => .rfl, fun c => by
      show iprop((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ (∃ r, prngReg c r) ∗ ∃ W, owes (c : Thread nD τ) (0 : CellTallies nD τ sig Unit) W)
        ⊢ iprop(((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    (hfin := fun c s' => by
      iintro ⟨⟨⟨%A, Hh⟩, -⟩, HSI⟩
      unfold StableHlo.held
      ihave Hr := (pointsTo_read_all (Pipeline.ucRefs τ sig) (fun b => (((c : Thread nD τ)).1, b)) (Pipeline.withArrays spec2 c (W4 m c) A) s') $$ [Hh HSI]
      · isplitl [Hh] <;> iassumption
      icases Hr with ⟨%h, HSI⟩
      imodintro
      isplitr
      · ipureintro
        exact ⟨(h _ (mem_uc main_arg0 (by decide))).trans ((Pipeline.withArrays_of_ne spec2 c _ _ main_arg0 (by decide)).trans (W4_main_arg0 m c)),
          (h _ (mem_uc main_arg1 (by decide))).trans ((Pipeline.withArrays_of_ne spec2 c _ _ main_arg1 (by decide)).trans (W4_main_arg1 m c)),
          (h _ (mem_uc main_arg2 (by decide))).trans ((Pipeline.withArrays_of_ne spec2 c _ _ main_arg2 (by decide)).trans (W4_main_arg2 m c)),
          (h _ (mem_uc main_arg3 (by decide))).trans ((Pipeline.withArrays_of_ne spec2 c _ _ main_arg3 (by decide)).trans (W4_main_arg3 m c)),
          (h _ (mem_uc main_arg4 (by decide))).trans ((Pipeline.withArrays_of_ne spec2 c _ _ main_arg4 (by decide)).trans (W4_main_arg4 m c)),
          (h _ (mem_uc main_arg5 (by decide))).trans ((Pipeline.withArrays_of_ne spec2 c _ _ main_arg5 (by decide)).trans (W4_main_arg5 m c)),
          (h _ (mem_uc main_arg6 (by decide))).trans ((Pipeline.withArrays_of_ne spec2 c _ _ main_arg6 (by decide)).trans (W4_main_arg6 m c)),
          (h _ (mem_uc main_arg7 (by decide))).trans ((Pipeline.withArrays_of_ne spec2 c _ _ main_arg7 (by decide)).trans (W4_main_arg7 m c))⟩
      · iexact HSI)
    (hQ := fun s h c => h c)

end Cert.Kernel.Hand

end
-- ==== Proof.KI.Region0.Runs.lean ====
/-
  Region 0 (the head-average kernel on its grid of 16 points): what its three cases share. The windows' blocks read off
  the entry contents, each input found at its block at every point, the two branch conditions in closed form, where the
  two outputs are idle, the staging memrefs and the carried accumulator, and the class invariant with the accumulator
  as a memref.
-/
import proofs.«156806_j16080357556617_2_alg».proof.Proof.Gen.KernelIdeal.Launch
import proofs.«156806_j16080357556617_2_alg».proof.Proof.Gen.KernelIdeal.Skeleton
import proofs.«156806_j16080357556617_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition (the accumulator is zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the epilogue), from the grid coordinates. -/
abbrev cond0_1 (i : grid0.Coords) : Prop := k0_cond2 i = 1#1
/-- It holds at the last point only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point output 6 is idle and not written back; at the last point it is live. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
/-- Away from the last point output 7 is idle and not written back; at the last point it is live. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The staging memrefs and the accumulator -/

/-- One staging buffer of each output window, through which its contents are stated. -/
abbrev VO0_6 : View sig .tc .vmem S512x1024 .bf16 := (Memref.whole cc0_stg6_0 : Memref sig .tc .vmem S512x1024 .bf16).view
abbrev VO0_7 : View sig .tc .vmem S512x1 .f32 := (Memref.whole cc0_stg7_0 : Memref sig .tc .vmem S512x1 .f32).view
abbrev ms0_0 (t : Fin cfg0.N) : Memref sig .tc .vmem S1x1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The accumulator: a whole scoped buffer of the kernel's own, carried between the points. -/
abbrev scM0_0 : Memref sig .tc .vmem S512x1024 .f32 := Memref.whole cc0_scratch0
abbrev VS0_0 : View sig .tc .vmem S512x1024 .f32 := scM0_0.view

/-- The other scoped buffers of the core that are no staging buffer of this region: each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA restS0; rw [scopedRest0_eq]; simp only [scM0_0, owns_whole]; try rfl

end Cert.KernelIdeal.Hand

end
-- ==== Proof.KI.Region0.RunA.lean ====
/-
  Region 0, the kernel body run whole at the first point (the accumulator is zeroed, then the head's block added; no epilogue).
-/
import proofs.«156806_j16080357556617_2_alg».proof.Proof.KI.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 4000000 in
/-- What the body's stores leave in each output's staging memref and in the accumulator, as pieces (last first), at
    the first point (the accumulator is zeroed, then the head's block added; no epilogue), with the proof that on whole staging memrefs — the inputs' at their contents, the two outputs' at contents handed back untouched, the accumulator at anything —
    the body runs to the continuation holding the inputs' as they were and the accumulator with its pieces written. -/
noncomputable def kernelRun0_A (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) :
    Σ' (L6 : List (View.Piece (Elt F) S512x1024 .bf16)) (L7 : List (View.Piece (Elt F) S512x1 .f32)), { LS0 : List (View.Piece (Elt F) S512x1024 .f32) //
      ∀ (xi6 : Vec F S512x1024 .bf16) (xi7 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__prelim_kernel i arg1 harg1 arg2 harg2 arg3 harg3 arg4 harg4 arg5 harg5 arg6 harg6 arg7 harg7 arg8 harg8 arg9 harg9) K } := by
  refine ⟨[], [], ?_, fun xi6 xi7 E K => ?run⟩
  case run =>
    simp only [cc0__prelim_kernel_eq_skeleton]; unfold cc0__prelim_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Hand

end
-- ==== Proof.KI.Region0.RunB.lean ====
/-
  Region 0, the kernel body run whole at a middle point (the head's block is added to the accumulator; no epilogue).
-/
import proofs.«156806_j16080357556617_2_alg».proof.Proof.KI.Region0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 4000000 in
/-- What the body's stores leave in each output's staging memref and in the accumulator, as pieces (last first), at
    a middle point (the head's block is added to the accumulator; no epilogue), with the proof that on whole staging memrefs — the inputs' at their contents, the two outputs' at contents handed back untouched, the accumulator at what the point before left —
    the body runs to the continuation holding the inputs' as they were and the accumulator with its pieces written. -/
noncomputable def kernelRun0_B (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    Σ' (L6 : List (View.Piece (Elt F) S512x1024 .bf16)) (L7 : List (View.Piece (Elt F) S512x1 .f32)), { LS0 : List (View.Piece (Elt F) S512x1024 .f32) //
      ∀ (xi6 : Vec F S512x1024 .bf16) (xi7 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__prelim_kernel i arg1 harg1 arg2 harg2 arg3 harg3 arg4 harg4 arg5 harg5 arg6 harg6 arg7 harg7 arg8 harg8 arg9 harg9) K } := by
  refine ⟨[], [], ?_, fun xi6 xi7 E K => ?run⟩
  case run =>
    simp only [cc0__prelim_kernel_eq_skeleton]; unfold cc0__prelim_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Hand

end
-- ==== Proof.KI.Region0.RunC.lean ====
/-
  Region 0, the kernel body run whole at the last point (the head's block is added, then the epilogue stores both outputs).
-/
import proofs.«156806_j16080357556617_2_alg».proof.Proof.KI.Region0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 4000000 in
/-- What the body's stores leave in each output's staging memref and in the accumulator, as pieces (last first), at
    the last point (the head's block is added, then the epilogue stores both outputs), with the proof that on whole staging memrefs — the inputs' at their contents, the outputs' at anything, the accumulator at what the point before left —
    the body runs to the continuation holding the inputs' as they were, each output's buffer with its pieces written and the accumulator with its pieces written. -/
noncomputable def kernelRun0_C (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    Σ' (L6 : List (View.Piece (Elt F) S512x1024 .bf16)) (L7 : List (View.Piece (Elt F) S512x1 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__prelim_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__prelim_kernel_eq_skeleton]; unfold cc0__prelim_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Hand

end
-- ==== Proof.KI.Region0.lean ====
/-
  Region 0 (the head-average kernel, grid of 16 points): its proof data at the entry contents `V`, the body obligation
  and the two invariant entailments. The accumulator is carried between the points: the invariant before a point that
  is not the first holds it at what the point before left. The two outputs are stored at the last point only and idle
  (handed back untouched, not written back) at the others.
-/
import proofs.«156806_j16080357556617_2_alg».proof.Proof.KI.Region0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-- What the case leaves in output 6's staging buffer: its pieces read back over junk (no piece: a placeholder nothing consults, the window being idle and not written back there). -/
def out0_A_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) : Vec F S512x1024 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4 x5).1)

/-- The same of output 7. -/
def out0_A_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) : Vec F S512x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5).2.1)

/-- The case's pieces for the accumulator cover it. -/
theorem scover0_A_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (y : S512x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).2.2.1 S512x1024.size (by sl_kernel_rfl) y

/-- What the case leaves in the accumulator: its pieces read back over junk. -/
def sout0_A_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) : Vec F S512x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5).2.2.1)

/-- What the case leaves in output 6's staging buffer: its pieces read back over junk (no piece: a placeholder nothing consults, the window being idle and not written back there). -/
def out0_B_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 x5 xs0).1)

/-- The same of output 7. -/
def out0_B_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5 xs0).2.1)

/-- The case's pieces for the accumulator cover it. -/
theorem scover0_B_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1024.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xs0).2.2.1 S512x1024.size (by sl_kernel_rfl) y

/-- What the case leaves in the accumulator: its pieces read back over junk. -/
def sout0_B_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 x5 xs0).2.2.1)

/-- At the last point the pieces stored into output 6 tile its block, so they cover it. -/
theorem cover0_C_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1024.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).1 S512x1024.size (by sl_kernel_rfl) y

/-- At the last point the pieces stored into output 7 tile its block, so they cover it. -/
theorem cover0_C_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.1 S512x1.size (by sl_kernel_rfl) y

/-- What the case leaves in output 6's staging buffer: its pieces read back over junk. -/
def out0_C_6 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .bf16 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0).1)

/-- The same of output 7. -/
def out0_C_7 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 xs0).2.1)

/-- The case's pieces for the accumulator cover it. -/
theorem scover0_C_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) (y : S512x1024.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.2.1 S512x1024.size (by sl_kernel_rfl) y

/-- What the case leaves in the accumulator: its pieces read back over junk. -/
def sout0_C_0 (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) : Vec F S512x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the accumulator hold after each point -/

/-- What the two outputs' staging buffers and the accumulator hold after the body at position `n`: the case the closed
    forms select there, run at the point's memrefs and input blocks, over what the point before left in the accumulator. -/
def outsAt0 (c : Dev nD) : (n : ℕ) → n < cfg0.N → Vec F S512x1024 .bf16 × Vec F S512x1 .f32 × Vec F S512x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restS0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS0 (F := F) c) ∗ (∃ r, prngReg c r)) := by
  cases n with
  | zero => exact absurd rfl hz
  | succ n => rfl

/-! ## The proof data -/

/-- The proof data of region 0 on core `c`: the arrays as the region finds them (`V`); after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      ·
        rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

  · by_cases h1 : t.val % 16 = 15
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_6 out0_C_7 sout0_C_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Region1.Runs.lean ====
/-
  Region 1 (the row statistics of the logits, 94 tiles of 1024 columns): what the two cases of its body share.
  The body resets the running maximum and the running sum at the first tile (case A) and updates them at every
  later tile (case B).
-/
import proofs.«156806_j16080357556617_2_alg».proof.Proof.Gen.KernelIdeal.Launch
import proofs.«156806_j16080357556617_2_alg».proof.Proof.Gen.KernelIdeal.Skeleton
import proofs.«156806_j16080357556617_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's branch condition -/

/-- The condition of the body's one conditional, from the grid coordinates: the tile index is zero. -/
abbrev cond1_0 (i : grid1.Coords) : Prop := (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val % 94 = 0 :=
  (by decide +kernel : ∀ t : Fin grid1.N, cond1_0 (grid1.coords t) ↔ t.val % 94 = 0)

/-! ## The staging memrefs -/

/-- One staging buffer of each output window, through which its contents are stated. -/
abbrev VO1_1 : View sig .tc .vmem S512x1 .f32 := (Memref.whole cc1_stg1_0 : Memref sig .tc .vmem S512x1 .f32).view
abbrev VO1_2 : View sig .tc .vmem S512x1 .f32 := (Memref.whole cc1_stg2_0 : Memref sig .tc .vmem S512x1 .f32).view

/-- Each window's current staging memref at point `t`, as the pipeline passes it to the body, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KI.Region1.RunA.lean ====
/-
  Region 1, case A (the first tile): the whole body run once on whole staging memrefs. The two outputs' buffers are
  first set to the reset values, read back, and then hold the updated statistics.
-/
import proofs.«156806_j16080357556617_2_alg».proof.Proof.KI.Region1.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- What the body's stores leave in each output's staging memref, as pieces (last first), at the first tile, with the
    proof that on whole staging memrefs — the input's at its contents, the outputs' at anything — the body runs to the
    continuation holding the input's as it was and each output's buffer with its pieces written. -/
noncomputable def kernelRun1_A (c : Dev nD) (i : grid1.Coords) (arg1 : Memref sig .tc .vmem S512x1024 .f32) (harg1 : arg1.IsWhole) (arg2 : Memref sig .tc .vmem S512x1 .f32) (harg2 : arg2.IsWhole) (arg3 : Memref sig .tc .vmem S512x1 .f32) (harg3 : arg3.IsWhole) (hc0 : cond1_0 i)
    (x0 : Vec F S512x1024 .f32) :
    Σ' (L1 : List (View.Piece (Elt F) S512x1 .f32)), { L2 : List (View.Piece (Elt F) S512x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.KI.Region1.RunB.lean ====
/-
  Region 1, case B (every later tile): the whole body run once on whole staging memrefs, the two outputs' buffers at
  the running statistics the tile before left.
-/
import proofs.«156806_j16080357556617_2_alg».proof.Proof.KI.Region1.RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- What the body's stores leave in each output's staging memref, as pieces (last first), at a later tile, with the
    proof that on whole staging memrefs — the input's at its contents, the outputs' at the running statistics
    `xo1`, `xo2` — the body runs to the continuation holding the input's as it was and each output's buffer with its
    pieces written. -/
noncomputable def kernelRun1_B (c : Dev nD) (i : grid1.Coords) (arg1 : Memref sig .tc .vmem S512x1024 .f32) (harg1 : arg1.IsWhole) (arg2 : Memref sig .tc .vmem S512x1 .f32) (harg2 : arg2.IsWhole) (arg3 : Memref sig .tc .vmem S512x1 .f32) (harg3 : arg3.IsWhole) (hc0 : ¬cond1_0 i)
    (x0 : Vec F S512x1024 .f32) (xo1 : Vec F S512x1 .f32) (xo2 : Vec F S512x1 .f32) :
    Σ' (L1 : List (View.Piece (Elt F) S512x1 .f32)), { L2 : List (View.Piece (Elt F) S512x1 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.KI.Region1.Outs.lean ====
/-
  Region 1: the row statistics of the logits, tile by tile. The grid has 94 points, one per tile of 1024 columns.
  The two outputs (the running row maximum and the running sum of shifted exponentials) sit in one staging block
  each, reset at the first tile, updated at every later one and written back after the last. The input's last tile
  overhangs the array: its columns past the array's end hold anything, and the body replaces them by the named
  constant before it reduces, so what it leaves does not depend on them.
-/
import proofs.«156806_j16080357556617_2_alg».proof.Proof.KI.Region1.RunB
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem hz1 : (![0, 0] : Fin 2 → Nat) = fun _ => 0 := funext fun a => by fin_cases a <;> rfl

/-! ## The masked tile does not depend on the columns past the array's end -/

/-- The part of window 0's block a transfer moves at point `t`: all 512 rows, and the columns inside the array. -/
theorem xsize1_0 : ∀ t : Fin grid1.N, win1_0.xsize (grid1.coords t) 0 = 512 ∧ win1_0.xsize (grid1.coords t) 1 = min 1024 (96103 - 1024 * (grid1.coords t 0).val) := by decide +kernel

/-- The column test of the mask, as a comparison of naturals: no 32-bit wrap below 94 tiles of 1024 columns. -/
theorem slt_mask (n k : Nat) (hn : n < 94) (hk : k < 1024) :
    (IntOp.cmpi .slt (IntOp.addi (Scalar.muli (BitVec.ofNat 32 n) 1024#32) (BitVec.ofNat 32 (0 * 1024 + k))) 96103#32 = 1#1) ↔ 1024 * n + k < 96103 := by
  unfold IntOp.cmpi IntOp.addi Scalar.muli IntOp.muli
  have e : (BitVec.ofNat 32 n * 1024#32 + BitVec.ofNat 32 (0 * 1024 + k)).toInt = ((1024 * n + k : Nat) : Int) := by
    rw [BitVec.toInt_eq_toNat_cond]
    simp only [BitVec.toNat_add, BitVec.toNat_mul, BitVec.toNat_ofNat]
    omega
  have e2 : (96103#32 : BitVec 32).toInt = 96103 := by decide
  simp only [BitVec.slt, e, e2]
  constructor
  · intro h
    by_contra hc
    have hn' : ¬(((1024 * n + k : Nat) : Int) < 96103) := by omega
    rw [decide_eq_false hn'] at h
    exact absurd h (by decide)
  · intro h
    have hp : ((1024 * n + k : Nat) : Int) < 96103 := by omega
    rw [decide_eq_true hp]
    rfl

/-- The masked tile, entry by entry: the tile's entry where the global column lies inside the array, the named constant elsewhere. -/
theorem pay3_apply (i : grid1.Coords) (v3 : Vec F S512x1024 .f32) (j : S512x1024.Idx) :
    k1_pay3 i v3 j = Scalar.select (IntOp.cmpi .slt (IntOp.addi (Scalar.muli (BitVec.ofNat 32 (i 0).val) 1024#32) (BitVec.ofNat 32 (0 * 1024 + (j 1).val))) 96103#32) (v3 j) (Named.named κ "neg_big" 0xF149F2CA#32) := by
  unfold k1_pay3
  simp only [shapeCast_self]
  rfl

/-- Where the mask keeps an entry, the transfer moved it. -/
theorem moved_of_mask (t : Fin cfg1.N) (j : S512x1024.Idx)
    (h : IntOp.cmpi .slt (IntOp.addi (Scalar.muli (BitVec.ofNat 32 (grid1.coords t 0).val) 1024#32) (BitVec.ofNat 32 (0 * 1024 + (j 1).val))) 96103#32 = 1#1) :
    win1_0.moved (grid1.coords t) j = true := by
  rw [Window.moved_iff]
  have hx := xsize1_0 t
  have hlt := (slt_mask _ _ (grid1.coords t 0).isLt (j 1).isLt).mp h
  intro a
  match a with
  | ⟨0, _⟩ => show (j 0).val < win1_0.xsize (grid1.coords t) 0; rw [hx.1]; exact (j 0).isLt
  | ⟨1, _⟩ => show (j 1).val < win1_0.xsize (grid1.coords t) 1; rw [hx.2]; have hj : (j 1).val < 1024 := (j 1).isLt; omega

/-- So the masked tile is the same whatever the staging buffer held past the array's end. -/
theorem pay3_fill (t : Fin cfg1.N) (d d' : S512x1024.Idx → Elt F .f32) (g : (win1_0.xblock (grid1.coords t)).Idx → Elt F .f32) :
    k1_pay3 (grid1.coords t) (win1_0.fill (grid1.coords t) d g) = k1_pay3 (grid1.coords t) (win1_0.fill (grid1.coords t) d' g) := by
  funext j
  rw [pay3_apply, pay3_apply]
  unfold Scalar.select
  split
  · next h =>
    have hm := moved_of_mask t j h
    unfold Window.fill
    rw [dif_pos hm, dif_pos hm]
  · rfl

theorem pay5_fill (t : Fin cfg1.N) (d d' : S512x1024.Idx → Elt F .f32) (g : (win1_0.xblock (grid1.coords t)).Idx → Elt F .f32) (v15 : Vec F S512x1 .f32) :
    k1_pay5 (grid1.coords t) (win1_0.fill (grid1.coords t) d g) v15 = k1_pay5 (grid1.coords t) (win1_0.fill (grid1.coords t) d' g) v15 := by
  unfold k1_pay5
  rw [pay3_fill t d d']

theorem pay6_fill (t : Fin cfg1.N) (d d' : S512x1024.Idx → Elt F .f32) (g : (win1_0.xblock (grid1.coords t)).Idx → Elt F .f32) (v15 v25 : Vec F S512x1 .f32) :
    k1_pay6 (grid1.coords t) (win1_0.fill (grid1.coords t) d g) v15 v25 = k1_pay6 (grid1.coords t) (win1_0.fill (grid1.coords t) d' g) v15 v25 := by
  unfold k1_pay6
  rw [pay3_fill t d d', pay5_fill t d d']

/-! ## What each case leaves in the outputs' buffers -/

theorem cover1_A_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x0 : Vec F S512x1024 .f32) (y : S512x1.Idx) :
    ∃ pc ∈ (kernelRun1_A c i a1 h1 a2 h2 a3 h3 hc x0).1, y ∈ pc.1.set :=
  View.cover_of_tiledL (kernelRun1_A c i a1 h1 a2 h2 a3 h3 hc x0).1 S512x1.size (by sl_kernel_rfl) y

theorem cover1_A_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x0 : Vec F S512x1024 .f32) (y : S512x1.Idx) :
    ∃ pc ∈ (kernelRun1_A c i a1 h1 a2 h2 a3 h3 hc x0).2.1, y ∈ pc.1.set :=
  View.cover_of_tiledL (kernelRun1_A c i a1 h1 a2 h2 a3 h3 hc x0).2.1 S512x1.size (by sl_kernel_rfl) y

theorem cover1_B_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x0 : Vec F S512x1024 .f32) (xo1 xo2 : Vec F S512x1 .f32) (y : S512x1.Idx) :
    ∃ pc ∈ (kernelRun1_B c i a1 h1 a2 h2 a3 h3 hc x0 xo1 xo2).1, y ∈ pc.1.set :=
  View.cover_of_tiledL (kernelRun1_B c i a1 h1 a2 h2 a3 h3 hc x0 xo1 xo2).1 S512x1.size (by sl_kernel_rfl) y

theorem cover1_B_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x0 : Vec F S512x1024 .f32) (xo1 xo2 : Vec F S512x1 .f32) (y : S512x1.Idx) :
    ∃ pc ∈ (kernelRun1_B c i a1 h1 a2 h2 a3 h3 hc x0 xo1 xo2).2.1, y ∈ pc.1.set :=
  View.cover_of_tiledL (kernelRun1_B c i a1 h1 a2 h2 a3 h3 hc x0 xo1 xo2).2.1 S512x1.size (by sl_kernel_rfl) y

/-- The first tile leaves the running maximum at the update of the reset value, -/
theorem out1_A_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x : Vec F S512x1024 .f32) :
    VO1_1.read (Elt F) (VO1_1.writes (Elt F) VO1_1.junk (kernelRun1_A c i a1 h1 a2 h2 a3 h3 hc x).1) = k1_pay5 i x (k1_pay1 (F := F)) := by
  rw [View.read_writes_eq_canon _ _ _ (cover1_A_1 c i a1 h1 a2 h2 a3 h3 hc x)]
  unfold kernelRun1_A
  dsimp only
  sl_unfold_words
  rw [View.canon_cons_unit_zero (S := S512x1) hz1]
  simp only [View.readCov_unit_zero (S := S512x1) _ hz1, View.readAt_eq_ld, h1.read_unread, View.ld_unit_zero (S := S512x1024) hz1]

/-- and the running sum at the update of the reset values. -/
theorem out1_A_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : cond1_0 i) (x : Vec F S512x1024 .f32) :
    VO1_2.read (Elt F) (VO1_2.writes (Elt F) VO1_2.junk (kernelRun1_A c i a1 h1 a2 h2 a3 h3 hc x).2.1) = k1_pay6 i x (k1_pay1 (F := F)) (k1_pay2 (F := F)) := by
  rw [View.read_writes_eq_canon _ _ _ (cover1_A_2 c i a1 h1 a2 h2 a3 h3 hc x)]
  unfold kernelRun1_A
  dsimp only
  sl_unfold_words
  rw [View.canon_cons_unit_zero (S := S512x1) hz1]
  simp only [View.readCov_unit_zero (S := S512x1) _ hz1, View.readAt_eq_ld, h1.read_unread, View.ld_unit_zero (S := S512x1024) hz1]

/-- A later tile leaves the update of the running statistics it found. -/
theorem out1_B_1 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x : Vec F S512x1024 .f32) (xo1 xo2 : Vec F S512x1 .f32) :
    VO1_1.read (Elt F) (VO1_1.writes (Elt F) VO1_1.junk (kernelRun1_B c i a1 h1 a2 h2 a3 h3 hc x xo1 xo2).1) = k1_pay5 i x xo1 := by
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, h3.read_unread, View.ld_unit_zero (S := S512x1024) hz1, View.ld_unit_zero (S := S512x1) hz1]

theorem out1_B_2 (c : Dev nD) (i : grid1.Coords) (a1 : Memref sig .tc .vmem S512x1024 .f32) (h1 : a1.IsWhole) (a2 : Memref sig .tc .vmem S512x1 .f32) (h2 : a2.IsWhole) (a3 : Memref sig .tc .vmem S512x1 .f32) (h3 : a3.IsWhole) (hc : ¬cond1_0 i) (x : Vec F S512x1024 .f32) (xo1 xo2 : Vec F S512x1 .f32) :
    VO1_2.read (Elt F) (VO1_2.writes (Elt F) VO1_2.junk (kernelRun1_B c i a1 h1 a2 h2 a3 h3 hc x xo1 xo2).2.1) = k1_pay6 i x xo1 xo2 := by
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h2.read_unread, h3.read_unread, View.ld_unit_zero (S := S512x1024) hz1, View.ld_unit_zero (S := S512x1) hz1]

end Cert.KernelIdeal.Hand

end
-- ==== Proof.KI.Region1.lean ====
/-
  Region 1 (the row statistics of the logits): the proof data, point by point, and the body obligation.
  After tile `n` the two outputs' staging blocks hold the pair of running statistics: the update of the reset values
  at the first tile, the update of the pair the tile before left at every later one.
-/
import proofs.«156806_j16080357556617_2_alg».proof.Proof.KI.Region1.Outs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input tile at point `t` filled out to the whole staging block: the block's part inside the array, and the
    zero word past the array's end (which the body masks before it reduces). -/
def xin1 (c : Dev nD) (t : Fin cfg1.N) : Vec F S512x1024 .f32 :=
  win1_0.fill (grid1.coords t) (fun _ => Scalar.ofBits .f32 0#32) (iblk1 V c 0 t)

/-! ## What the outputs hold after each point -/

/-- The pair (running maximum, running sum) after the body at tile `n`. -/
def outsAt1 (c : Dev nD) : (n : ℕ) → n < cfg1.N → Vec F S512x1 .f32 × Vec F S512x1 .f32
  | 0, hn => (k1_pay5 (grid1.coords ⟨0, hn⟩) (xin1 V c ⟨0, hn⟩) (k1_pay1 (F := F)),
              k1_pay6 (grid1.coords ⟨0, hn⟩) (xin1 V c ⟨0, hn⟩) (k1_pay1 (F := F)) (k1_pay2 (F := F)))
  | n + 1, hn =>
    (k1_pay5 (grid1.coords ⟨n + 1, hn⟩) (xin1 V c ⟨n + 1, hn⟩) (outsAt1 c n (Nat.lt_of_succ_lt hn)).1,
     k1_pay6 (grid1.coords ⟨n + 1, hn⟩) (xin1 V c ⟨n + 1, hn⟩) (outsAt1 c n (Nat.lt_of_succ_lt hn)).1 (outsAt1 c n (Nat.lt_of_succ_lt hn)).2)

theorem outsAt1_A (c : Dev nD) (t : Fin cfg1.N) (h0 : t.val % 94 = 0) :
    outsAt1 V c t.val t.isLt = (k1_pay5 (grid1.coords t) (xin1 V c t) (k1_pay1 (F := F)),
      k1_pay6 (grid1.coords t) (xin1 V c t) (k1_pay1 (F := F)) (k1_pay2 (F := F))) := by
  obtain ⟨n, hn⟩ := t
  have hN : n < 94 := lt_of_lt_of_eq hn (show cfg1.N = 94 from N_1)
  cases n with
  | zero => rfl
  | succ n => exact absurd h0 (by dsimp only; omega)

theorem outsAt1_B (c : Dev nD) (t : Fin cfg1.N) (h0 : ¬t.val % 94 = 0) :
    outsAt1 V c t.val t.isLt = (k1_pay5 (grid1.coords t) (xin1 V c t) (outsAt1 V c (t.val - 1) (Nat.lt_of_le_of_lt (Nat.sub_le _ _) t.isLt)).1,
      k1_pay6 (grid1.coords t) (xin1 V c t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd (Nat.zero_mod _) h0
  | succ n => rfl

/-! ## The pipeline's proof data -/

/-- The proof data of the pipeline on core `c`: the arrays as the region finds them; after the body at point `t` the
    input's buffer at its filled-out tile and the outputs' at the running statistics; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => xin1 V c t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xin1 V c t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

/-- The input's current staging buffer, fetched at every point, holds its block on the part inside the array and what
    it held before (`d`) past the array's end. -/
theorem before1_0 (c : Dev nD) (t : Fin cfg1.N) (d) :
    (dat1 V c).before 0 t d = win1_0.fill (grid1.coords t) d (iblk1 V c 0 t) := by
  rw [Dat.before_fetched _ 0 t (fetch1_0 t)]
  unfold Dat.fetched Dat.blockOf iblk1
  rw [A_eq1]

/-- At a later tile each output's staging buffer holds what the body left at the tile before: the block is not written
    back in between. -/
theorem before1_1_B (c : Dev nD) (t : Fin cfg1.N) (h0 : ¬t.val % 94 = 0) (d) :
    (dat1 V c).before 1 t d = (outsAt1 V c (t.val - 1) (Nat.lt_of_le_of_lt (Nat.sub_le _ _) t.isLt)).1 := by
  have hN : t.val < 94 := lt_of_lt_of_eq t.isLt (show cfg1.N = 94 from N_1)
  rw [Dat.before_out_kept _ 1 rfl t (by omega) (Bool.eq_false_iff.mpr fun h => by have := (flush1_1 _).mp h; dsimp only at this; omega)
    (fun _ => rfl) (fun _ _ => rfl)]
  dsimp only [dat1]

theorem before1_2_B (c : Dev nD) (t : Fin cfg1.N) (h0 : ¬t.val % 94 = 0) (d) :
    (dat1 V c).before 2 t d = (outsAt1 V c (t.val - 1) (Nat.lt_of_le_of_lt (Nat.sub_le _ _) t.isLt)).2 := by
  have hN : t.val < 94 := lt_of_lt_of_eq t.isLt (show cfg1.N = 94 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the input's buffer stated on the part the transfers move only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ owns (c : Thread nD τ) (st1_1 t) fullShare ((dat1 V c).after 1 t)
    ∗ owns (c : Thread nD τ) (st1_2 t) fullShare ((dat1 V c).after 2 t))

set_option maxHeartbeats 1600000 in
/-- The body at any point: the input's memref holds its tile, anything past the array's end; the point is the first
    tile or a later one, where the outputs' memrefs hold what the tile before left; so the case's run applies; what it
    leaves does not depend on the columns past the array's end. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hcut : (cfg1.win 0).cut (cfg1.grid.coords t) (xin1 V c t) = iblk1 V c 0 t := by
    unfold xin1; exact Window.cut_fill _ _ _ _
  rw [hcut]
  by_cases h0 : t.val % 94 = 0
  · rw [outsAt1_A V c t h0]
    iintro ⟨HΦ, Ho, ⟨%d0, H0⟩, ⟨%d1, H1⟩, ⟨%d2, H2⟩⟩
    iapply ((kernelRun1_A c (grid1.coords t) _ _ _ _ _ _ ((hcond1_0 t).mpr h0) (win1_0.fill (grid1.coords t) d0 (iblk1 V c 0 t))).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexists d0; iexact H0
    isplitl [H1]
    · unfold owns; iexists _; isplitr
      swap; · iexact H1
      ipureintro
      refine (View.read_writes_of_cover _ _ _ _ _ (cover1_A_1 c _ _ _ _ _ _ _ _ _)).trans ((out1_A_1 c _ _ _ _ _ _ _ _ _).trans ?_)
      exact pay5_fill t _ _ _ _
    · unfold owns; iexists _; isplitr
      swap; · iexact H2
      ipureintro
      refine (View.read_writes_of_cover _ _ _ _ _ (cover1_A_2 c _ _ _ _ _ _ _ _ _)).trans ((out1_A_2 c _ _ _ _ _ _ _ _ _).trans ?_)
      exact pay6_fill t _ _ _ _ _
  · rw [outsAt1_B V c t h0]
    simp only [before1_1_B V c t h0, before1_2_B V c t h0]
    iintro ⟨HΦ, Ho, ⟨%d0, H0⟩, ⟨%d1, H1⟩, ⟨%d2, H2⟩⟩
    iapply ((kernelRun1_B c (grid1.coords t) _ _ _ _ _ _ (fun h => h0 ((hcond1_0 t).mp h)) (win1_0.fill (grid1.coords t) d0 (iblk1 V c 0 t)) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexists d0; iexact H0
    isplitl [H1]
    · unfold owns; iexists _; isplitr
      swap; · iexact H1
      ipureintro
      refine (View.read_writes_of_cover _ _ _ _ _ (cover1_B_1 c _ _ _ _ _ _ _ _ _ _ _)).trans ((out1_B_1 c _ _ _ _ _ _ _ _ _ _ _).trans ?_)
      exact pay5_fill t _ _ _ _
    · unfold owns; iexists _; isplitr
      swap; · iexact H2
      ipureintro
      refine (View.read_writes_of_cover _ _ _ _ _ (cover1_B_2 c _ _ _ _ _ _ _ _ _ _ _)).trans ((out1_B_2 c _ _ _ _ _ _ _ _ _ _ _).trans ?_)
      exact pay6_fill t _ _ _ _ _

/-- The body obligation as the loop uses it (the input window's buffer stated on the moved part), at every point. -/
theorem body_obligation1 (c : Dev nD) : BodyObligationLoose (dat1 (F := F) V c) (defs₀ (F := F)) Variants.none () Set.univ := fun t => by
  rw [bigSep_W1, bigSep_W1]
  exact sound_body1 V c t

/-- The invariant is the class's at every point: entering and leaving the region are the identity. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Region

end Cert.KernelIdeal.Hand

end
-- ==== Proof.KI.Region2.Body.lean ====
import proofs.«156806_j16080357556617_2_alg».proof.Proof.Gen.KernelIdeal.Launch
import proofs.«156806_j16080357556617_2_alg».proof.Proof.Gen.KernelIdeal.Skeleton
import proofs.«156806_j16080357556617_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! # The third kernel's body on whole staging buffers

The body loads its six inputs through whole rectangles, loads the output's buffer (a value nothing reads) and stores
one whole [512, 1024] tile: the blend of the softmax term and the one-hot product. -/

/-- The whole [512, 1024] rectangle: every load of the two large inputs and the one store go through it. -/
abbrev rTile : Rect S512x1024 := Rect.unit (s := S512x1024) ![0, 0] S512x1024.size inb_S512x1024_S512x1024_0_0
/-- The whole [512, 1] rectangle of the three per-row inputs. -/
abbrev rCol : Rect S512x1 := Rect.unit (s := S512x1) ![0, 0] S512x1.size inb_S512x1_S512x1_0_0
/-- The whole [1, 1024] rectangle of the table of winning positions. -/
abbrev rRow : Rect S1x1024 := Rect.unit (s := S1x1024) ![0, 0] S1x1024.size inb_S1x1024_S1x1024_0_0

/-- What the body leaves in the output's staging buffer, from what the six input buffers hold: its one store, the
    payload over the values the loads read. The arguments in the windows' order: logits tile, attention weights,
    winning positions, gate, row maximum, row sum. -/
def out2_6 (x0 : Vec F S512x1024 .f32) (x1 : Vec F S512x1024 .bf16) (x2 : Vec F S1x1024 .i32)
    (x3 x4 x5 : Vec F S512x1 .f32) : Vec F S512x1024 .f32 :=
  View.canon [⟨rTile, k2_pay1 (View.ld x0 rTile) (View.ld x4 rCol) (View.ld x5 rCol) (View.ld x3 rCol) (View.ld x1 rTile) (View.ld x2 rRow)⟩]

/-- The one store covers the buffer. -/
theorem cover2_6 (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

set_option maxHeartbeats 1000000 in
/-- The body on whole staging memrefs, the inputs' at contents `x0 … x5` and the output's at anything, runs to the
    continuation holding the inputs' as they were and the output's at `out2_6` of them. -/
theorem sound_kernel2 (c : Dev nD) (E : Set ℕ) (i : grid2.Coords)
    (arg1 : Memref sig .tc .vmem S512x1024 .f32) (harg1 : arg1.IsWhole) (arg2 : Memref sig .tc .vmem S512x1024 .bf16) (harg2 : arg2.IsWhole)
    (arg3 : Memref sig .tc .vmem S1x1024 .i32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (arg7 : Memref sig .tc .vmem S512x1024 .f32) (harg7 : arg7.IsWhole)
    (x0 : Vec F S512x1024 .f32) (x1 : Vec F S512x1024 .bf16) (x2 : Vec F S1x1024 .i32) (x3 x4 x5 : Vec F S512x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__final_kernel i arg1 harg1 arg2 harg2 arg3 harg3 arg4 harg4 arg5 harg5 arg6 harg6 arg7 harg7) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

end Cert.KernelIdeal.Hand

end
-- ==== Proof.KI.Region2.Data.lean ====
import proofs.«156806_j16080357556617_2_alg».proof.Proof.KI.Region2.Body
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! # The third region's proof data, at the buffer contents `V` the region is entered with

Three of the seven windows overhang their arrays at the last point (the logits tile, the table of winning positions
and the output tile: 96103 = 93 · 1024 + 871): there a fetch fills the staging buffer's first 871 columns and leaves
the rest at words nothing names, and the write-back moves the first 871 columns only. -/

section Regions

variable (V : (c : Dev nD) → (b : Ref sig .tc) → Buf (Elt F) ((c : Thread nD τ).loc b))

/-- Window `w`'s block at point `t`, read off its array as the region finds it: the part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The logits tile at point `t` filled out to the staging buffer's shape: past the array's end a word nothing reads. -/
def fblk2_0 (c : Dev nD) (t : Fin cfg2.N) : Vec F S512x1024 .f32 :=
  win2_0.fill (grid2.coords t) (fun _ => Classical.choice (Elt.nonempty F _)) (iblk2 V c 0 t)
/-- The tile of winning positions, likewise. -/
def fblk2_2 (c : Dev nD) (t : Fin cfg2.N) : Vec F S1x1024 .i32 :=
  win2_2.fill (grid2.coords t) (fun _ => Classical.choice (Elt.nonempty F _)) (iblk2 V c 2 t)

/-- The proof data: the arrays as the region finds them; after the body at point `t` each input's buffer at its
    block (the two clipped ones filled out) and the output's at the body's store over them; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => fblk2_0 V c t
    | ⟨1, _⟩ => iblk2 V c 1 t
    | ⟨2, _⟩ => fblk2_2 V c t
    | ⟨3, _⟩ => iblk2 V c 3 t
    | ⟨4, _⟩ => iblk2 V c 4 t
    | ⟨5, _⟩ => iblk2 V c 5 t
    | ⟨6, _⟩ => out2_6 (fblk2_0 V c t) (iblk2 V c 1 t) (fblk2_2 V c t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = fblk2_0 V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = fblk2_2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (fblk2_0 V c t) (iblk2 V c 1 t) (fblk2_2 V c t) (iblk2 V c 3 t) (iblk2 V c 4 t) (iblk2 V c 5 t) := by dsimp only [dat2]

/-- The invariant is the class's at every point: entering and leaving it are the identity. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

/-! ## What the body finds -/

/-- The two clipped inputs are fetched at every point: the block on the part inside the array, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl

/-- The four whole-array inputs, fetched at the first point only, hold their block at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- The output's buffer, written back at every point, is found at contents nothing names. -/
theorem before2_6 (c : Dev nD) (t : Fin cfg2.N) (d) : (dat2 V c).before 6 t d = d :=
  (dat2 V c).before_out_reset 6 rfl t
    (by by_cases h : t.val = 0
        · exact .inl h
        · exact .inr ⟨h, flush2_6 _⟩) d

end Regions

end Cert.KernelIdeal.Hand

end
-- ==== Proof.KI.Region2.lean ====
import proofs.«156806_j16080357556617_2_alg».proof.Proof.KI.Region2.Data
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! # The third region's body obligation

Generic in the float values, with the OUTPUT window's buffer handed back at contents nothing names: at the last point
the body's matrix product reads the whole staging tile of winning positions, whose columns past the array's end hold
words nothing names, and for a generic product nothing says the output's columns inside the array do not depend on
them. (At the ideal values the product is a sum column by column, and the obligation is stated exactly: Region2I.) -/

section Regions

variable (V : (c : Dev nD) → (b : Ref sig .tc) → Buf (Elt F) ((c : Thread nD τ).loc b))

/-- What the body is called with at point `t`: the invariant, the core's `owes`, the six inputs' current buffers at
    what they hold, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ X, owns (c : Thread nD τ) (st2_6 t) fullShare X))

/-- What it returns: the inputs' buffers as found — the two clipped ones at their block filled out with the words
    `d0`, `d2` they were found with past the array's end — and the output's at the store over exactly those. -/
def bodyMid2 (c : Dev nD) (t : Fin cfg2.N) : sProp 𝕄 :=
  iprop((dat2 V c).Φ t.succ ∗ (dat2 V c).owesAt () t.succ
    ∗ ∃ d0 d2, owns (c : Thread nD τ) (st2_0 t) fullShare (win2_0.fill (grid2.coords t) d0 (iblk2 V c 0 t))
      ∗ owns (c : Thread nD τ) (st2_1 t) fullShare (iblk2 V c 1 t)
      ∗ owns (c : Thread nD τ) (st2_2 t) fullShare (win2_2.fill (grid2.coords t) d2 (iblk2 V c 2 t))
      ∗ owns (c : Thread nD τ) (st2_3 t) fullShare (iblk2 V c 3 t)
      ∗ owns (c : Thread nD τ) (st2_4 t) fullShare (iblk2 V c 4 t)
      ∗ owns (c : Thread nD τ) (st2_5 t) fullShare (iblk2 V c 5 t)
      ∗ owns (c : Thread nD τ) (st2_6 t) fullShare (out2_6 (win2_0.fill (grid2.coords t) d0 (iblk2 V c 0 t)) (iblk2 V c 1 t) (win2_2.fill (grid2.coords t) d2 (iblk2 V c 2 t)) (iblk2 V c 3 t) (iblk2 V c 4 t) (iblk2 V c 5 t)))

/-- The body at any point: the inputs' buffers hold their blocks, so the body's triple applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyMid2 V c t) := by
  unfold bodyPre2 bodyMid2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (win2_0.fill (grid2.coords t) d0 (iblk2 V c 0 t)) (iblk2 V c 1 t) (win2_2.fill (grid2.coords t) d2 (iblk2 V c 2 t)) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  iexists d0; iexists d2
  isplitl [H0]; · iexact H0
  isplitl [H1]; · iexact H1
  isplitl [H2]; · iexact H2
  isplitl [H3]; · iexact H3
  isplitl [H4]; · iexact H4
  isplitl [H5]; · iexact H5
  iexact H6

/-- The windows the generic obligation forgets: the output's. -/
abbrev fgt2 : Fin 7 → Bool := fun | 0 => false | 1 => false | 2 => false | 3 => false | 4 => false | 5 => false | 6 => true | ⟨_ + 7, h⟩ => absurd h (Nat.not_lt.2 (Nat.le_add_left _ _))

/-- The obligation's post with the output forgotten, the windows one by one: each clipped input at its block on the
    part inside the array, the whole-array inputs at their blocks, the output's buffer at anything. -/
def bodyPostF2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ owns (c : Thread nD τ) (st2_1 t) fullShare ((dat2 V c).after 1 t)
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (∃ X, owns (c : Thread nD τ) (st2_6 t) fullShare X))

theorem mid_postF2 (c : Dev nD) (t : Fin cfg2.N) : bodyMid2 V c t ⊢ bodyPostF2 V c t := by
  unfold bodyMid2 bodyPostF2
  rw [after2_0, after2_1, after2_2, after2_3, after2_4, after2_5]
  unfold fblk2_0 fblk2_2
  rw [Window.cut_fill, Window.cut_fill]
  iintro ⟨HΦ, Ho, %d0, %d2, H0, H1, H2, H3, H4, H5, H6⟩
  isplitl [HΦ]; · iexact HΦ
  isplitl [Ho]; · iexact Ho
  isplitl [H0]; · iexists d0; iexact H0
  isplitl [H1]; · iexact H1
  isplitl [H2]; · iexists d2; iexact H2
  isplitl [H3]; · iexact H3
  isplitl [H4]; · iexact H4
  isplitl [H5]; · iexact H5
  iexists _; iexact H6

/-- The body obligation at every point, the output window forgotten: for any float values. -/
theorem body_obligation2_fgt (c : Dev nD) :
    BodyObligationLoose (dat2 (F := F) V c) (defs₀ (F := F)) Variants.none () Set.univ fgt2 := fun t => by
  rw [bigSep_W2, bigSep_W2]
  exact (sound_body2 V c t).trans (wp_mono _ _ _ fun _ => mid_postF2 V c t)

end Regions

end Cert.KernelIdeal.Hand

end
-- ==== Proof.KI.Fold.lean ====
/-
  The buffer contents at every boundary of @main — first host stretch, region 0, second host stretch, region 1,
  region 2 — as a fold from the launch memory: a host stretch applies its operations, a region leaves each of its
  arrays at what its write-backs make of it and every other buffer alone. No host operation writes an argument
  and no region changes one, so each argument is read back through the fold to its launch contents; the two
  results are read off the fold at the arrays regions 0 and 2 leave.
-/
import proofs.«156806_j16080357556617_2_alg».proof.Proof.KI.Region0
import proofs.«156806_j16080357556617_2_alg».proof.Proof.KI.Region1
import proofs.«156806_j16080357556617_2_alg».proof.Proof.KI.Region2
import proofs.«156806_j16080357556617_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary of @main: host stretch, region 0, host stretch, region 1, region 2 -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, an output at its write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, an output at its write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (an input as entered, an output at its write-backs
    folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments at the boundaries: no host stretch writes one, no region changes one -/

theorem W1_of (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h
/-- The first argument is region 0's first window: an input array is never written. -/
theorem W4_main_arg0 (c : Dev nD) : W4 m c (Proc.devRef .tc main_arg0) = m ((c : Thread nD τ).loc main_arg0) :=
  (W4_of_ne m c main_arg0 (by decide)).trans <| (W3_of m c main_arg0 (by decide)).trans <|
    (W2_arr m c 0).trans <| ((dat0 (V1 m) c).arrAt_in 0 rfl _).trans <| (A_eq0 (V1 m) c 0).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <|
    (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <|
    (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <|
    (W2_of_ne m c main_arg5 (by decide)).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <|
    (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <|
    (W2_of_ne m c main_arg7 (by decide)).trans <| (W1_of m c main_arg7 (by decide)).trans rfl

/-! ## What the last boundary holds at the arguments and at the two results; what region 2 is entered with -/
theorem W5_main_arg0 (c : Dev nD) : W5 m c (Proc.devRef .tc main_arg0) = m ((c : Thread nD τ).loc main_arg0) :=
  (W5_of_ne m c main_arg0 (by decide)).trans (W4_main_arg0 m c)
theorem W5_main_arg1 (c : Dev nD) : W5 m c (Proc.devRef .tc main_arg1) = m ((c : Thread nD τ).loc main_arg1) :=
  (W5_of_ne m c main_arg1 (by decide)).trans (W4_main_arg1 m c)
theorem W5_main_arg2 (c : Dev nD) : W5 m c (Proc.devRef .tc main_arg2) = m ((c : Thread nD τ).loc main_arg2) :=
  (W5_of_ne m c main_arg2 (by decide)).trans (W4_main_arg2 m c)
theorem W5_main_arg3 (c : Dev nD) : W5 m c (Proc.devRef .tc main_arg3) = m ((c : Thread nD τ).loc main_arg3) :=
  (W5_of_ne m c main_arg3 (by decide)).trans (W4_main_arg3 m c)
theorem W5_main_arg4 (c : Dev nD) : W5 m c (Proc.devRef .tc main_arg4) = m ((c : Thread nD τ).loc main_arg4) :=
  (W5_of_ne m c main_arg4 (by decide)).trans (W4_main_arg4 m c)
theorem W5_main_arg5 (c : Dev nD) : W5 m c (Proc.devRef .tc main_arg5) = m ((c : Thread nD τ).loc main_arg5) :=
  (W5_of_ne m c main_arg5 (by decide)).trans (W4_main_arg5 m c)
theorem W5_main_arg6 (c : Dev nD) : W5 m c (Proc.devRef .tc main_arg6) = m ((c : Thread nD τ).loc main_arg6) :=
  (W5_of_ne m c main_arg6 (by decide)).trans (W4_main_arg6 m c)
theorem W5_main_arg7 (c : Dev nD) : W5 m c (Proc.devRef .tc main_arg7) = m ((c : Thread nD τ).loc main_arg7) :=
  (W5_of_ne m c main_arg7 (by decide)).trans (W4_main_arg7 m c)
/-- Region 2 finds the gate where region 0 left it. -/
theorem V4_main_v8_1 (c : Dev nD) : V4 m c main_v8_1 = (dat0 (V1 m) c).arrAt 7 cfg0.N :=
  (W4_of_ne m c main_v8_1 (by decide)).trans <| (W3_of m c main_v8_1 (by decide)).trans (W2_arr m c 7)
/-- Region 2 finds the head average where region 0 left it. -/
theorem V4_main_v8_0 (c : Dev nD) : V4 m c main_v8_0 = (dat0 (V1 m) c).arrAt 6 cfg0.N :=
  (W4_of_ne m c main_v8_0 (by decide)).trans <| (W3_of m c main_v8_0 (by decide)).trans (W2_arr m c 6)
/-- Region 2 finds the row statistics where region 1 left them. -/
theorem V4_main_v24_0 (c : Dev nD) : V4 m c main_v24_0 = (dat1 (V3 m) c).arrAt 1 cfg1.N := W4_arr m c 1
theorem V4_main_v24_1 (c : Dev nD) : V4 m c main_v24_1 = (dat1 (V3 m) c).arrAt 2 cfg1.N := W4_arr m c 2
/-- The logits and the table of winning positions reach region 2 as the second host stretch wrote them. -/
theorem V4_main_v23 (c : Dev nD) : V4 m c main_v23 = V3 m c main_v23 :=
  (W4_arr m c 0).trans <| ((dat1 (V3 m) c).arrAt_in 0 rfl _).trans (A_eq1 (V3 m) c 0)
theorem V4_main_v22 (c : Dev nD) : V4 m c main_v22 = V3 m c main_v22 := W4_of_ne m c main_v22 (by decide)
/-- The first result: the gate, as region 0 left it (region 2 only reads it). -/
theorem W5_main_v8_1 (c : Dev nD) : W5 m c (Proc.devRef .tc main_v8_1) = (dat0 (V1 m) c).arrAt 7 cfg0.N :=
  (W5_arr m c 3).trans <| ((dat2 (V4 m) c).arrAt_in 3 rfl _).trans <| (A_eq2 (V4 m) c 3).trans (V4_main_v8_1 m c)
/-- The second result: what region 2 leaves in its output array. -/
theorem W5_main_v25 (c : Dev nD) : W5 m c (Proc.devRef .tc main_v25) = (dat2 (V4 m) c).arrAt 6 cfg2.N := W5_arr m c 6

end Cert.KernelIdeal.Hand

end
-- ==== Proof.KI.RunR.Data.lean ====
/- The three regions' proof data read relationally, the third kernel's output window forgotten, and the last thread state. -/
import proofs.«156806_j16080357556617_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data read relationally; region 2's output window forgotten (what the third kernel leaves in the
    overhanging part of its last block is not named). -/
def rdats : (p : Fin 3) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V4 m) c).toRForget fgt2

/-- The last thread state without the `owes`: every unscoped buffer as region 2 found it, its arrays at something. -/
abbrev TₙR (c : Dev nD) : sProp 𝕄 := iprop((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ ∃ r, prngReg c r)

end Cert.KernelIdeal.Hand

end
-- ==== Proof.KI.RunR.Reg0.lean ====
/- Region 0 as a segment over the thread state: entry, invariant in and out, exit. -/
import proofs.«156806_j16080357556617_2_alg».proof.Proof.KI.RunR.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] PhiS outsAt0

set_option maxHeartbeats 8000000 in
set_option backward.isDefEq.respectTransparency.types false in
/-- Region 0 over the thread state, its proof data read relationally. -/
def regR0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V1 m) c)
  hout c := (hout0 (V1 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.RunR.Reg1.lean ====
/- Region 1 as a segment over the thread state: entry, invariant in and out, exit. -/
import proofs.«156806_j16080357556617_2_alg».proof.Proof.KI.RunR.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
set_option backward.isDefEq.respectTransparency.types false in
/-- Region 1 over the thread state, its proof data read relationally. -/
def regR1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m) c)
  hout c := (hout1 (V3 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    rw [show (rdats m 1 c).arraysAt (Pipeline.pin (pcfgs (F := F)) adm 1).N = ((pdats m 1 c).arrays ((pdats m 1 c).arrAt · cfg1.N) : sProp 𝕄)
      from (pdats m 1 c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.RunR.Reg2.lean ====
/- Region 2 as a segment over the thread state; what it leaves in its arrays is not named. -/
import proofs.«156806_j16080357556617_2_alg».proof.Proof.KI.RunR.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
set_option backward.isDefEq.respectTransparency.types false in
/-- Region 2 over the thread state, its proof data read relationally. -/
def regR2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_fgt (V4 m) c).toRForget
  hwaits := Pipeline.RDat.hwaits_of_owed_zero _ _ _ _ L lv 2 fun _ _ => rfl
  pre c := iprop(StableHlo.held (c : Thread nD τ) (Pipeline.ucRefs τ sig) (W4 m c) ∗ R c)
  post c := iprop((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hin2 (V4 m) c)
  hout c := (hout2 (V4 m) c).trans (by
    rw [Pipeline.ownSems0_none]
    unfold Pipeline.ΦA
    iintro ⟨Hr, Hp⟩
    isplitl [Hp]; · iexact Hp
    isplitr; · iempintro
    iexact Hr)
  hexit c := by
    unfold Pipeline.RDat.arraysAt
    iintro ⟨Ha, HO, HY, Hrest⟩
    ihave Ha' := (BI.bigSep_exists_pi Finset.univ (fun w B => iprop(⌜(rdats m 2 c).ArrAt w (Pipeline.pin (pcfgs (F := F)) adm 2).N B⌝
        ∗ ((Pipeline.pin (pcfgs (F := F)) adm 2).win w).arr.view.loc (c.tc : Thread nD τ) ↦[((Pipeline.pin (pcfgs (F := F)) adm 2).win w).arr.view.set]{(rdats m 2 c).share w} B))) $$ Ha
    icases Ha' with ⟨%A, Ha⟩
    ihave Ha2 := (BI.bigSep_pure_sep Finset.univ (fun w => (rdats m 2 c).ArrAt w (Pipeline.pin (pcfgs (F := F)) adm 2).N (A w))
        (fun w => ((Pipeline.pin (pcfgs (F := F)) adm 2).win w).arr.view.loc (c.tc : Thread nD τ) ↦[((Pipeline.pin (pcfgs (F := F)) adm 2).win w).arr.view.set]{(rdats m 2 c).share w} A w)) $$ Ha
    icases Ha2 with ⟨-, Ha⟩
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (fun b => Pipeline.withArrays spec2 c (W4 m c) A b) A
      (fun w => (Pipeline.withArrays_arr spec2 launch2.win.arr_inj c _ _ w).symm)
      (fun b hb => Pipeline.withArrays_of_ne spec2 c _ _ b fun w e => hb (Finset.mem_image.mpr ⟨w, Finset.mem_univ _, e⟩))
    rw [Pipeline.unscopedBufs_held] at hjoin
    imodintro
    isplitl [Ha Hrest]
    · iexists A; iapply hjoin; isplitl [Ha]
      · unfold Pipeline.Dat.arrays; iexact Ha
      iexact Hrest
    isplitl [HY]; · iexact HY
    unfold Pipeline.RDat.owesAt Pipeline.owesWithin
    icases HO with ⟨%W, -, HO⟩; iexists W; iexact HO

end Cert.KernelIdeal.Hand

end
-- ==== Proof.KI.RunR.lean ====
/-
  The frame of the kernel program at any instance: @main as five segments (host stretch, region 0, host stretch,
  region 1, region 2) over one thread state — every unscoped buffer of the core at the boundary's contents, the
  generator register at some state, nothing owed. The regions' proof data are read relationally; what the third
  kernel leaves in its output array is not named (the overhanging part of its last block depends on words no
  statement names), which the frame does not need: it only says the arguments end as launched.
-/
import proofs.«156806_j16080357556617_2_alg».proof.Proof.KI.RunR.Reg0
import proofs.«156806_j16080357556617_2_alg».proof.Proof.KI.RunR.Reg1
import proofs.«156806_j16080357556617_2_alg».proof.Proof.KI.RunR.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev segsR : List (Pipeline.RDat.Seg (pcfgs (F := F)) adm (rdats m) () defs₀ 𝒱₀ L lv) :=
  [ .host (hseg hostOps0 hostOps0_sub hostOps0_fresh (W0 m)),
    .region (regR0 m),
    .host (hseg hostOps1 hostOps1_sub hostOps1_fresh (W2 m)),
    .region (regR1 m),
    .region (regR2 m) ]
theorem main_runR (c : Dev nD) : main (F := F) c = Pipeline.RDat.Seg.run (segsR m) := (main_chain c).trans (by chain_rfl)

set_option maxHeartbeats 8000000 in
set_option backward.isDefEq.respectTransparency.types false in
/-- THE FRAME at any instance: from any memory with zero counters every weakly fair execution of @main terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj emb₁ defs₀ 𝒱₀ L lv m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := TₙR m)
    (hch := ⟨fun _ => .rfl, fun _ => .rfl, fun _ => .rfl, fun _ => .rfl, fun _ => .rfl, fun c => by
      show iprop((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ (∃ r, prngReg c r) ∗ ∃ W, owes (c : Thread nD τ) (0 : CellTallies nD τ sig Unit) W)
        ⊢ iprop(((∃ A : (w : Fin cfg2.W) → Buf (Elt F) (((cfg2.win w).arr.view.loc ((c : Dev nD) : Thread nD τ))), StableHlo.held (c : Thread nD τ) (Pipeline.ucRefs τ sig) (Pipeline.withArrays spec2 c (W4 m c) A)) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    (hfin := fun c s' => by
      iintro ⟨⟨⟨%A, Hh⟩, -⟩, HSI⟩
      unfold StableHlo.held
      ihave Hr := (pointsTo_read_all (Pipeline.ucRefs τ sig) (fun b => (((c : Thread nD τ)).1, b)) (Pipeline.withArrays spec2 c (W4 m c) A) s') $$ [Hh HSI]
      · isplitl [Hh] <;> iassumption
      icases Hr with ⟨%h, HSI⟩
      imodintro
      isplitr
      · ipureintro
        exact ⟨(h _ (mem_uc main_arg0 (by decide))).trans ((Pipeline.withArrays_of_ne spec2 c _ _ main_arg0 (by decide)).trans (W4_main_arg0 m c)),
          (h _ (mem_uc main_arg1 (by decide))).trans ((Pipeline.withArrays_of_ne spec2 c _ _ main_arg1 (by decide)).trans (W4_main_arg1 m c)),
          (h _ (mem_uc main_arg2 (by decide))).trans ((Pipeline.withArrays_of_ne spec2 c _ _ main_arg2 (by decide)).trans (W4_main_arg2 m c)),
          (h _ (mem_uc main_arg3 (by decide))).trans ((Pipeline.withArrays_of_ne spec2 c _ _ main_arg3 (by decide)).trans (W4_main_arg3 m c)),
          (h _ (mem_uc main_arg4 (by decide))).trans ((Pipeline.withArrays_of_ne spec2 c _ _ main_arg4 (by decide)).trans (W4_main_arg4 m c)),
          (h _ (mem_uc main_arg5 (by decide))).trans ((Pipeline.withArrays_of_ne spec2 c _ _ main_arg5 (by decide)).trans (W4_main_arg5 m c)),
          (h _ (mem_uc main_arg6 (by decide))).trans ((Pipeline.withArrays_of_ne spec2 c _ _ main_arg6 (by decide)).trans (W4_main_arg6 m c)),
          (h _ (mem_uc main_arg7 (by decide))).trans ((Pipeline.withArrays_of_ne spec2 c _ _ main_arg7 (by decide)).trans (W4_main_arg7 m c))⟩
      · iexact HSI)
    (hQ := fun s h c => h c)

end Cert.KernelIdeal.Hand

end
-- ==== Proof.KI.Run.Reg0.lean ====
/- Region 0 as a segment over the thread state, its proof data exact: entry, invariant in and out, exit. -/
import proofs.«156806_j16080357556617_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

attribute [local irreducible] PhiS outsAt0

set_option maxHeartbeats 8000000 in
set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V1 m) c)
  hout c := (hout0 (V1 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg1.lean ====
/- Region 1 as a segment over the thread state, its proof data exact: entry, invariant in and out, exit. -/
import proofs.«156806_j16080357556617_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
set_option backward.isDefEq.respectTransparency.types false in
/-- Region 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m) c)
  hout c := (hout1 (V3 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«156806_j16080357556617_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.Spec.lean ====
/-
  The specification: both programs' two results as functions of the argument arrays, entry by entry, on the
  extended reals. The arrays are taken as plain functions of their coordinates.

  * the head average  ca(t, n) = (Σ_h x(h, t, n)) · (1/16);
  * the context       ctx(t, j) = Σ_n ca(t, n) · enc(n, j);
  * the pointer gate  gp(t) = 1 / (1 + exp(−(Σ_k lin(t, k) · w(k) + b))), lin(t, ·) the row made of
    ctx(t, ·), dh(t, ·), de(t, ·) side by side;
  * the row softmax   dist(t, v) = exp(lg(t, v) − M(t)) / L(t), M(t) the row's maximum and
    L(t) = Σ_v exp(lg(t, v) − M(t));
  * the copy term     copy(t, v) = ca(t, n*) for the LAST source position n* whose (sign-normalised) token id is v,
    and 0 when no position carries v;
  * the blend         final(t, v) = gp(t) · dist(t, v) + (1 − gp(t)) · copy(t, v).
-/
import Idealize.ShloMosaic.PureOps.Ideal
import Idealize.ShloMosaic.Lib.ValueIdx

noncomputable section

namespace Cert.Spec

open Idealize.ShloMosaic ValueIdx

/-- The head average: the sum over the 16 heads times 1/16. -/
def ca (x : Fin 16 → Fin 512 → Fin 1024 → EReal) (t : Fin 512) (n : Fin 1024) : EReal :=
  (∑ h : Fin 16, x h t n) * ((1 / 16 : ℝ) : EReal)

/-- The attention-weighted context of a [512, 1024] weight array `a`. -/
def ctx (a : Fin 512 → Fin 1024 → EReal) (enc : Fin 1024 → Fin 1024 → EReal) (t : Fin 512) (j : Fin 1024) : EReal :=
  ∑ n : Fin 1024, a t n * enc n j

/-- Row `t` of the pointer layer's input: context, decoder state, decoder embedding side by side. -/
def lin (a : Fin 512 → Fin 1024 → EReal) (enc : Fin 1024 → Fin 1024 → EReal) (dh de : Fin 512 → Fin 1024 → EReal)
    (t : Fin 512) (k : Fin 3072) : EReal :=
  if h1 : k.val < 1024 then ctx a enc t ⟨k.val, h1⟩
  else if h2 : k.val < 2048 then dh t ⟨k.val - 1024, by omega⟩
  else de t ⟨k.val - 2048, by omega⟩

/-- The pointer layer's pre-activation. -/
def logit (a : Fin 512 → Fin 1024 → EReal) (enc : Fin 1024 → Fin 1024 → EReal) (dh de : Fin 512 → Fin 1024 → EReal)
    (pw : Fin 3072 → EReal) (pb : EReal) (t : Fin 512) : EReal :=
  (∑ k : Fin 3072, lin a enc dh de t k * pw k) + pb

/-- The generation probability: the logistic function of the pre-activation. -/
def gp (a : Fin 512 → Fin 1024 → EReal) (enc : Fin 1024 → Fin 1024 → EReal) (dh de : Fin 512 → Fin 1024 → EReal)
    (pw : Fin 3072 → EReal) (pb : EReal) (t : Fin 512) : EReal :=
  Ideal.div 1 (1 + Ideal.exp (-(logit a enc dh de pw pb t)))

/-- The row maximum of the logits. -/
def rowMax (lg : Fin 512 → Fin 96103 → EReal) (t : Fin 512) : EReal :=
  Finset.univ.sup fun v : Fin 96103 => lg t v

/-- The row's sum of shifted exponentials. -/
def rowSum (lg : Fin 512 → Fin 96103 → EReal) (t : Fin 512) : EReal :=
  ∑ v : Fin 96103, Ideal.exp (lg t v - rowMax lg t)

/-- The row softmax. -/
def dist (lg : Fin 512 → Fin 96103 → EReal) (t : Fin 512) (v : Fin 96103) : EReal :=
  Ideal.div (Ideal.exp (lg t v - rowMax lg t)) (rowSum lg t)

/-- A token id with a negative value wrapped once by the vocabulary size (python indexing). -/
def normId (w : BitVec 32) : BitVec 32 :=
  Scalar.select (IntOp.cmpi .slt w 0#32) (IntOp.addi w 96103#32) w

/-- Source position `n` carries vocabulary entry `v`. -/
def Hits (ids : Fin 1024 → BitVec 32) (v : Fin 96103) (n : Fin 1024) : Prop :=
  (normId (ids n)).toInt = (v.val : ℤ)

instance (ids : Fin 1024 → BitVec 32) (v : Fin 96103) : DecidablePred (Hits ids v) := fun _ => Int.decEq _ _

/-- The source positions carrying `v`. -/
def hitSet (ids : Fin 1024 → BitVec 32) (v : Fin 96103) : Finset (Fin 1024) :=
  Finset.univ.filter (Hits ids v)

/-- The copy term: the weights at the LAST source position carrying `v`; zero when there is none. -/
def copy (a : Fin 512 → Fin 1024 → EReal) (ids : Fin 1024 → BitVec 32) (t : Fin 512) (v : Fin 96103) : EReal :=
  if h : (hitSet ids v).Nonempty then a t ((hitSet ids v).max' h) else 0

/-- The blended distribution. -/
def final (a : Fin 512 → Fin 1024 → EReal) (g : Fin 512 → EReal) (lg : Fin 512 → Fin 96103 → EReal)
    (ids : Fin 1024 → BitVec 32) (t : Fin 512) (v : Fin 96103) : EReal :=
  g t * dist lg t v + (1 - g t) * copy a ids t v

/-- A 0/1 weight: 1 when the 32-bit word of position `n` is the word `w`. -/
def onehot (n : Fin 1024) (w : BitVec 32) : EReal := if BitVec.ofNat 32 n.val = w then 1 else 0

/-- One entry of the tiled blend as the third kernel computes it from the arrays it is handed: the logits, the
    weights `a`, a table `sel` of winning source positions (as words), the gate `g` and the row statistics `m`, `l`:
    g · (exp(lg − m) · (1/l)) + (1 − g) · Σ_n a(t, n) · [n = sel(v)]. -/
def tileOut (lg : Fin 512 → Fin 96103 → EReal) (a : Fin 512 → Fin 1024 → EReal) (sel : Fin 96103 → BitVec 32)
    (g m l : Fin 512 → EReal) (t : Fin 512) (v : Fin 96103) : EReal :=
  g t * (Ideal.exp (lg t v - m t) * Ideal.div 1 (l t)) + (1 - g t) * ∑ n : Fin 1024, a t n * onehot n (sel v)

/-- The table of winning source positions the kernel's host code builds: for vocabulary entry `v` the word of the
    last position carrying `v`, and the word of −1 when there is none. -/
def selTable (ids : Fin 1024 → BitVec 32) (v : Fin 96103) : BitVec 32 :=
  if h : (hitSet ids v).Nonempty then BitVec.ofNat 32 ((hitSet ids v).max' h).val else (-1 : BitVec 32)

/-! The two results as arrays of the eight argument arrays (shapes as the programs take them). -/

abbrev SX : Shape := ⟨4, ![1, 16, 512, 1024]⟩
abbrev SEnc : Shape := ⟨3, ![1, 1024, 1024]⟩
abbrev SDec : Shape := ⟨3, ![1, 512, 1024]⟩
abbrev SLg : Shape := ⟨3, ![1, 512, 96103]⟩
abbrev SIds : Shape := ⟨1, ![1024]⟩
abbrev SPw : Shape := ⟨2, ![1, 3072]⟩
abbrev SPb : Shape := ⟨1, ![1]⟩
abbrev SGp : Shape := ⟨2, ![512, 1]⟩
abbrev SOut : Shape := ⟨2, ![512, 96103]⟩

/-- The head average of the argument array. -/
def caOf (x : SX.Idx → EReal) : Fin 512 → Fin 1024 → EReal := ca fun h t n => x (ix4 0 h t n)

/-- The gate of the argument arrays. -/
def gpOf (x : SX.Idx → EReal) (enc : SEnc.Idx → EReal) (dh de : SDec.Idx → EReal) (pw : SPw.Idx → EReal)
    (pb : SPb.Idx → EReal) : Fin 512 → EReal :=
  gp (caOf x) (fun n j => enc (ix3 0 n j)) (fun t j => dh (ix3 0 t j)) (fun t j => de (ix3 0 t j)) (fun k => pw (ix2 0 k)) (pb (ix1 0))

/-- First result, [512, 1]: the generation probabilities. -/
def genProbs (x : SX.Idx → EReal) (enc : SEnc.Idx → EReal) (dh de : SDec.Idx → EReal) (pw : SPw.Idx → EReal)
    (pb : SPb.Idx → EReal) : SGp.Idx → EReal :=
  fun i => gpOf x enc dh de pw pb (i 0)

/-- Second result, [512, 96103]: the blended distribution. -/
def finalProbs (x : SX.Idx → EReal) (enc : SEnc.Idx → EReal) (dh de : SDec.Idx → EReal) (lg : SLg.Idx → EReal)
    (ids : SIds.Idx → BitVec 32) (pw : SPw.Idx → EReal) (pb : SPb.Idx → EReal) : SOut.Idx → EReal :=
  fun i => final (caOf x) (gpOf x enc dh de pw pb) (fun t v => lg (ix3 0 t v)) (fun n => ids (ix1 n)) (i 0) (i 1)

end Cert.Spec

end
-- ==== Proof.KI.Region2I.lean ====
import proofs.«156806_j16080357556617_2_alg».proof.Proof.KI.Region2
import proofs.«156806_j16080357556617_2_alg».proof.Proof.LibPlainProduct
import proofs.«156806_j16080357556617_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The third region at the ideal values

On the extended reals the body's store is, entry by entry, the blend of the softmax term and a sum over the source
positions against a one-hot column (`out2_6_at`). Entry (t, j) reads the logits at (t, j) and the winning position of
column j only, so on the columns inside the array the store does not depend on what the clipped inputs' buffers hold
past the array's end (`out2_6_cut_congr`), and the body obligation holds with nothing forgotten. -/

theorem hz2 : (![0, 0] : Fin 2 → Nat) = fun _ => 0 := funext fun a => by fin_cases a <;> rfl

/-- An entry of the one-hot matrix the body builds: row `n`, column `j` is 1 when the word of `n` is the winning
    position of column `j`, else 0. -/
theorem onehot_entry (x2 : Vec Ideal S1x1024 .i32) (n j : Fin 1024) :
    (truncf .bf16 (sitofp .f32 (extui 32 (cmpi .eq (iota .tc S1024x1024 32 [0] iota_S1024x1024_d0_w32)
      (broadcastTo S1024x1024 x2 broadcasts_S1x1024_S1024x1024)) natLt_1_32)) bitsLt_bf16_f32 : FVec Ideal S1024x1024 .bf16) (ix2 n j)
      = Cert.Spec.onehot n (x2 (ix2 0 j)) := by
  rw [truncf_apply, sitofp_apply, extui_apply]
  show FloatOps.sitofp .f32 ((IntOp.cmpi .eq (iota .tc S1024x1024 32 [0] iota_S1024x1024_d0_w32 (ix2 n j))
    (broadcastTo S1024x1024 x2 broadcasts_S1x1024_S1024x1024 (ix2 n j))).setWidth 32) = _
  rw [iota_single_apply, broadcastTo_1b_ab_apply]
  show ((((IntOp.cmpi .eq (BitVec.ofNat 32 n.val) (x2 (ix2 0 j))).setWidth 32).toInt : ℝ) : EReal) = _
  rw [toInt_setWidth_bit]
  unfold Cert.Spec.onehot IntOp.cmpi
  by_cases h : BitVec.ofNat 32 n.val = x2 (ix2 0 j)
  · rw [if_pos h]; simp [h]
  · rw [if_neg h]; simp [h]

/-- A [512, 1] column broadcast over the tile reads, at (p, q), the column's row p. -/
theorem bcast_col {α : Type} (v : S512x1.Idx → α) (p : Fin 512) (q : Fin 1024) :
    broadcastTo S512x1024 v broadcasts_S512x1_S512x1024 (ix2 p q) = v (ix2 p 0) :=
  broadcastTo_apply v _ (ix2 p q) (ix2 p 0) fun a => by
    match a with
    | ⟨0, _⟩ => rfl
    | ⟨1, _⟩ => rfl

theorem out2_6_apply (x0 : Vec Ideal S512x1024 .f32) (x1 : Vec Ideal S512x1024 .bf16) (x2 : Vec Ideal S1x1024 .i32)
    (x3 x4 x5 : Vec Ideal S512x1 .f32) (p : Fin 512) (q : Fin 1024) :
    out2_6 x0 x1 x2 x3 x4 x5 (ix2 p q)
      = x3 (ix2 p 0) * (Ideal.exp (x0 (ix2 p q) - x4 (ix2 p 0)) * Ideal.div 1 (x5 (ix2 p 0)))
        + (1 - x3 (ix2 p 0)) * ∑ n : Fin 1024, x1 (ix2 p n) * Cert.Spec.onehot n (x2 (ix2 0 q)) := by
  unfold out2_6
  rw [View.canon_unit_zero hz2]
  unfold k2_pay1
  simp only [View.ld_unit_zero (S := S512x1024) hz2, View.ld_unit_zero (S := S512x1) hz2, View.ld_unit_zero (S := S1x1024) hz2, shapeCast_self]
  rw [show dot_S512x1024_S1024x1024_S512x1024_1_0_0_1_n_n = DotDims.plain 512 1024 1024 from rfl]
  simp only [addf_apply, mulf_apply, subf_apply, divf_apply, broadcast_apply, bcast_col, PlainProduct.matmul_zero_at 512 1024 1024]
  show x3 (ix2 p 0) * (Ideal.exp (x0 (ix2 p q) - broadcastTo S512x1024 x4 broadcasts_S512x1_S512x1024 (ix2 p q))
      * Ideal.div (Ideal.ofBits .f32 0x3F800000#32) (x5 (ix2 p 0)))
    + (Ideal.ofBits .f32 0x3F800000#32 - x3 (ix2 p 0)) * _ = _
  rw [bcast_col, Ideal.ofBits_one_f32]
  exact congrArg (fun s => _ + (1 - x3 (ix2 p 0)) * s) (Finset.sum_congr rfl fun n _ => by rw [onehot_entry])

/-- The same at any index of the tile. -/
theorem out2_6_at (x0 : Vec Ideal S512x1024 .f32) (x1 : Vec Ideal S512x1024 .bf16) (x2 : Vec Ideal S1x1024 .i32)
    (x3 x4 x5 : Vec Ideal S512x1 .f32) (y : S512x1024.Idx) :
    out2_6 x0 x1 x2 x3 x4 x5 y
      = x3 (ix2 (y 0) 0) * (Ideal.exp (x0 y - x4 (ix2 (y 0) 0)) * Ideal.div 1 (x5 (ix2 (y 0) 0)))
        + (1 - x3 (ix2 (y 0) 0)) * ∑ n : Fin 1024, x1 (ix2 (y 0) n) * Cert.Spec.onehot n (x2 (ix2 0 (y 1))) := by
  obtain ⟨p, q, rfl⟩ : ∃ p q, y = ix2 p q := ⟨y 0, y 1, eq_ix2 y⟩
  exact out2_6_apply x0 x1 x2 x3 x4 x5 p q

section Regions

variable (V : (c : Dev nD) → (b : Ref sig .tc) → Buf (Elt Ideal) ((c : Thread nD τ).loc b))

/-- Two fillings of one block agree wherever the transfer moves. -/
theorem fill_congr_moved {G : Pipeline.Grid} (w : Window sig G) {α : Type} (i : G.Coords) (d d' : w.block.Idx → α)
    (g : (w.xblock i).Idx → α) {y : w.block.Idx} (h : w.moved i y = true) : w.fill i d g y = w.fill i d' g y := by
  unfold Window.fill; rw [dif_pos h, dif_pos h]

/-- On the columns inside the array the body's store does not depend on what the two clipped inputs' buffers hold
    past the array's end: entry (t, j) reads the logits at (t, j) and the winning position of column j only. -/
theorem out2_6_cut_congr (i : grid2.Coords) (d0 d0' : Vec Ideal S512x1024 .f32) (b0 : (win2_0.xblock i).Idx → Elt Ideal .f32)
    (d2 d2' : Vec Ideal S1x1024 .i32) (b2 : (win2_2.xblock i).Idx → Elt Ideal .i32)
    (x1 : Vec Ideal S512x1024 .bf16) (x3 x4 x5 : Vec Ideal S512x1 .f32) :
    win2_6.cut i (out2_6 (win2_0.fill i d0 b0) x1 (win2_2.fill i d2 b2) x3 x4 x5)
      = win2_6.cut i (out2_6 (win2_0.fill i d0' b0) x1 (win2_2.fill i d2' b2) x3 x4 x5) := by
  funext j
  show out2_6 _ _ _ _ _ _ (win2_6.xinj i j) = out2_6 _ _ _ _ _ _ (win2_6.xinj i j)
  rw [out2_6_at, out2_6_at]
  have h0 : win2_0.moved i (win2_6.xinj i j) = true := (win2_0.moved_iff i _).mpr fun a => (j a).isLt
  have h2 : win2_2.moved i (ix2 0 (win2_6.xinj i j 1)) = true := (win2_2.moved_iff i _).mpr fun a => by
    match a with
    | ⟨0, _⟩ => exact Pipeline.Clip.extent_pos (win2_2.hclip i 0) Nat.one_pos
    | ⟨1, _⟩ => exact (j 1).isLt
  rw [fill_congr_moved win2_0 i d0 d0' b0 h0, fill_congr_moved win2_2 i d2 d2' b2 h2]

/-- The obligation's post with nothing forgotten, the windows one by one: each clipped window's buffer stated on the
    part inside the array, the whole-array inputs at their blocks. -/
def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ owns (c : Thread nD τ) (st2_1 t) fullShare ((dat2 V c).after 1 t)
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (∃ d, owns (c : Thread nD τ) (st2_6 t) fullShare (win2_6.fill (grid2.coords t) d (win2_6.cut (grid2.coords t) ((dat2 V c).after 6 t)))))

theorem mid_post2 (c : Dev nD) (t : Fin cfg2.N) : bodyMid2 V c t ⊢ bodyPost2 V c t := by
  have hX : ∀ d0 d2, win2_6.fill (grid2.coords t) (out2_6 (win2_0.fill (grid2.coords t) d0 (iblk2 V c 0 t)) (iblk2 V c 1 t) (win2_2.fill (grid2.coords t) d2 (iblk2 V c 2 t)) (iblk2 V c 3 t) (iblk2 V c 4 t) (iblk2 V c 5 t)) (win2_6.cut (grid2.coords t) ((dat2 V c).after 6 t)) = (out2_6 (win2_0.fill (grid2.coords t) d0 (iblk2 V c 0 t)) (iblk2 V c 1 t) (win2_2.fill (grid2.coords t) d2 (iblk2 V c 2 t)) (iblk2 V c 3 t) (iblk2 V c 4 t) (iblk2 V c 5 t)) := fun d0 d2 =>
    Window.fill_congr_cut _ _ (by rw [after2_6]; unfold fblk2_0 fblk2_2; exact out2_6_cut_congr ..)
  unfold bodyMid2 bodyPost2
  rw [after2_0, after2_1, after2_2, after2_3, after2_4, after2_5]
  unfold fblk2_0 fblk2_2
  rw [Window.cut_fill, Window.cut_fill]
  iintro ⟨HΦ, Ho, %d0, %d2, H0, H1, H2, H3, H4, H5, H6⟩
  isplitl [HΦ]; · iexact HΦ
  isplitl [Ho]; · iexact Ho
  isplitl [H0]; · iexists d0; iexact H0
  isplitl [H1]; · iexact H1
  isplitl [H2]; · iexists d2; iexact H2
  isplitl [H3]; · iexact H3
  isplitl [H4]; · iexact H4
  isplitl [H5]; · iexact H5
  iexists (out2_6 (win2_0.fill (grid2.coords t) d0 (iblk2 V c 0 t)) (iblk2 V c 1 t) (win2_2.fill (grid2.coords t) d2 (iblk2 V c 2 t)) (iblk2 V c 3 t) (iblk2 V c 4 t) (iblk2 V c 5 t))
  rw [hX d0 d2]
  iexact H6

/-- The body obligation at every point, at the ideal values, nothing forgotten. -/
theorem body_obligation2 (c : Dev nD) :
    BodyObligationLoose (dat2 (F := Ideal) V c) (defs₀ (F := Ideal)) Variants.none () Set.univ := fun t => by
  rw [bigSep_W2, bigSep_W2]
  simp only [before2_6]
  exact (sound_body2 V c t).trans (wp_mono _ _ _ fun _ => mid_post2 V c t)

end Regions

end Cert.KernelIdeal.Hand
end
-- ==== Proof.KI.Run.Reg2.lean ====
/- Region 2 as a segment over the thread state, its proof data exact at the ideal instance. -/
import proofs.«156806_j16080357556617_2_alg».proof.Proof.KI.Fold
import proofs.«156806_j16080357556617_2_alg».proof.Proof.KI.Region2I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
set_option backward.isDefEq.respectTransparency.types false in
/-- Region 2 over the thread state: entered from every unscoped buffer at `W4`, left at `W5`. Its arrays are
    split out of the unscoped buffers and put back at the exit contents; the generator register goes into the
    region's invariant and comes back; nothing is owed; the kernel has no semaphore of its own. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V4 m) c
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hin2 (V4 m) c)
  hout c := (hout2 (V4 m) c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the idealized kernel program with every boundary's contents named: the five segments over exact proof
  data at the ideal instance, where the third kernel's output block is a function of its input blocks (a matrix
  product entry there reads one column only). In every final state each unscoped buffer holds the last boundary's
  contents.
-/
import proofs.«156806_j16080357556617_2_alg».proof.Proof.KI.Run.Reg0
import proofs.«156806_j16080357556617_2_alg».proof.Proof.KI.Run.Reg1
import proofs.«156806_j16080357556617_2_alg».proof.Proof.KI.Run.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The last thread state without the `owes`. -/
abbrev Tₙ (c : Dev nD) : sProp 𝕄 := iprop(StableHlo.held (c : Thread nD τ) (Pipeline.ucRefs τ sig) (W5 m c) ∗ ∃ r, prngReg c r)

/-! ## @main as segments, and the run -/

abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := Ideal) c = Pipeline.Seg.run (segs m) := (main_chain c).trans (by chain_rfl)

set_option maxHeartbeats 8000000 in
set_option backward.isDefEq.respectTransparency.types false in
/-- THE RUN: from any memory with zero counters every weakly fair execution of @main terminates, nothing faulting,
    and in every final state each unscoped buffer of core `c` holds the last boundary's contents `W5 m c`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ (∃ r, prngReg c r) ∗ ∃ W, owes (c : Thread nD τ) (0 : CellTallies nD τ sig Unit) W)
        ⊢ iprop((StableHlo.held (c : Thread nD τ) (Pipeline.ucRefs τ sig) (W5 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KI.HostStage0.lean ====
/-
  What the first stretch of host operations leaves in the arrays the first kernel region reads, entry by entry, for
  any contents W of the buffers before it: each is an argument array reshaped (the same entries in row-major order)
  and narrowed to bf16, and on the extended reals a change of format is the identity.
-/
import proofs.«156806_j16080357556617_2_alg».proof.Proof.Gen.KernelIdeal.Launch
import proofs.«156806_j16080357556617_2_alg».proof.Proof.Gen.KernelIdeal.Regions
import Idealize.ShloMosaic.PureOps.Ideal
import Idealize.ShloMosaic.Lib.ValueIdx
import Idealize.ShloMosaic.Lib.Pipeline.Value

noncomputable section

namespace Cert.KernelIdeal.Hand

open Idealize.ShloMosaic Idealize.SL.Sem ValueIdx
open Cert.KernelIdeal Cert.KernelIdeal.Gen

variable (W : Valuation τ sig (Elt Ideal))

/-- The encoder outputs, [1024, 1024]: argument 1 at (0, n, j). -/
theorem stage_v1 (n j : Fin 1024) :
    (StableHlo.after (hostOps0 (F := Ideal)) W (Proc.devRef .tc main_v1) : S1024x1024.Idx → EReal) (ix2 n j)
      = (W (Proc.devRef .tc main_arg1) : S1x1024x1024.Idx → EReal) (ix3 0 n j) := by
  have e : (StableHlo.after (hostOps0 (F := Ideal)) W (Proc.devRef .tc main_v1) : S1024x1024.Idx → EReal)
      = (truncf (F := Ideal) .bf16 (shapeCast S1024x1024 (W (Proc.devRef .tc main_arg1) : FVec Ideal S1x1024x1024 .f32)
          shapeCasts_S1x1024x1024_S1024x1024 : FVec Ideal S1024x1024 .f32) bitsLt_bf16_f32 : FVec Ideal S1024x1024 .bf16) := by
    simp only [hostOps0]; after_results; rfl
  rw [e, truncf_apply]
  refine shapeCast_apply _ _ (ix2 n j) (ix3 0 n j) ?_
  rw [Shape.rowMajor_val_three, Shape.rowMajor_val_two]
  simp

/-- The decoder states, [512, 1024]: argument 2 at (0, t, j). -/
theorem stage_v3 (t : Fin 512) (j : Fin 1024) :
    (StableHlo.after (hostOps0 (F := Ideal)) W (Proc.devRef .tc main_v3) : S512x1024.Idx → EReal) (ix2 t j)
      = (W (Proc.devRef .tc main_arg2) : S1x512x1024.Idx → EReal) (ix3 0 t j) := by
  have e : (StableHlo.after (hostOps0 (F := Ideal)) W (Proc.devRef .tc main_v3) : S512x1024.Idx → EReal)
      = (truncf (F := Ideal) .bf16 (shapeCast S512x1024 (W (Proc.devRef .tc main_arg2) : FVec Ideal S1x512x1024 .f32)
          shapeCasts_S1x512x1024_S512x1024 : FVec Ideal S512x1024 .f32) bitsLt_bf16_f32 : FVec Ideal S512x1024 .bf16) := by
    simp only [hostOps0]; after_results; rfl
  rw [e, truncf_apply]
  refine shapeCast_apply _ _ (ix2 t j) (ix3 0 t j) ?_
  rw [Shape.rowMajor_val_three, Shape.rowMajor_val_two]
  simp

/-- The decoder embeddings, [512, 1024]: argument 3 at (0, t, j). -/
theorem stage_v5 (t : Fin 512) (j : Fin 1024) :
    (StableHlo.after (hostOps0 (F := Ideal)) W (Proc.devRef .tc main_v5) : S512x1024.Idx → EReal) (ix2 t j)
      = (W (Proc.devRef .tc main_arg3) : S1x512x1024.Idx → EReal) (ix3 0 t j) := by
  have e : (StableHlo.after (hostOps0 (F := Ideal)) W (Proc.devRef .tc main_v5) : S512x1024.Idx → EReal)
      = (truncf (F := Ideal) .bf16 (shapeCast S512x1024 (W (Proc.devRef .tc main_arg3) : FVec Ideal S1x512x1024 .f32)
          shapeCasts_S1x512x1024_S512x1024 : FVec Ideal S512x1024 .f32) bitsLt_bf16_f32 : FVec Ideal S512x1024 .bf16) := by
    simp only [hostOps0]; after_results; rfl
  rw [e, truncf_apply]
  refine shapeCast_apply _ _ (ix2 t j) (ix3 0 t j) ?_
  rw [Shape.rowMajor_val_three, Shape.rowMajor_val_two]
  simp

/-- The pointer layer's weights, [1, 3072]: argument 6 itself. -/
theorem stage_v6 (k : Fin 3072) :
    (StableHlo.after (hostOps0 (F := Ideal)) W (Proc.devRef .tc main_v6) : S1x3072.Idx → EReal) (ix2 0 k)
      = (W (Proc.devRef .tc main_arg6) : S1x3072.Idx → EReal) (ix2 0 k) := by
  have e : (StableHlo.after (hostOps0 (F := Ideal)) W (Proc.devRef .tc main_v6) : S1x3072.Idx → EReal)
      = (truncf (F := Ideal) .bf16 (W (Proc.devRef .tc main_arg6) : FVec Ideal S1x3072 .f32) bitsLt_bf16_f32
          : FVec Ideal S1x3072 .bf16) := by
    simp only [hostOps0]; after_results
  rw [e, truncf_apply]

/-- The pointer layer's bias, [1, 1]: argument 7's one entry. -/
theorem stage_v7 :
    (StableHlo.after (hostOps0 (F := Ideal)) W (Proc.devRef .tc main_v7) : S1x1.Idx → EReal) (ix2 0 0)
      = (W (Proc.devRef .tc main_arg7) : S1.Idx → EReal) (ix1 0) := by
  have e : (StableHlo.after (hostOps0 (F := Ideal)) W (Proc.devRef .tc main_v7) : S1x1.Idx → EReal)
      = (shapeCast S1x1 (W (Proc.devRef .tc main_arg7) : FVec Ideal S1 .f32) shapeCasts_S1_S1x1 : FVec Ideal S1x1 .f32) := by
    simp only [hostOps0]; after_results; rfl
  rw [e]
  refine shapeCast_apply _ _ (ix2 0 0) (ix1 0) ?_
  rw [Shape.rowMajor_val_one, Shape.rowMajor_val_two]
  simp

/-- The stretch writes none of the argument arrays: the cross-attention weights are as before it. -/
theorem stage_arg0 :
    StableHlo.after (hostOps0 (F := Ideal)) W (Proc.devRef .tc main_arg0) = W (Proc.devRef .tc main_arg0) :=
  StableHlo.after_of_writes_sub hostOps0 W hostOps0_writes (by decide)

end Cert.KernelIdeal.Hand

end
-- ==== Proof.LibScatterFold.lean ====
/-
  The scatter as a fold, read at ONE operand index.

  `Host.scatter d f x idx upd` is the left fold, over the update positions in row-major order, of the step
  "the update at position `n` replaces the operand's element at the index it lands on (`d.resultIdx?`) by `f` of
  that element and the update; an update landing outside is dropped".  Read at one operand index `i`, only the
  updates landing on `i` matter:

  * `scatter_apply_eq_foldl_filter`: the result at `i` is the fold of `f`, starting from `x i`, over exactly the
    update positions landing on `i`, in row-major order;
  * `scatter_apply_of_none`: no update lands on `i` — the result there is the operand's element;
  * `scatter_apply_of_last`: when `f a b = b` whenever `a` is below `b` in some relation `le`, the operand's element
    is below every update landing on `i`, and the updates landing on `i` increase (for `le`) along the row-major order,
    the result at `i` is the LAST update landing on `i`.  With `le` the relation that always holds this is a scatter
    that keeps the update (`x.at[idx].set(v)`: the last write wins); with `le` the signed order of words it is a
    scatter by the signed maximum whose updates increase (`x.at[idx].max(v)`).

  Nothing is assumed of the element type, the shapes or the dimension numbers.
-/
import Idealize.ShloMosaic.PureOps
import Mathlib.Data.List.Sort
import Mathlib.Data.List.Pairwise

namespace Cert.Lib.ScatterFold

open Idealize.ShloMosaic

variable {α : Type} {s si u : Shape} {w : Nat}

/-- Update position `n` (row-major) lands on the operand index `i`. -/
def Lands (d : ScatterDims s si u) (idx : IVec si w) (i : s.Idx) (n : Fin u.numel) : Prop :=
  d.resultIdx? (u.rowMajor.symm n) idx = some i

noncomputable instance (d : ScatterDims s si u) (idx : IVec si w) (i : s.Idx) : DecidablePred (Lands d idx i) :=
  fun _ => Classical.propDecidable _

theorem lands_rowMajor (d : ScatterDims s si u) (idx : IVec si w) (i : s.Idx) (j : u.Idx) :
    Lands d idx i (u.rowMajor j) ↔ d.resultIdx? j idx = some i := by
  unfold Lands; rw [Equiv.symm_apply_apply]

/-- One step of the fold. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w) (upd : u.Idx → α) :
    Host.scatter d f x idx upd = (List.finRange u.numel).foldl (step d f idx upd) x := rfl

theorem step_apply_of_lands (d : ScatterDims s si u) (f : α → α → α) (idx : IVec si w) (upd : u.Idx → α)
    (r : s.Idx → α) (n : Fin u.numel) (i : s.Idx) (h : Lands d idx i n) :
    step d f idx upd r n i = f (r i) (upd (u.rowMajor.symm n)) := by
  unfold Lands at h
  unfold step; rw [h]; exact if_pos rfl

theorem step_apply_of_not_lands (d : ScatterDims s si u) (f : α → α → α) (idx : IVec si w) (upd : u.Idx → α)
    (r : s.Idx → α) (n : Fin u.numel) (i : s.Idx) (h : ¬ Lands d idx i n) :
    step d f idx upd r n i = r i := by
  unfold Lands at h
  unfold step
  cases hl : d.resultIdx? (u.rowMajor.symm n) idx with
  | none => rfl
  | some i0 =>
    show (if i = i0 then _ else r i) = r i
    rw [if_neg]
    intro e; exact h (by rw [hl, e])

/-- Over any list of update positions, the fold read at `i` is the fold of `f` over the positions landing on `i`. -/
theorem foldl_apply (d : ScatterDims s si u) (f : α → α → α) (idx : IVec si w) (upd : u.Idx → α) (i : s.Idx) :
    ∀ (l : List (Fin u.numel)) (x : s.Idx → α),
      l.foldl (step d f idx upd) x i
        = (l.filter fun n => decide (Lands d idx i n)).foldl (fun acc n => f acc (upd (u.rowMajor.symm n))) (x i)
  | [], _ => rfl
  | a :: l, x => by
    rw [List.foldl_cons, foldl_apply d f idx upd i l]
    by_cases h : Lands d idx i a
    · rw [List.filter_cons_of_pos (by simpa using h), List.foldl_cons, step_apply_of_lands d f idx upd x a i h]
    · rw [List.filter_cons_of_neg (by simpa using h), step_apply_of_not_lands d f idx upd x a i h]

/-- THE SCATTER AT ONE INDEX: the fold of `f`, from the operand's element, over the update positions landing there,
    in row-major order. -/
theorem scatter_apply_eq_foldl_filter (d : ScatterDims s si u) (f : α → α → α) (x : s.Idx → α) (idx : IVec si w)
    (upd : u.Idx → α) (i : s.Idx) :
    Host.scatter d f x idx upd i
      = ((List.finRange u.numel).filter fun n => decide (Lands d idx i n)).foldl
          (fun acc n => f acc (upd (u.rowMajor.symm n))) (x i) := by
  rw [scatter_eq_foldl]; exact foldl_apply d f idx upd i _ x

/-- THE SCATTER AT AN INDEX NO UPDATE LANDS ON: the operand's element, whatever `f`. -/
theorem scatter_apply_of_none (d : ScatterDims s si u) (f : α → α → α) (x : s.Idx → α) (idx : IVec si w)
    (upd : u.Idx → α) (i : s.Idx) (hmiss : ∀ j : u.Idx, d.resultIdx? j idx ≠ some i) :
    Host.scatter d f x idx upd i = x i := by
  rw [scatter_apply_eq_foldl_filter]
  have : ((List.finRange u.numel).filter fun n => decide (Lands d idx i n)) = [] := by
    rw [List.filter_eq_nil_iff]
    intro n _
    have h : ¬ Lands d idx i n := hmiss (u.rowMajor.symm n)
    simpa using h
  rw [this]; rfl

/-- A fold of `f` along a list each of whose elements is below (for `le`) all later ones, from a start below
    them all, where `f a b = b` whenever `a` is below `b`: the list's last element (the start when it is empty). -/
theorem foldl_pairwise_last (f : α → α → α) (le : α → α → Prop) (hf : ∀ a b, le a b → f a b = b) :
    ∀ (l : List α) (a : α), (a :: l).Pairwise le → l.foldl f a = (a :: l).getLast (List.cons_ne_nil _ _)
  | [], _, _ => rfl
  | b :: l, a, h => by
    have hab : le a b := (List.pairwise_cons.1 h).1 b (List.mem_cons_self ..)
    rw [List.foldl_cons, hf a b hab, foldl_pairwise_last f le hf l b (List.pairwise_cons.1 h).2,
      List.getLast_cons (List.cons_ne_nil _ _)]

/-- THE SCATTER AT AN INDEX WHERE THE LAST UPDATE WINS.  `f a b = b` whenever `le a b`; update index `j` lands on
    `i` and is the last to do so in row-major order; the operand's element is `le` every update landing on `i`; of two
    updates landing on `i` the earlier is `le` the later.  Then the result at `i` is the update at `j`. -/
theorem scatter_apply_of_last (d : ScatterDims s si u) (f : α → α → α) (le : α → α → Prop)
    (hf : ∀ a b, le a b → f a b = b) (x : s.Idx → α) (idx : IVec si w) (upd : u.Idx → α) (i : s.Idx)
    (j : u.Idx) (hj : d.resultIdx? j idx = some i)
    (hlast : ∀ j' : u.Idx, d.resultIdx? j' idx = some i → u.rowMajor j' ≤ u.rowMajor j)
    (h0 : ∀ j' : u.Idx, d.resultIdx? j' idx = some i → le (x i) (upd j'))
    (hmono : ∀ j' j'' : u.Idx, d.resultIdx? j' idx = some i → d.resultIdx? j'' idx = some i →
      u.rowMajor j' < u.rowMajor j'' → le (upd j') (upd j'')) :
    Host.scatter d f x idx upd i = upd j := by
  rw [scatter_apply_eq_foldl_filter]
  generalize hL : ((List.finRange u.numel).filter fun n => decide (Lands d idx i n)) = L
  have hmem : ∀ n, n ∈ L ↔ Lands d idx i n := by
    intro n; rw [← hL, List.mem_filter]; simp [List.mem_finRange]
  have hsorted : L.Pairwise (· < ·) := by
    rw [← hL]; exact (List.sortedLT_finRange _).pairwise.filter _
  have hjL : u.rowMajor j ∈ L := (hmem _).2 ((lands_rowMajor d idx i j).2 hj)
  have hlands : ∀ n, n ∈ L → d.resultIdx? (u.rowMajor.symm n) idx = some i := fun n hn => (hmem n).1 hn
  rw [← List.foldl_map (f := fun n => upd (u.rowMajor.symm n)) (g := f)]
  rw [foldl_pairwise_last f le hf]
  · have hne : L ≠ [] := List.ne_nil_of_mem hjL
    have hne' : L.map (fun n => upd (u.rowMajor.symm n)) ≠ [] := by simpa using hne
    rw [List.getLast_cons hne', List.getLast_map]
    have hlastL : L.getLast hne = u.rowMajor j := by
      apply le_antisymm
      · have := hlast (u.rowMajor.symm (L.getLast hne)) (hlands _ (List.getLast_mem hne))
        rwa [Equiv.apply_symm_apply] at this
      · exact (hsorted.imp le_of_lt).rel_getLast hjL
    rw [hlastL, Equiv.symm_apply_apply]
  · rw [List.pairwise_cons]
    refine ⟨?_, ?_⟩
    · intro b hb
      obtain ⟨n, hn, rfl⟩ := List.mem_map.1 hb
      exact h0 _ (hlands n hn)
    · rw [List.pairwise_map]
      refine hsorted.imp_of_mem ?_
      intro n m hn hm hnm
      have := hmono _ _ (hlands n hn) (hlands m hm)
      rw [Equiv.apply_symm_apply, Equiv.apply_symm_apply] at this
      exact this hnm

end Cert.Lib.ScatterFold
-- ==== Proof.LibScatterPair.lean ====
/-
  A scatter into a rank-2 operand [A, B] whose scatter indices are an [R, C, 2] array of (row, column) pairs, one
  pair per update of an [R, C] array of scalar updates (both operand axes inserted, the index vector on the last
  axis: what `W.at[rows, cols].set(vals)` lowers to).  Update `(p, q)` lands on the operand index whose row is
  the signed reading of `idx[p, q, 0]` and whose column is that of `idx[p, q, 1]`, when both are inside the
  operand.  Also: 32-bit words that are small natural numbers — their signed reading, their sign test, their
  sums and products.
-/
import Idealize.ShloMosaic.PureOps
import Idealize.ShloMosaic.Lib.ValueIdx

namespace Cert.Lib.ScatterPair

open Idealize.ShloMosaic Idealize.ShloMosaic.ValueIdx

/-- Those dimension numbers; their conditions `wf` are decided on a program's literal shapes. -/
abbrev pairDims (A B R C : Nat) (wf : ScatterDims.WF ⟨2, ![A, B]⟩ ⟨3, ![R, C, 2]⟩ ⟨2, ![R, C]⟩ [] [0, 1] [0, 1] 2) :
    ScatterDims ⟨2, ![A, B]⟩ ⟨3, ![R, C, 2]⟩ ⟨2, ![R, C]⟩ where
  updateWindowDims := []
  insertedWindowDims := [0, 1]
  scatterDimsToOperandDims := [0, 1]
  indexVectorDim := 2
  wf := wf

/-- The scatter-indices index `[p, q, c]` of update index `(p, q)` and component `c`. -/
abbrev pairIdx {R C : Nat} (y : (⟨2, ![R, C]⟩ : Shape).Idx) (c : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => c

theorem start0 {A B R C w : Nat} (wf) (j : (⟨2, ![R, C]⟩ : Shape).Idx) (idx : IVec ⟨3, ![R, C, 2]⟩ w) :
    (pairDims A B R C wf).start j idx 0 = (idx (pairIdx j 0)).toInt := by
  unfold ScatterDims.start
  rw [dif_pos (show (0 : Fin 2) ∈ ([0, 1] : List (Fin 2)) from List.mem_cons_self ..)]
  congr 2
  funext b; refine Fin.ext ?_
  match b with
  | ⟨0, _⟩ => rfl
  | ⟨1, _⟩ => rfl
  | ⟨2, _⟩ => rfl

theorem start1 {A B R C w : Nat} (wf) (j : (⟨2, ![R, C]⟩ : Shape).Idx) (idx : IVec ⟨3, ![R, C, 2]⟩ w) :
    (pairDims A B R C wf).start j idx 1 = (idx (pairIdx j 1)).toInt := by
  unfold ScatterDims.start
  rw [dif_pos (show (1 : Fin 2) ∈ ([0, 1] : List (Fin 2)) from List.mem_cons_of_mem _ (List.mem_cons_self ..))]
  congr 2
  funext b; refine Fin.ext ?_
  match b with
  | ⟨0, _⟩ => rfl
  | ⟨1, _⟩ => rfl
  | ⟨2, _⟩ => rfl

/-- Both operand axes are inserted: no window coordinate on either. -/
theorem window_zero {A B R C : Nat} (wf) (j : (⟨2, ![R, C]⟩ : Shape).Idx) (a : Fin 2) :
    (pairDims A B R C wf).window j a = 0 := by
  unfold ScatterDims.window
  rw [dif_neg]
  show a ∉ (⟨2, ![A, B]⟩ : Shape).kept [0, 1]
  simp only [Shape.kept, List.mem_filter, List.mem_finRange, true_and, decide_not, Bool.not_eq_eq_eq_not, Bool.not_true, decide_eq_false_iff_not, not_not]
  match a with
  | ⟨0, _⟩ => exact List.mem_cons_self ..
  | ⟨1, _⟩ => exact List.mem_cons_of_mem _ (List.mem_cons_self ..)

/-- WHERE UPDATE `j` LANDS: at row `a`, column `b`, when its index pair reads (signed) as the natural numbers
    `a < A`, `b < B`. -/
theorem resultIdx_pair {A B R C w : Nat} (wf) (j : (⟨2, ![R, C]⟩ : Shape).Idx) (idx : IVec ⟨3, ![R, C, 2]⟩ w)
    (a b : Nat) (ha : a < A) (hb : b < B) (h0 : (idx (pairIdx j 0)).toInt = (a : Int)) (h1 : (idx (pairIdx j 1)).toInt = (b : Int)) :
    (pairDims A B R C wf).resultIdx? j idx = some (ix2 ⟨a, ha⟩ ⟨b, hb⟩) := by
  unfold ScatterDims.resultIdx?
  have hs : ∀ x : Fin 2, (pairDims A B R C wf).start j idx x + (pairDims A B R C wf).window j x = (![(a : Int), (b : Int)] x) := by
    intro x
    rw [window_zero]
    match x with
    | ⟨0, _⟩ => rw [show (⟨0, by omega⟩ : Fin 2) = 0 from rfl, start0, h0]; rfl
    | ⟨1, _⟩ => rw [show (⟨1, by omega⟩ : Fin 2) = 1 from rfl, start1, h1]; rfl
  rw [dif_pos]
  · congr 1
    funext x
    refine Fin.ext ?_
    show ((pairDims A B R C wf).start j idx x + (pairDims A B R C wf).window j x).toNat = _
    rw [hs]
    match x with
    | ⟨0, _⟩ => rfl
    | ⟨1, _⟩ => rfl
  · intro x
    rw [hs]
    match x with
    | ⟨0, _⟩ => exact ⟨Int.natCast_nonneg _, by show (a : Int) < (A : Int); exact_mod_cast ha⟩
    | ⟨1, _⟩ => exact ⟨Int.natCast_nonneg _, by show (b : Int) < (B : Int); exact_mod_cast hb⟩

/-! ## 32-bit words that are small natural numbers -/

/-- The signed reading of the word of a natural number below 2^31 is that number. -/
theorem toInt_ofNat_small (n : Nat) (h : n < 2 ^ 31) : (BitVec.ofNat 32 n).toInt = (n : Int) := by
  rw [BitVec.toInt_eq_toNat_of_lt (by rw [BitVec.toNat_ofNat, Nat.mod_eq_of_lt (by omega)]; omega), BitVec.toNat_ofNat,
    Nat.mod_eq_of_lt (by omega)]

/-- Such a word is not negative. -/
theorem slt_zero_small (n : Nat) (h : n < 2 ^ 31) : IntOp.cmpi .slt (BitVec.ofNat 32 n) 0#32 = 0#1 := by
  unfold IntOp.cmpi
  show BitVec.ofBool ((BitVec.ofNat 32 n).slt 0#32) = 0#1
  rw [BitVec.slt_eq_decide, toInt_ofNat_small n h]
  have : ¬ ((n : Int) < (0#32 : BitVec 32).toInt) := by
    rw [show (0#32 : BitVec 32).toInt = 0 from rfl]; omega
  rw [decide_eq_false this]; rfl

theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

theorem muli_ofNat (a b : Nat) : IntOp.muli (BitVec.ofNat 32 a) (BitVec.ofNat 32 b) = BitVec.ofNat 32 (a * b) := by
  show BitVec.ofNat 32 a * BitVec.ofNat 32 b = _
  rw [BitVec.ofNat_mul]

end Cert.Lib.ScatterPair
-- ==== Proof.LibScatterVec.lean ====
/-
  A scatter into a rank-1 operand [A] whose scatter indices are an [N, 1] array, one index per update of an [N]
  array of scalar updates (the operand's one axis inserted, the index vector on the last axis: what
  `x.at[idx].set(v)` / `.max(v)` of flat arrays lowers to).  Update `n` lands on the operand index that is the signed
  reading of `idx[n, 0]`, exactly when that is inside the operand.  Also: the signed maximum of two 32-bit words
  ordered by their signed readings.
-/
import Idealize.ShloMosaic.PureOps
import Idealize.ShloMosaic.Lib.ValueIdx

namespace Cert.Lib.ScatterVec

open Idealize.ShloMosaic Idealize.ShloMosaic.ValueIdx

/-- Those dimension numbers; their conditions `wf` are decided on a program's literal shapes. -/
abbrev vecDims (A N : Nat) (wf : ScatterDims.WF ⟨1, ![A]⟩ ⟨2, ![N, 1]⟩ ⟨1, ![N]⟩ [] [0] [0] 1) :
    ScatterDims ⟨1, ![A]⟩ ⟨2, ![N, 1]⟩ ⟨1, ![N]⟩ where
  updateWindowDims := []
  insertedWindowDims := [0]
  scatterDimsToOperandDims := [0]
  indexVectorDim := 1
  wf := wf

/-- The scatter-indices index `[n, 0]` of update index `n`. -/
abbrev vecIdx {N : Nat} (y : (⟨1, ![N]⟩ : Shape).Idx) : (⟨2, ![N, 1]⟩ : Shape).Idx :=
  fun a => match a with | ⟨0, _⟩ => ⟨(y 0).val, show (y 0).val < N from (y 0).isLt⟩ | ⟨1, _⟩ => ⟨0, Nat.one_pos⟩

theorem start0 {A N w : Nat} (wf) (j : (⟨1, ![N]⟩ : Shape).Idx) (idx : IVec ⟨2, ![N, 1]⟩ w) :
    (vecDims A N wf).start j idx 0 = (idx (vecIdx j)).toInt := by
  unfold ScatterDims.start
  rw [dif_pos (show (0 : Fin 1) ∈ ([0] : List (Fin 1)) from List.mem_cons_self ..)]
  congr 2
  funext b; refine Fin.ext ?_
  match b with
  | ⟨0, _⟩ => rfl
  | ⟨1, _⟩ => rfl

/-- The operand's axis is inserted: no window coordinate on it. -/
theorem window_zero {A N : Nat} (wf) (j : (⟨1, ![N]⟩ : Shape).Idx) (a : Fin 1) :
    (vecDims A N wf).window j a = 0 := by
  unfold ScatterDims.window
  rw [dif_neg]
  show a ∉ (⟨1, ![A]⟩ : Shape).kept [0]
  simp only [Shape.kept, List.mem_filter, List.mem_finRange, true_and, decide_not, Bool.not_eq_eq_eq_not, Bool.not_true, decide_eq_false_iff_not, not_not]
  match a with
  | ⟨0, _⟩ => exact List.mem_cons_self ..

/-- WHERE UPDATE `j` LANDS, both ways: on the operand index `a` exactly when its scatter index reads (signed) as `a`. -/
theorem resultIdx_vec_iff {A N w : Nat} (wf) (j : (⟨1, ![N]⟩ : Shape).Idx) (idx : IVec ⟨2, ![N, 1]⟩ w) (a : Fin A) :
    (vecDims A N wf).resultIdx? j idx = some (ix1 a) ↔ (idx (vecIdx j)).toInt = (a.val : Int) := by
  have hs : ∀ x : Fin 1, (vecDims A N wf).start j idx x + (vecDims A N wf).window j x = (idx (vecIdx j)).toInt := by
    intro x
    rw [window_zero]
    match x with
    | ⟨0, _⟩ => rw [show (⟨0, by omega⟩ : Fin 1) = 0 from rfl, start0]; simp
  unfold ScatterDims.resultIdx?
  constructor
  · intro h
    split at h
    · next hin =>
      have h' := Option.some.inj h
      have e0 : ((vecDims A N wf).start j idx 0 + (vecDims A N wf).window j 0).toNat = a.val :=
        congrArg (fun g => (g 0).val) h'
      have n0 := (hin 0).1
      rw [hs] at e0 n0
      omega
    · cases h
  · intro h0
    rw [dif_pos]
    · congr 1
      funext x
      refine Fin.ext ?_
      show ((vecDims A N wf).start j idx x + (vecDims A N wf).window j x).toNat = _
      rw [hs, h0]
      match x with
      | ⟨0, _⟩ => rfl
    · intro x
      rw [hs, h0]
      match x with
      | ⟨0, _⟩ => exact ⟨Int.natCast_nonneg _, by show (a.val : Int) < (A : Int); exact_mod_cast a.isLt⟩

/-! ## The signed maximum of two words in order -/

/-- The signed maximum of two words is the second when the first reads (signed) at most the second. -/
theorem maxsi_of_toInt_le {w : Nat} (a b : BitVec w) (h : a.toInt ≤ b.toInt) : IntOp.maxsi a b = b := by
  unfold IntOp.maxsi
  have hb : b.slt a = false := by rw [BitVec.slt_eq_decide]; exact decide_eq_false (by omega)
  rw [hb]; rfl

end Cert.Lib.ScatterVec
-- ==== Proof.KI.SelTable.lean ====
/-
  The host code between the first and the second kernel, read at an entry.

  * The table of winning source positions: a length-96103 array of zeros, scattered into at the sign-normalised
    token ids with the signed maximum as the update rule and the updates n + 1 (n the source position), minus one,
    reshaped to [1, 96103].  The updates are positive and increase with the position, so at vocabulary entry `v` the
    scatter leaves n* + 1 for the LAST position n* carrying `v` and 0 when none does; minus one that is the word of
    n*, or the word of −1.
  * The logits reshaped from [1, 512, 96103] to [512, 96103].
-/
import proofs.«156806_j16080357556617_2_alg».proof.Proof.Gen.KernelIdeal.Launch
import proofs.«156806_j16080357556617_2_alg».proof.Proof.Spec
import Idealize.ShloMosaic.Lib.Pipeline.Value
import proofs.«156806_j16080357556617_2_alg».proof.Proof.LibScatterFold
import proofs.«156806_j16080357556617_2_alg».proof.Proof.LibScatterPair
import proofs.«156806_j16080357556617_2_alg».proof.Proof.LibScatterVec

noncomputable section

namespace Cert.KernelIdeal.Hand

open Cert.KernelIdeal Cert.KernelIdeal.Gen Idealize.ShloMosaic Idealize.ShloMosaic.TcCoe Idealize.ShloMosaic.StableHlo
open Idealize.ShloMosaic.ValueIdx Cert.Lib.ScatterFold Cert.Lib.ScatterVec
open Cert.Lib.ScatterPair (toInt_ofNat_small addi_ofNat)

/-- The scatter indices: the sign-normalised token ids as an [1024, 1] array. -/
def selIdx (ids : IVec S1024 32) : IVec S1024x1 32 :=
  broadcastInDim S1024x1 ![0] bcast_S1024_S1024x1_0
    (select (cmpi CmpIPredicate.slt ids (broadcastInDim S1024 ![] bcast_S_S1024 (constantI S_ 32 0#32)))
      (addi ids (broadcastInDim S1024 ![] bcast_S_S1024 (constantI S_ 32 96103#32))) ids)

/-- The updates: source position plus one. -/
def selUpd : IVec S1024 32 :=
  addi (broadcastInDim S1024 ![] bcast_S_S1024 (constantI S_ 32 1#32)) (iotaInDim S1024 32 0)

/-- The operand: zeros. -/
def selZero : IVec S96103 32 := broadcastInDim S96103 ![] bcast_S_S96103 (constantI S_ 32 0#32)

/-- The scatter index of update `j`: the sign-normalised token id of its source position. -/
theorem selIdx_apply (ids : IVec S1024 32) (j : S1024.Idx) :
    selIdx ids (vecIdx j) = Cert.Spec.normId (ids j) := by
  unfold selIdx
  rw [broadcastInDim_apply _ bcast_S1024_S1024x1_0 _ (vecIdx j) j (fun a => match a with
    | ⟨0, _⟩ => by show (j 0).val = if (1024 : Nat) = 1 then 0 else (j 0).val; rw [if_neg (by decide)])]
  rfl

theorem selUpd_apply (j : S1024.Idx) : selUpd j = BitVec.ofNat 32 (1 + (j 0).val) := by
  show IntOp.addi (BitVec.ofNat 32 1) (BitVec.ofNat 32 (j 0).val) = _
  exact addi_ofNat 1 _

theorem selUpd_toInt (j : S1024.Idx) : (selUpd j).toInt = ((1 + (j 0).val : Nat) : Int) := by
  rw [selUpd_apply]
  exact toInt_ofNat_small _ (by have : (j 0).val < 1024 := (j 0).isLt; omega)

theorem selZero_apply (i : S96103.Idx) : selZero i = 0#32 := rfl

/-- Update `j` lands on vocabulary entry `v` exactly when its source position carries `v`. -/
theorem sel_lands_iff (ids : IVec S1024 32) (j : S1024.Idx) (v : Fin 96103) :
    scatter_S96103_S1024x1_S1024_n_0_0_1.resultIdx? j (selIdx ids) = some (ix1 v)
      ↔ Cert.Spec.Hits (fun n => ids (ix1 n)) v (j 0) := by
  show (vecDims 96103 1024 _).resultIdx? j _ = _ ↔ _
  rw [resultIdx_vec_iff, selIdx_apply, congrArg ids (eq_ix1 j)]
  exact Iff.rfl

/-- A source position is in the hit set exactly when it carries `v`. -/
theorem mem_hitSet (ids : Fin 1024 → BitVec 32) (v : Fin 96103) (n : Fin 1024) :
    n ∈ Cert.Spec.hitSet ids v ↔ Cert.Spec.Hits ids v n := by
  unfold Cert.Spec.hitSet
  rw [Finset.mem_filter]
  exact and_iff_right (Finset.mem_univ _)

/-- THE SCATTER BY THE MAXIMUM AT AN ENTRY, minus one: the table of winning source positions. -/
theorem sel_scatter_apply (ids : IVec S1024 32) (v : Fin 96103) :
    IntOp.subi (Host.scatter scatter_S96103_S1024x1_S1024_n_0_0_1 IntOp.maxsi selZero (selIdx ids) selUpd (ix1 v)) 1#32
      = Cert.Spec.selTable (fun n => ids (ix1 n)) v := by
  unfold Cert.Spec.selTable
  split
  · next hne =>
    rw [scatter_apply_of_last _ IntOp.maxsi (fun a b => a.toInt ≤ b.toInt) maxsi_of_toInt_le _ _ _ _
      (ix1 ((Cert.Spec.hitSet (fun n => ids (ix1 n)) v).max' hne))]
    · rw [selUpd_apply]
      show BitVec.ofNat 32 (1 + ((Cert.Spec.hitSet (fun n => ids (ix1 n)) v).max' hne).val) - BitVec.ofNat 32 1 = _
      rw [BitVec.ofNat_add, BitVec.add_comm, BitVec.add_sub_cancel]
    · rw [sel_lands_iff]
      exact (mem_hitSet _ _ _).1 (Finset.max'_mem _ hne)
    · intro j' hj'
      rw [sel_lands_iff] at hj'
      have hle : j' 0 ≤ (Cert.Spec.hitSet (fun n => ids (ix1 n)) v).max' hne :=
        Finset.le_max' _ _ ((mem_hitSet _ _ _).2 hj')
      rw [Fin.le_def, Shape.rowMajor_val_one, Shape.rowMajor_val_one]
      exact hle
    · intro j' _
      rw [selZero_apply, selUpd_toInt]
      show (0 : Int) ≤ _
      exact Int.natCast_nonneg _
    · intro j' j'' _ _ hlt
      rw [Fin.lt_def, Shape.rowMajor_val_one, Shape.rowMajor_val_one] at hlt
      rw [selUpd_toInt, selUpd_toInt]
      omega
  · next hne =>
    rw [scatter_apply_of_none]
    · rfl
    · intro j hj
      rw [sel_lands_iff] at hj
      exact hne ⟨j 0, (mem_hitSet _ _ _).2 hj⟩

variable {F : FTy → Type} [FloatOps F] [Named F]

set_option maxHeartbeats 1000000 in
/-- THE TABLE OF WINNING SOURCE POSITIONS the third kernel is handed, for any contents of the buffers before the host
    code runs. -/
theorem selTable_eq (W : Valuation τ sig (Elt F)) (v : Fin 96103) :
    (StableHlo.after (hostOps1 (F := F)) W (Proc.devRef .tc main_v22) : S1x96103.Idx → BitVec 32) (ix2 0 v)
      = Cert.Spec.selTable (fun n => (W (Proc.devRef .tc main_arg5) : S1024.Idx → BitVec 32) (ix1 n)) v := by
  have e : (StableHlo.after (hostOps1 (F := F)) W (Proc.devRef .tc main_v22) : S1x96103.Idx → BitVec 32)
      = shapeCast S1x96103
          (subi (Host.scatter scatter_S96103_S1024x1_S1024_n_0_0_1 IntOp.maxsi selZero
              (selIdx (W (Proc.devRef .tc main_arg5) : S1024.Idx → BitVec 32)) selUpd)
            (broadcastInDim S96103 ![] bcast_S_S96103 (constantI S_ 32 1#32)))
          shapeCasts_S96103_S1x96103 := by
    after_results_simp
    rfl
  rw [e, shapeCast_apply _ shapeCasts_S96103_S1x96103 (ix2 0 v) (ix1 v)
    (by rw [Shape.rowMajor_val_one, Shape.rowMajor_val_two]; show v.val = 0 * 96103 + v.val; omega)]
  exact sel_scatter_apply _ v

set_option maxHeartbeats 1000000 in
/-- THE LOGITS the second and third kernels are handed: the argument array without its leading unit axis. -/
theorem logits2d_eq (W : Valuation τ sig (Elt F)) (t : Fin 512) (v : Fin 96103) :
    (StableHlo.after (hostOps1 (F := F)) W (Proc.devRef .tc main_v23) : S512x96103.Idx → F .f32) (ix2 t v)
      = (W (Proc.devRef .tc main_arg4) : S1x512x96103.Idx → F .f32) (ix3 0 t v) := by
  have e : (StableHlo.after (hostOps1 (F := F)) W (Proc.devRef .tc main_v23) : S512x96103.Idx → F .f32)
      = shapeCast S512x96103 (W (Proc.devRef .tc main_arg4) : S1x512x96103.Idx → F .f32) shapeCasts_S1x512x96103_S512x96103 := by
    after_results_simp
    rfl
  rw [e, shapeCast_apply _ shapeCasts_S1x512x96103_S512x96103 (ix2 t v) (ix3 0 t v)
    (by rw [Shape.rowMajor_val_three, Shape.rowMajor_val_two]; show (0 * 512 + t.val) * 96103 + v.val = t.val * 96103 + v.val; omega)]

end Cert.KernelIdeal.Hand

end
-- ==== Proof.LibOnlineLse.lean ====
/-
  A running log-sum-exp on the extended reals.

  Let the entries of a row come in blocks, block j being c j : K → [−∞, +∞), each entry a real number or −∞
  (a masked-out entry).  A running pair (m, l) starts at (−∞, 0) and takes one block at a time:
      m' = max m (max_k c j k),      l' = exp(m − m') · l + Σ_k exp(c j k − m'),
  with the conventions of the extended reals: −∞ − x = −∞ for every x, exp(−∞) = 0, 0 · x = 0.
  After n blocks the pair is (M, Σ_{j<n} Σ_k exp(c j k − M)) with M the largest entry seen — exactly what one
  pass over all n blocks at once computes.  The reason is the shift law
      exp(m − m') · exp(x − m) = exp(x − m')      for x ≤ m ≤ m' < +∞,
  which for x = −∞ reads 0 = 0 and for a real x forces m and m' to be real, where it is exp(a)·exp(b) = exp(a+b);
  and a factor may be moved into a sum of nonnegative extended reals.
-/
import Idealize.ShloMosaic.PureOps.Ideal

noncomputable section

namespace Cert.OnlineLse

open Idealize.ShloMosaic
open scoped BigOperators

/-- The exponential of an extended real is nonnegative. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- A factor moves into a finite sum of nonnegative extended reals. -/
theorem mul_sum_of_nonneg {ι : Type} (s : Finset ι) (a : EReal) (f : ι → EReal) (hf : ∀ i, 0 ≤ f i) :
    a * ∑ i ∈ s, f i = ∑ i ∈ s, a * f i := by
  classical
  induction s using Finset.induction_on with
  | empty => simp
  | insert i s hi ih =>
    rw [Finset.sum_insert hi, Finset.sum_insert hi,
      EReal.left_distrib_of_nonneg (hf i) (Finset.sum_nonneg fun j _ => hf j), ih]

/-- The shift law: re-basing an exponential from the maximum m to a later maximum m'. -/
theorem exp_shift {x m m' : EReal} (hx : x ≤ m) (hmm : m ≤ m') (hm' : m' ≠ ⊤) :
    Ideal.exp (m - m') * Ideal.exp (x - m) = Ideal.exp (x - m') := by
  induction x using EReal.rec with
  | bot => rw [EReal.bot_sub, EReal.bot_sub, Ideal.exp_bot, mul_zero]
  | top => exact absurd (top_le_iff.mp (hx.trans hmm)) hm'
  | coe r =>
    have hm_bot : m ≠ ⊥ := by
      intro h; rw [h] at hx; exact EReal.coe_ne_bot r (le_bot_iff.mp hx)
    have hm_top : m ≠ ⊤ := by
      intro h; rw [h] at hmm; exact hm' (top_le_iff.mp hmm)
    have hm'_bot : m' ≠ ⊥ := by
      intro h; rw [h] at hmm; exact hm_bot (le_bot_iff.mp hmm)
    obtain ⟨a, rfl⟩ : ∃ a : ℝ, m = a := ⟨m.toReal, (EReal.coe_toReal hm_top hm_bot).symm⟩
    obtain ⟨b, rfl⟩ : ∃ b : ℝ, m' = b := ⟨m'.toReal, (EReal.coe_toReal hm' hm'_bot).symm⟩
    rw [← EReal.coe_sub, ← EReal.coe_sub, ← EReal.coe_sub, Ideal.exp_coe, Ideal.exp_coe, Ideal.exp_coe,
      ← EReal.coe_mul, ← Real.exp_add]
    congr 2
    ring

/-- A masked-out entry contributes nothing to a shifted sum, whatever the shift. -/
theorem exp_masked_sub (b : Bool) (d x : EReal) :
    Ideal.exp ((if b = true then d else ⊥) - x) = if b = true then Ideal.exp (d - x) else 0 := by
  cases b
  · simp only [Bool.false_eq_true, if_false, EReal.bot_sub, Ideal.exp_bot]
  · simp only [if_true]

/-- Selecting a term by a bit is multiplying it by the bit's 0 or 1. -/
theorem mul_mask (b : Bool) (x : EReal) : x * (if b = true then 1 else 0) = if b = true then x else 0 := by
  cases b
  · simp only [Bool.false_eq_true, if_false, mul_zero]
  · simp only [if_true, mul_one]

variable {K : Type} [Fintype K]

/-- The largest entry of the first n blocks (−∞ when there is none). -/
def runMax (c : ℕ → K → EReal) (n : ℕ) : EReal :=
  (Finset.range n).sup fun j => Finset.univ.sup (c j)

/-- The sum, over the first n blocks, of the exponentials of the entries shifted by x. -/
def shiftSum (c : ℕ → K → EReal) (n : ℕ) (x : EReal) : EReal :=
  ∑ j ∈ Finset.range n, ∑ k, Ideal.exp (c j k - x)

/-- One block's update of the running pair (maximum, shifted sum). -/
def step (cj : K → EReal) (s : EReal × EReal) : EReal × EReal :=
  (max s.1 (Finset.univ.sup cj),
    Ideal.exp (s.1 - max s.1 (Finset.univ.sup cj)) * s.2 + ∑ k, Ideal.exp (cj k - max s.1 (Finset.univ.sup cj)))

/-- The running pair after n blocks, from (−∞, 0). -/
def online (c : ℕ → K → EReal) : ℕ → EReal × EReal
  | 0 => (⊥, 0)
  | n + 1 => step (c n) (online c n)

theorem runMax_succ (c : ℕ → K → EReal) (n : ℕ) :
    runMax c (n + 1) = max (runMax c n) (Finset.univ.sup (c n)) := by
  unfold runMax
  rw [Finset.range_add_one, Finset.sup_insert, sup_comm]

theorem le_runMax (c : ℕ → K → EReal) {j n : ℕ} (hj : j < n) (k : K) : c j k ≤ runMax c n :=
  (Finset.le_sup (f := c j) (Finset.mem_univ k)).trans
    (Finset.le_sup (f := fun j => Finset.univ.sup (c j)) (Finset.mem_range.mpr hj))

theorem runMax_ne_top (c : ℕ → K → EReal) (hc : ∀ j k, c j k ≠ ⊤) (n : ℕ) : runMax c n ≠ ⊤ := by
  refine ne_of_lt ?_
  unfold runMax
  rw [Finset.sup_lt_iff bot_lt_top]
  intro j _
  rw [Finset.sup_lt_iff bot_lt_top]
  intro k _
  exact lt_top_iff_ne_top.mpr (hc j k)

/-- Re-basing the whole shifted sum of the first n blocks from their maximum to a later maximum. -/
theorem shiftSum_shift (c : ℕ → K → EReal) (n : ℕ) {m' : EReal} (hmm : runMax c n ≤ m') (hm' : m' ≠ ⊤) :
    Ideal.exp (runMax c n - m') * shiftSum c n (runMax c n) = shiftSum c n m' := by
  unfold shiftSum
  rw [mul_sum_of_nonneg _ _ _ (fun j => Finset.sum_nonneg fun k _ => exp_nonneg _)]
  refine Finset.sum_congr rfl fun j hj => ?_
  rw [mul_sum_of_nonneg _ _ _ (fun k => exp_nonneg _)]
  refine Finset.sum_congr rfl fun k _ => ?_
  exact exp_shift (le_runMax c (Finset.mem_range.mp hj) k) hmm hm'

/-- After n blocks the running pair is the maximum of all their entries and the sum of all their exponentials
    shifted by that maximum: what one pass over the n blocks at once computes. -/
theorem online_eq (c : ℕ → K → EReal) (hc : ∀ j k, c j k ≠ ⊤) :
    ∀ n, online c n = (runMax c n, shiftSum c n (runMax c n))
  | 0 => by simp [online, runMax, shiftSum]
  | n + 1 => by
    rw [online, online_eq c hc n]
    unfold step
    dsimp only
    rw [← runMax_succ,
      shiftSum_shift c n (by rw [runMax_succ]; exact le_max_left _ _) (runMax_ne_top c hc _)]
    unfold shiftSum
    rw [Finset.sum_range_succ]

/-- The running log-sum-exp is the one-pass log-sum-exp. -/
theorem online_lse (c : ℕ → K → EReal) (hc : ∀ j k, c j k ≠ ⊤) (n : ℕ) :
    (online c n).1 + Ideal.log (online c n).2
      = runMax c n + Ideal.log (shiftSum c n (runMax c n)) := by
  rw [online_eq c hc n]

end Cert.OnlineLse

end
-- ==== Proof.Online.lean ====
/-
  The online softmax statistics of a row of 96103 logits taken in 94 tiles of 1024 columns, the columns past the
  row's end masked to −∞.  A running pair (m, l) starts at (−∞, 0); tile k updates it to
      m' = max m (max of the tile's entries),     l' = l · exp(m − m') + Σ_j exp(entry_j − m').
  After the 94 tiles the pair is the row's maximum and the row's sum of exponentials shifted by that maximum.
  The block-by-block law itself is LibOnlineLse's; here the tiles are laid over the row: a masked entry is −∞ and
  contributes exp(−∞) = 0 to a sum and nothing to a maximum, and column 1024·k + j runs through the row exactly once.
-/
import Idealize.ShloMosaic.PureOps.Ideal
import Idealize.ShloMosaic.PureOps.Ideal.Laws
import Idealize.ShloMosaic.Lib.ValueIdx
import proofs.«156806_j16080357556617_2_alg».proof.Proof.Spec
import proofs.«156806_j16080357556617_2_alg».proof.Proof.LibOnlineLse

noncomputable section

namespace Cert.Spec.Online

open Idealize.ShloMosaic
open scoped BigOperators

/-- Entry j of tile k of row t: the logit at column 1024·k + j, or −∞ past the row's end. -/
def tileEntry (lg : Fin 512 → Fin 96103 → EReal) (t : Fin 512) (k : Fin 94) (j : Fin 1024) : EReal :=
  if h : 1024 * k.val + j.val < 96103 then lg t ⟨1024 * k.val + j.val, h⟩ else ⊥

/-- The tile's maximum: the fold of max from −∞ over its 1024 entries. -/
def tileMax (lg : Fin 512 → Fin 96103 → EReal) (t : Fin 512) (k : Fin 94) : EReal :=
  (Finset.univ : Finset (Fin 1024)).fold max ⊥ (tileEntry lg t k)

/-- One tile's update of the running pair (maximum, shifted sum). -/
def step (lg : Fin 512 → Fin 96103 → EReal) (t : Fin 512) (s : EReal × EReal) (k : Fin 94) : EReal × EReal :=
  (max s.1 (tileMax lg t k),
   s.2 * Ideal.exp (s.1 - max s.1 (tileMax lg t k))
     + ∑ j : Fin 1024, Ideal.exp (tileEntry lg t k j - max s.1 (tileMax lg t k)))

/-- The running pair after the first n tiles, from (−∞, 0). -/
def stateAt (lg : Fin 512 → Fin 96103 → EReal) (t : Fin 512) : (n : ℕ) → n ≤ 94 → EReal × EReal
  | 0, _ => (⊥, 0)
  | n + 1, h => step lg t (stateAt lg t n (Nat.le_of_succ_le h)) ⟨n, h⟩

variable (lg : Fin 512 → Fin 96103 → EReal) (t : Fin 512)

/-- The tiles continued over every natural number (all −∞ from tile 94 on). -/
def blk (j : ℕ) (k : Fin 1024) : EReal :=
  if h : 1024 * j + k.val < 96103 then lg t ⟨1024 * j + k.val, h⟩ else ⊥

theorem tileEntry_eq (k : Fin 94) : tileEntry lg t k = blk lg t k.val := rfl

theorem tileMax_eq (k : Fin 94) : tileMax lg t k = Finset.univ.sup (blk lg t k.val) := rfl

theorem step_eq (s : EReal × EReal) (k : Fin 94) : step lg t s k = OnlineLse.step (blk lg t k.val) s := by
  unfold step OnlineLse.step
  rw [tileMax_eq, tileEntry_eq, mul_comm s.2]

theorem stateAt_eq_online : ∀ (n : ℕ) (h : n ≤ 94), stateAt lg t n h = OnlineLse.online (blk lg t) n
  | 0, _ => rfl
  | n + 1, h => by
    rw [stateAt, OnlineLse.online, stateAt_eq_online n (Nat.le_of_succ_le h), step_eq]

/-- Consecutive blocks of n terms make one run of n·m terms. -/
theorem sum_range_blocks (G : ℕ → EReal) (n : ℕ) :
    ∀ m : ℕ, ∑ j ∈ Finset.range m, ∑ k ∈ Finset.range n, G (n * j + k) = ∑ i ∈ Finset.range (n * m), G i
  | 0 => by simp
  | m + 1 => by
    rw [Finset.sum_range_succ, sum_range_blocks G n m, Nat.mul_succ, Finset.sum_range_add]

/-- The maximum over the 94 tiles is the row's maximum. -/
theorem runMax_eq : OnlineLse.runMax (blk lg t) 94 = rowMax lg t := by
  apply le_antisymm
  · unfold OnlineLse.runMax
    refine Finset.sup_le fun j _ => Finset.sup_le fun k _ => ?_
    unfold blk
    split_ifs with h
    · exact Finset.le_sup (f := fun v => lg t v) (Finset.mem_univ _)
    · exact bot_le
  · unfold rowMax
    refine Finset.sup_le fun v _ => ?_
    have hv := v.isLt
    have hk : v.val % 1024 < 1024 := Nat.mod_lt _ (by norm_num)
    have hj : v.val / 1024 < 94 := by omega
    have he : 1024 * (v.val / 1024) + v.val % 1024 = v.val := Nat.div_add_mod _ _
    have h := OnlineLse.le_runMax (blk lg t) hj ⟨v.val % 1024, hk⟩
    have hb : blk lg t (v.val / 1024) ⟨v.val % 1024, hk⟩ = lg t v := by
      unfold blk
      rw [dif_pos (by show 1024 * (v.val / 1024) + v.val % 1024 < 96103; omega)]
      congr 1
      exact Fin.ext he
    rw [hb] at h
    exact h

/-- The shifted sum over the 94 tiles is the shifted sum over the row: a masked entry adds exp(−∞) = 0. -/
theorem shiftSum_eq (x : EReal) :
    OnlineLse.shiftSum (blk lg t) 94 x = ∑ v : Fin 96103, Ideal.exp (lg t v - x) := by
  let G : ℕ → EReal := fun i => if h : i < 96103 then Ideal.exp (lg t ⟨i, h⟩ - x) else 0
  have hG : ∀ (j : ℕ) (k : Fin 1024), Ideal.exp (blk lg t j k - x) = G (1024 * j + k.val) := by
    intro j k
    show Ideal.exp (blk lg t j k - x) = if h : 1024 * j + k.val < 96103 then Ideal.exp (lg t ⟨1024 * j + k.val, h⟩ - x) else 0
    unfold blk
    by_cases h : 1024 * j + k.val < 96103
    · rw [dif_pos h, dif_pos h]
    · rw [dif_neg h, dif_neg h, EReal.bot_sub, Ideal.exp_bot]
  have hrow : ∑ v : Fin 96103, Ideal.exp (lg t v - x) = ∑ i ∈ Finset.range 96103, G i := by
    rw [← Fin.sum_univ_eq_sum_range]
    refine Finset.sum_congr rfl fun v _ => ?_
    show _ = if h : v.val < 96103 then Ideal.exp (lg t ⟨v.val, h⟩ - x) else 0
    rw [dif_pos v.isLt]
  unfold OnlineLse.shiftSum
  rw [hrow]
  have h1 : ∀ j ∈ Finset.range 94, ∑ k : Fin 1024, Ideal.exp (blk lg t j k - x)
      = ∑ k ∈ Finset.range 1024, G (1024 * j + k) := by
    intro j _
    rw [← Fin.sum_univ_eq_sum_range (fun k => G (1024 * j + k))]
    exact Finset.sum_congr rfl fun k _ => hG j k
  rw [Finset.sum_congr rfl h1, sum_range_blocks G 1024 94]
  symm
  refine Finset.sum_subset (fun i hi => Finset.mem_range.mpr (lt_of_lt_of_le (Finset.mem_range.mp hi) (by norm_num))) fun i _ hi => ?_
  have : ¬ i < 96103 := by simpa [Finset.mem_range] using hi
  show (if h : i < 96103 then Ideal.exp (lg t ⟨i, h⟩ - x) else 0) = 0
  rw [dif_neg this]

/-- After the 94 tiles the running pair is the row's maximum and the row's shifted sum. -/
theorem stateAt_last (lg : Fin 512 → Fin 96103 → EReal) (hreal : ∀ t v, ∃ r : ℝ, lg t v = (r : EReal)) (t : Fin 512) :
    stateAt lg t 94 le_rfl = (rowMax lg t, rowSum lg t) := by
  have hc : ∀ j k, blk lg t j k ≠ ⊤ := by
    intro j k
    unfold blk
    split_ifs with h
    · obtain ⟨r, hr⟩ := hreal t ⟨1024 * j + k.val, h⟩
      rw [hr]; exact EReal.coe_ne_top r
    · exact bot_ne_top
  rw [stateAt_eq_online, OnlineLse.online_eq (blk lg t) hc 94, runMax_eq, shiftSum_eq]
  rfl

end Cert.Spec.Online

end
-- ==== Proof.KI.Value1.lean ====
/-
  Region 1's values at the extended reals: what the two result arrays (the row maximum and the row's sum of shifted
  exponentials of the logits) hold when the region ends, as closed forms of the logits the region finds.
  The running pair after tile `n`, row by row, is the online-softmax state after `n + 1` tiles; after the last tile
  it is the row's maximum and the row's sum, for real-valued logits.
-/
import proofs.«156806_j16080357556617_2_alg».proof.Proof.KI.Region1
import proofs.«156806_j16080357556617_2_alg».proof.Proof.Spec
import proofs.«156806_j16080357556617_2_alg».proof.Proof.Online
import Idealize.ShloMosaic.Lib.Pipeline.Value
import Idealize.ShloMosaic.PureOps.Ideal.Laws
import Idealize.ShloMosaic.PureOps.IdealRules

set_option maxRecDepth 16384

noncomputable section

namespace Cert.KernelIdeal.Hand

open Cert.KernelIdeal.Gen
open Idealize.ShloMosaic Idealize.ShloMosaic.TcCoe Idealize.ShloMosaic.Tactic ValueIdx
open Idealize.SL Idealize.SL.Sem
open Idealize.ShloMosaic.Pipeline (Dat Cfg Window)
open Cert.Spec

-- the TensorCore's buffer contents when the region is entered, at the extended reals
variable (V : (c : Dev nD) → (b : Ref sig .tc) → Buf (Elt Ideal) ((c : Thread nD τ).loc b))

/-- The logits the region finds, as a function of row and column. -/
abbrev lg1 (c : Dev nD) : Fin 512 → Fin 96103 → EReal := fun t v => V c main_v23 (ix2 t v)

/-- The one grid coordinate of point `t` is `t`. -/
theorem coords1_0 : ∀ t : Fin grid1.N, (grid1.coords t 0).val = t.val := by decide +kernel

/-- Window 0's block index at point `t`: row block 0, column block `t`. -/
theorem index1_0 : ∀ t : Fin grid1.N, win1_0.index t 0 = 0 ∧ win1_0.index t 1 = t.val := by decide +kernel

/-- The point as a tile number. -/
abbrev tile1 (t : Fin cfg1.N) : Fin 94 := ⟨t.val, lt_of_lt_of_eq t.isLt (show cfg1.N = 94 from N_1)⟩

/-- The filled-out input tile at an entry whose global column lies inside the array: the logit there. -/
theorem xin1_apply (c : Dev nD) (t : Fin cfg1.N) (j : S512x1024.Idx) (h : 1024 * t.val + (j 1).val < 96103) :
    xin1 V c t j = lg1 V c (j 0) ⟨1024 * t.val + (j 1).val, h⟩ := by
  have hm : win1_0.moved (grid1.coords t) j = true := by
    rw [Window.moved_iff]
    have hx := xsize1_0 t
    have hc := coords1_0 t
    intro a
    match a with
    | ⟨0, _⟩ => show (j 0).val < win1_0.xsize (grid1.coords t) 0; rw [hx.1]; exact (j 0).isLt
    | ⟨1, _⟩ => show (j 1).val < win1_0.xsize (grid1.coords t) 1; rw [hx.2, hc]; have hj : (j 1).val < 1024 := (j 1).isLt; omega
  unfold xin1 Window.fill
  rw [dif_pos hm]
  unfold iblk1
  rw [View.read_apply]
  show V c main_v23 _ = V c main_v23 _
  congr 1
  funext a
  apply Fin.ext
  have hi := index1_0 t
  match a with
  | ⟨0, _⟩ => show win1_0.index t 0 * 512 + 1 * (j 0).val = (j 0).val; rw [hi.1]; omega
  | ⟨1, _⟩ => show win1_0.index t 1 * 1024 + 1 * (j 1).val = 1024 * t.val + (j 1).val; rw [hi.2]; omega

theorem tileEntry_pos (lg : Fin 512 → Fin 96103 → EReal) (r : Fin 512) (k : Fin 94) (jj : Fin 1024) (h : 1024 * k.val + jj.val < 96103) :
    Online.tileEntry lg r k jj = lg r ⟨1024 * k.val + jj.val, h⟩ := by
  unfold Online.tileEntry; rw [dif_pos h]

theorem tileEntry_neg (lg : Fin 512 → Fin 96103 → EReal) (r : Fin 512) (k : Fin 94) (jj : Fin 1024) (h : ¬1024 * k.val + jj.val < 96103) :
    Online.tileEntry lg r k jj = ⊥ := by
  unfold Online.tileEntry; rw [dif_neg h]

theorem select_pos {α : Type} (b : BitVec 1) (x y : α) (h : b = 1#1) : Scalar.select b x y = x := by
  unfold Scalar.select; exact if_pos h

theorem select_neg {α : Type} (b : BitVec 1) (x y : α) (h : ¬b = 1#1) : Scalar.select b x y = y := by
  unfold Scalar.select; exact if_neg h

/-- The masked tile, entry by entry, is the online-softmax tile entry: the logit inside the array, `⊥` past its end. -/
theorem pay3_val (c : Dev nD) (t : Fin cfg1.N) (j : S512x1024.Idx) :
    k1_pay3 (grid1.coords t) (xin1 V c t) j = Online.tileEntry (lg1 V c) (j 0) (tile1 t) (j 1) := by
  rw [pay3_apply]
  have hiff := slt_mask (grid1.coords t 0).val (j 1).val (grid1.coords t 0).isLt (j 1).isLt
  have hc := coords1_0 t
  by_cases h : 1024 * t.val + (j 1).val < 96103
  · refine (select_pos _ _ _ (hiff.mpr (by omega))).trans ?_
    refine Eq.trans ?_ (tileEntry_pos (lg1 V c) (j 0) (tile1 t) (j 1) h).symm
    exact xin1_apply V c t j h
  · refine (select_neg _ _ _ (fun hm => h (by have := hiff.mp hm; omega))).trans ?_
    refine Eq.trans ?_ (tileEntry_neg (lg1 V c) (j 0) (tile1 t) (j 1) h).symm
    exact IdealRules.named_const.ideal_named_scalar κ "neg_big" _ ⊥ rfl

/-! ## The update of the running pair, entry by entry -/

theorem maximumf_ap {s : Shape} (x y : FVec Ideal s .f32) (j : s.Idx) : maximumf x y j = max (x j) (y j) := rfl
theorem addf_ap {s : Shape} (x y : FVec Ideal s .f32) (j : s.Idx) : addf x y j = x j + y j := rfl
theorem subf_ap {s : Shape} (x y : FVec Ideal s .f32) (j : s.Idx) : subf x y j = x j - y j := rfl
theorem mulf_ap {s : Shape} (x y : FVec Ideal s .f32) (j : s.Idx) : mulf x y j = x j * y j := rfl
theorem exp_ap {s : Shape} (x : FVec Ideal s .f32) (j : s.Idx) : exp x j = Ideal.exp (x j) := rfl

/-- The reset values: `⊥` for the running maximum, `0` for the running sum. -/
theorem pay1_val (j : S512x1.Idx) : (k1_pay1 (F := Ideal)) j = ⊥ := by
  unfold k1_pay1
  exact IdealRules.named_const.ideal_named_scalar κ "neg_big" _ ⊥ rfl

theorem pay2_val (j : S512x1.Idx) : (k1_pay2 (F := Ideal)) j = 0 := by
  unfold k1_pay2
  exact Ideal.ofBits_zero_f32

/-- A [512] vector viewed [512, 1] reads at (r, 0) its entry r. -/
theorem cast_512_512x1 (x : S512.Idx → EReal) (h : S512.ShapeCasts S512x1) (j : S512x1.Idx) :
    shapeCast S512x1 x h j = x (ix1 (j 0)) := by
  refine shapeCast_apply x h j (ix1 (j 0)) ?_
  rw [Shape.rowMajor_val_one, Shape.rowMajor_val_two]
  have h1 : (j 1).val < 1 := (j 1).isLt
  show (j 0).val = (j 0).val * 1 + (j 1).val
  omega

/-- The new running maximum at row `r`: the larger of the old one and the tile's maximum. -/
theorem pay5_val (c : Dev nD) (t : Fin cfg1.N) (m : Vec Ideal S512x1 .f32) (j : S512x1.Idx) :
    k1_pay5 (grid1.coords t) (xin1 V c t) m j = max (m j) (Online.tileMax (lg1 V c) (j 0) (tile1 t)) := by
  unfold k1_pay5 k1_pay4
  simp only [shapeCast_self, maximumf_ap]
  rw [cast_512_512x1]
  refine congrArg (max (m j)) ?_
  refine (Ideal.multiReduction_maximumf_single _ _ _ _ _ _).trans ?_
  unfold Online.tileMax
  congr 1
  funext jj
  show k1_pay3 (grid1.coords t) (xin1 V c t) (reduces_S512x1024_S512.lift (ix1 (j 0)) jj) = _
  rw [pay3_val]
  rfl

/-- The new running sum at row `r`: the old one rescaled to the new maximum, plus the tile's shifted exponentials. -/
theorem pay6_val (c : Dev nD) (t : Fin cfg1.N) (m l : Vec Ideal S512x1 .f32) (j : S512x1.Idx) :
    k1_pay6 (grid1.coords t) (xin1 V c t) m l j
      = l j * Ideal.exp (m j - max (m j) (Online.tileMax (lg1 V c) (j 0) (tile1 t)))
        + ∑ jj : Fin 1024, Ideal.exp (Online.tileEntry (lg1 V c) (j 0) (tile1 t) jj - max (m j) (Online.tileMax (lg1 V c) (j 0) (tile1 t))) := by
  unfold k1_pay6 k1_pay4
  simp only [shapeCast_self, addf_ap, mulf_ap, exp_ap, subf_ap]
  rw [cast_512_512x1, pay5_val]
  refine congrArg (fun z => l j * Ideal.exp (m j - max (m j) (Online.tileMax (lg1 V c) (j 0) (tile1 t))) + z) ?_
  refine (Ideal.multiReduction_add_single _ _ _ _ _ _).trans ?_
  refine Finset.sum_congr rfl fun jj _ => ?_
  simp only [exp_ap, subf_ap]
  rw [pay3_val, broadcastTo_apply _ _ _ j (fun a => by
    match a with
    | ⟨0, _⟩ => rfl
    | ⟨1, _⟩ => show (j 1).val = 0; have h1 : (j 1).val < 1 := (j 1).isLt; omega), pay5_val]
  rfl

/-! ## The running pair is the online-softmax state -/

theorem outsAt1_val (c : Dev nD) : ∀ (n : ℕ) (hn : n < cfg1.N) (j : S512x1.Idx),
    ((outsAt1 V c n hn).1 j, (outsAt1 V c n hn).2 j)
      = Online.stateAt (lg1 V c) (j 0) (n + 1) (by have := (show cfg1.N = 94 from N_1); omega)
  | 0, hn, j => by
    refine Prod.ext ?_ ?_
    · refine (pay5_val V c ⟨0, hn⟩ _ j).trans ?_
      rw [pay1_val]; rfl
    · refine (pay6_val V c ⟨0, hn⟩ _ _ j).trans ?_
      rw [pay1_val, pay2_val]; rfl
  | n + 1, hn, j => by
    have ih := outsAt1_val c n (Nat.lt_of_succ_lt hn) j
    have ih1 : (outsAt1 V c n (Nat.lt_of_succ_lt hn)).1 j = _ := (Prod.ext_iff.mp ih).1
    have ih2 : (outsAt1 V c n (Nat.lt_of_succ_lt hn)).2 j = _ := (Prod.ext_iff.mp ih).2
    refine Prod.ext ?_ ?_
    · refine (pay5_val V c ⟨n + 1, hn⟩ _ j).trans ?_
      rw [ih1]; rfl
    · refine (pay6_val V c ⟨n + 1, hn⟩ _ _ j).trans ?_
      rw [ih1, ih2]; rfl

/-! ## The result arrays -/

/-- After the last tile the running pair at row `r` is the row's maximum and the row's sum, for real-valued logits. -/
theorem outsAt1_last (c : Dev nD) (hreal : ∀ t v, ∃ r : ℝ, V c main_v23 (ix2 t v) = (r : EReal)) (n : ℕ) (hn : n < cfg1.N)
    (h : n + 1 = 94) (j : S512x1.Idx) :
    (outsAt1 V c n hn).1 j = Cert.Spec.rowMax (lg1 V c) (j 0) ∧ (outsAt1 V c n hn).2 j = Cert.Spec.rowSum (lg1 V c) (j 0) := by
  have e := outsAt1_val V c n hn j
  have e1 := congrArg Prod.fst e
  have e2 := congrArg Prod.snd e
  dsimp only at e1 e2
  have hs : ∀ (k : ℕ) (hk : k ≤ 94), k = 94 →
      Online.stateAt (lg1 V c) (j 0) k hk = (Cert.Spec.rowMax (lg1 V c) (j 0), Cert.Spec.rowSum (lg1 V c) (j 0)) := by
    intro k hk ek; subst ek; exact Online.stateAt_last (lg1 V c) hreal (j 0)
  rw [e1, e2, hs _ _ h]
  simp only [and_self]

/-- Output window 1's block index never moves, and its block is never cut. -/
theorem index1_1 : ∀ t : Fin grid1.N, win1_1.index t 0 = 0 ∧ win1_1.index t 1 = 0 := by decide +kernel
theorem xsize1_1 : ∀ t : Fin grid1.N, win1_1.xsize (grid1.coords t) 0 = 512 ∧ win1_1.xsize (grid1.coords t) 1 = 1 := by decide +kernel

/-- The running-maximum array when the region ends: at row `r` the row's maximum of the logits. -/
theorem arrAt1_1 (c : Dev nD) (hreal : ∀ t v, ∃ r : ℝ, V c main_v23 (ix2 t v) = (r : EReal)) :
    (dat1 (F := Ideal) V c).arrAt 1 cfg1.N = fun i => Cert.Spec.rowMax (fun t v => V c main_v23 (ix2 t v)) (i 0) := by
  have hN : cfg1.N = 94 := N_1
  have h93 : 93 < cfg1.N := by omega
  refine (dat1 V c).arrAt_eq_of_cover 1 _ (fun t hf => ?_) (fun i => ?_)
  · have h3 : t.val + 1 = 94 := by have := (flush1_1 t).mp hf; have := t.isLt; omega
    show (cfg1.win 1).cut (grid1.coords t) ((dat1 V c).after 1 t) = _
    rw [after1_1]
    have hz' : (fun a => win1_1.index t a * main_v24_0.ty.shape.size a) = fun _ => 0 := funext fun a => by
      match a with
      | ⟨0, _⟩ => show win1_1.index t 0 * 512 = 0; rw [(index1_1 t).1]
      | ⟨1, _⟩ => show win1_1.index t 1 * 1 = 0; rw [(index1_1 t).2]
    refine Eq.trans ?_ (Memref.read_access_unit_zero (Elt Ideal) main_v24_0 hz' (fun a => by rw [congrFun hz' a]; simp) _).symm
    funext j
    exact (outsAt1_last V c hreal t.val t.isLt h3 _).1
  · refine ⟨⟨93, h93⟩, (flush1_1 _).mpr rfl, ?_⟩
    show i ∈ ((View.whole main_v24_0).slice (win1_1.rect ⟨93, h93⟩)).set
    rw [View.set_slice_whole, Rect.mem_set_unit]
    intro a
    have h0 : (i 0 : Nat) < 512 := (i 0).isLt
    have h1 : (i 1 : Nat) < 1 := (i 1).isLt
    match a with
    | ⟨0, _⟩ =>
      show win1_1.index ⟨93, h93⟩ 0 * win1_1.size 0 ≤ (i 0 : Nat) ∧ (i 0 : Nat) < win1_1.index ⟨93, h93⟩ 0 * win1_1.size 0 + win1_1.xsize (grid1.coords ⟨93, h93⟩) 0
      rw [(index1_1 ⟨93, h93⟩).1, (xsize1_1 ⟨93, h93⟩).1]; omega
    | ⟨1, _⟩ =>
      show win1_1.index ⟨93, h93⟩ 1 * win1_1.size 1 ≤ (i 1 : Nat) ∧ (i 1 : Nat) < win1_1.index ⟨93, h93⟩ 1 * win1_1.size 1 + win1_1.xsize (grid1.coords ⟨93, h93⟩) 1
      rw [(index1_1 ⟨93, h93⟩).2, (xsize1_1 ⟨93, h93⟩).2]; omega

/-- Output window 2's block index never moves, and its block is never cut. -/
theorem index1_2 : ∀ t : Fin grid1.N, win1_2.index t 0 = 0 ∧ win1_2.index t 1 = 0 := by decide +kernel
theorem xsize1_2 : ∀ t : Fin grid1.N, win1_2.xsize (grid1.coords t) 0 = 512 ∧ win1_2.xsize (grid1.coords t) 1 = 1 := by decide +kernel

/-- The running-sum array when the region ends: at row `r` the row's sum of shifted exponentials of the logits. -/
theorem arrAt1_2 (c : Dev nD) (hreal : ∀ t v, ∃ r : ℝ, V c main_v23 (ix2 t v) = (r : EReal)) :
    (dat1 (F := Ideal) V c).arrAt 2 cfg1.N = fun i => Cert.Spec.rowSum (fun t v => V c main_v23 (ix2 t v)) (i 0) := by
  have hN : cfg1.N = 94 := N_1
  have h93 : 93 < cfg1.N := by omega
  refine (dat1 V c).arrAt_eq_of_cover 2 _ (fun t hf => ?_) (fun i => ?_)
  · have h3 : t.val + 1 = 94 := by have := (flush1_2 t).mp hf; have := t.isLt; omega
    show (cfg1.win 2).cut (grid1.coords t) ((dat1 V c).after 2 t) = _
    rw [after1_2]
    have hz' : (fun a => win1_2.index t a * main_v24_1.ty.shape.size a) = fun _ => 0 := funext fun a => by
      match a with
      | ⟨0, _⟩ => show win1_2.index t 0 * 512 = 0; rw [(index1_2 t).1]
      | ⟨1, _⟩ => show win1_2.index t 1 * 1 = 0; rw [(index1_2 t).2]
    refine Eq.trans ?_ (Memref.read_access_unit_zero (Elt Ideal) main_v24_1 hz' (fun a => by rw [congrFun hz' a]; simp) _).symm
    funext j
    exact (outsAt1_last V c hreal t.val t.isLt h3 _).2
  · refine ⟨⟨93, h93⟩, (flush1_2 _).mpr rfl, ?_⟩
    show i ∈ ((View.whole main_v24_1).slice (win1_2.rect ⟨93, h93⟩)).set
    rw [View.set_slice_whole, Rect.mem_set_unit]
    intro a
    have h0 : (i 0 : Nat) < 512 := (i 0).isLt
    have h1 : (i 1 : Nat) < 1 := (i 1).isLt
    match a with
    | ⟨0, _⟩ =>
      show win1_2.index ⟨93, h93⟩ 0 * win1_2.size 0 ≤ (i 0 : Nat) ∧ (i 0 : Nat) < win1_2.index ⟨93, h93⟩ 0 * win1_2.size 0 + win1_2.xsize (grid1.coords ⟨93, h93⟩) 0
      rw [(index1_2 ⟨93, h93⟩).1, (xsize1_2 ⟨93, h93⟩).1]; omega
    | ⟨1, _⟩ =>
      show win1_2.index ⟨93, h93⟩ 1 * win1_2.size 1 ≤ (i 1 : Nat) ∧ (i 1 : Nat) < win1_2.index ⟨93, h93⟩ 1 * win1_2.size 1 + win1_2.xsize (grid1.coords ⟨93, h93⟩) 1
      rw [(index1_2 ⟨93, h93⟩).2, (xsize1_2 ⟨93, h93⟩).2]; omega

end Cert.KernelIdeal.Hand

end
-- ==== Proof.KI.Value2.lean ====
import proofs.«156806_j16080357556617_2_alg».proof.Proof.KI.Region2I
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # What the third region leaves in the output array

Every point writes its block back, the last one its 871 columns inside the array only; the blocks tile the array, so
it ends holding the tiled blend, entry by entry, of the arrays the region was entered with. -/

section Regions

variable (V : (c : Dev nD) → (b : Ref sig .tc) → Buf (Elt Ideal) ((c : Thread nD τ).loc b))

/-- What the output array ends holding: the tiled blend of the arrays the region is entered with. -/
def tile2 (c : Dev nD) : Buf (Elt Ideal) ((c : Thread nD τ).loc main_v25) :=
  fun i => Cert.Spec.tileOut (fun t v => V c main_v23 (ix2 t v)) (fun t n => V c main_v8_0 (ix2 t n)) (fun v => V c main_v22 (ix2 0 v))
    (fun t => V c main_v8_1 (ix2 t 0)) (fun t => V c main_v24_0 (ix2 t 0)) (fun t => V c main_v24_1 (ix2 t 0)) (i 0) (i 1)

/-- The logits block at an index of the part inside the array: the array at the block's offset plus the index. -/
theorem iblk2_0_apply (c : Dev nD) (t : Fin cfg2.N) (j0 : ((cfg2.win 0).xblock (cfg2.grid.coords t)).Idx) :
    iblk2 V c 0 t j0 = V c main_v23 (((cfg2.win 0).blk t).view.emb j0) := by
  unfold iblk2; rw [View.read_apply]; rfl

set_option maxHeartbeats 1000000 in
theorem flushed2_6 (c : Dev nD) (t : Fin cfg2.N) (hf : (cfg2.win 6).flush t = true) :
    (dat2 V c).flushed 6 t = ((cfg2.win 6).blk t).view.read (Elt Ideal) (tile2 V c) := by
  funext j
  show (dat2 V c).after 6 t (win2_6.xinj (grid2.coords t) j) = _
  rw [after2_6, out2_6_at, View.read_apply]
  unfold tile2 Cert.Spec.tileOut
  have h3 : iblk2 V c 3 t (ix2 (win2_6.xinj (grid2.coords t) j 0) 0) = V c main_v8_1 (ix2 (((cfg2.win 6).blk t).view.emb j 0) 0) := by
    unfold iblk2
    rw [View.read_apply]
    show V c main_v8_1 _ = V c main_v8_1 _
    congr 1
    funext a
    apply Fin.ext
    match a with
    | ⟨0, _⟩ =>
      show win2_3.index t 0 * 512 + 1 * (j 0).val = win2_6.index t 0 * 512 + 1 * (j 0).val
      rfl
    | ⟨1, _⟩ =>
      show win2_3.index t 1 * 1 + 1 * 0 = 0
      rfl
  have h0 : fblk2_0 V c t (win2_6.xinj (grid2.coords t) j) = V c main_v23 (ix2 (((cfg2.win 6).blk t).view.emb j 0) (((cfg2.win 6).blk t).view.emb j 1)) :=
    (win2_0.fill_xinj (grid2.coords t) (fun _ => Classical.choice (Elt.nonempty Ideal _)) (iblk2 V c 0 t) j).trans
      ((iblk2_0_apply V c t j).trans (by
        show V c main_v23 _ = V c main_v23 _
        congr 1
        funext a
        apply Fin.ext
        match a with
        | ⟨0, _⟩ => rfl
        | ⟨1, _⟩ => rfl))
  have h4 : iblk2 V c 4 t (ix2 (win2_6.xinj (grid2.coords t) j 0) 0) = V c main_v24_0 (ix2 (((cfg2.win 6).blk t).view.emb j 0) 0) := by
    unfold iblk2
    rw [View.read_apply]
    show V c main_v24_0 _ = V c main_v24_0 _
    congr 1
    funext a
    apply Fin.ext
    match a with
    | ⟨0, _⟩ =>
      show win2_4.index t 0 * 512 + 1 * (j 0).val = win2_6.index t 0 * 512 + 1 * (j 0).val
      rfl
    | ⟨1, _⟩ =>
      show win2_4.index t 1 * 1 + 1 * 0 = 0
      rfl
  have h5 : iblk2 V c 5 t (ix2 (win2_6.xinj (grid2.coords t) j 0) 0) = V c main_v24_1 (ix2 (((cfg2.win 6).blk t).view.emb j 0) 0) := by
    unfold iblk2
    rw [View.read_apply]
    show V c main_v24_1 _ = V c main_v24_1 _
    congr 1
    funext a
    apply Fin.ext
    match a with
    | ⟨0, _⟩ =>
      show win2_5.index t 0 * 512 + 1 * (j 0).val = win2_6.index t 0 * 512 + 1 * (j 0).val
      rfl
    | ⟨1, _⟩ =>
      show win2_5.index t 1 * 1 + 1 * 0 = 0
      rfl
  have h1 : ∀ n : Fin 1024, iblk2 V c 1 t (ix2 (win2_6.xinj (grid2.coords t) j 0) n) = V c main_v8_0 (ix2 (((cfg2.win 6).blk t).view.emb j 0) n) := fun n => by
    unfold iblk2
    rw [View.read_apply]
    show V c main_v8_0 _ = V c main_v8_0 _
    congr 1
    funext a
    apply Fin.ext
    match a with
    | ⟨0, _⟩ =>
      show win2_1.index t 0 * 512 + 1 * (j 0).val = win2_6.index t 0 * 512 + 1 * (j 0).val
      rfl
    | ⟨1, _⟩ =>
      show win2_1.index t 1 * 1024 + 1 * n.val = n.val
      rw [show win2_1.index t 1 = 0 from rfl]; omega
  have hm2 : win2_2.moved (grid2.coords t) (ix2 0 (win2_6.xinj (grid2.coords t) j 1)) = true :=
    (win2_2.moved_iff (grid2.coords t) _).mpr fun a => by
      match a with
      | ⟨0, _⟩ => exact Pipeline.Clip.extent_pos (win2_2.hclip (grid2.coords t) 0) Nat.one_pos
      | ⟨1, _⟩ => exact (j 1).isLt
  have h2 : fblk2_2 V c t (ix2 0 (win2_6.xinj (grid2.coords t) j 1)) = V c main_v22 (ix2 0 (((cfg2.win 6).blk t).view.emb j 1)) := by
    unfold fblk2_2 Window.fill
    rw [dif_pos hm2]
    unfold iblk2
    rw [View.read_apply]
    show V c main_v22 _ = V c main_v22 _
    congr 1
    funext a
    apply Fin.ext
    match a with
    | ⟨0, _⟩ =>
      show win2_2.index t 0 * 1 + 1 * 0 = 0
      rfl
    | ⟨1, _⟩ =>
      show win2_2.index t 1 * 1024 + 1 * (j 1).val = win2_6.index t 1 * 1024 + 1 * (j 1).val
      rfl
  rw [h3, h4, h5, h0, h2]
  simp only [h1]
  rfl

/-- The output window's geometry, decided over the 94 points: block (0, t), 512 rows, and 1024 columns but for the
    last block's 871. -/
theorem geom2_6 : ∀ t : Fin grid2.N, win2_6.index t 0 = 0 ∧ win2_6.index t 1 = t.val
    ∧ win2_6.xsize (grid2.coords t) 0 = 512 ∧ win2_6.xsize (grid2.coords t) 1 = if t.val = 93 then 871 else 1024 := by
  decide +kernel

theorem arrAt2_6 (c : Dev nD) : (dat2 (F := Ideal) V c).arrAt 6 cfg2.N = fun i => Cert.Spec.tileOut (fun t v => V c main_v23 (ix2 t v)) (fun t n => V c main_v8_0 (ix2 t n)) (fun v => V c main_v22 (ix2 0 v)) (fun t => V c main_v8_1 (ix2 t 0)) (fun t => V c main_v24_0 (ix2 t 0)) (fun t => V c main_v24_1 (ix2 t 0)) (i 0) (i 1) :=
  (dat2 V c).arrAt_eq_of_cover 6 (tile2 V c) (flushed2_6 V c) fun i => by
    have hN : cfg2.N = 94 := N_2
    have h1 : (i 1 : Nat) < 96103 := (i 1).isLt
    have h0 : (i 0 : Nat) < 512 := (i 0).isLt
    have hlt : (i 1 : Nat) / 1024 < cfg2.N := by rw [hN]; omega
    refine ⟨⟨(i 1 : Nat) / 1024, hlt⟩, flush2_6 _, ?_⟩
    obtain ⟨hi0, hi1, hx0, hx1⟩ := geom2_6 ⟨(i 1 : Nat) / 1024, hlt⟩
    show i ∈ ((View.whole main_v25).slice (win2_6.rect ⟨(i 1 : Nat) / 1024, hlt⟩)).set
    rw [View.set_slice_whole, Rect.mem_set_unit]
    intro a
    match a with
    | ⟨0, _⟩ =>
      show win2_6.index ⟨(i 1 : Nat) / 1024, hlt⟩ 0 * 512 ≤ (i 0 : Nat) ∧ (i 0 : Nat) < win2_6.index ⟨(i 1 : Nat) / 1024, hlt⟩ 0 * 512 + win2_6.xsize (grid2.coords ⟨(i 1 : Nat) / 1024, hlt⟩) 0
      rw [hi0, hx0]; omega
    | ⟨1, _⟩ =>
      show win2_6.index ⟨(i 1 : Nat) / 1024, hlt⟩ 1 * 1024 ≤ (i 1 : Nat) ∧ (i 1 : Nat) < win2_6.index ⟨(i 1 : Nat) / 1024, hlt⟩ 1 * 1024 + win2_6.xsize (grid2.coords ⟨(i 1 : Nat) / 1024, hlt⟩) 1
      rw [hi1, hx1]
      dsimp only
      split <;> omega

end Regions

end Cert.KernelIdeal.Hand
end
-- ==== Proof.Blend.lean ====
/-
  The third kernel's spelling of the blend against the specification.

  * The copy term.  The kernel multiplies the weights a(t, ·) by a 0/1 column that is 1 exactly at the position whose
    32-bit word equals the table entry sel(v).  A position below 1024 is determined by its word, and the word of −1
    is no position's word; x · 0 = 0 and x · 1 = x for every extended real x, so the sum is a(t, n*) when the table
    holds the word of a position n*, and 0 when it holds the word of −1.
  * The softmax term.  The row's shifted sum L is a positive real number when every logit is real, so dividing by it is
    multiplying by the real number 1/L.
-/
import Idealize.ShloMosaic.PureOps.Ideal
import Idealize.ShloMosaic.PureOps.Ideal.Laws
import Idealize.ShloMosaic.Lib.ValueIdx
import proofs.«156806_j16080357556617_2_alg».proof.Proof.Spec

noncomputable section

namespace Cert.Spec

open Idealize.ShloMosaic
open scoped BigOperators

/-- A position below 1024 is determined by its 32-bit word. -/
theorem ofNat_inj_of_lt {a b : ℕ} (ha : a < 1024) (hb : b < 1024) (h : BitVec.ofNat 32 a = BitVec.ofNat 32 b) :
    a = b := by
  have e := congrArg BitVec.toNat h
  rw [BitVec.toNat_ofNat, BitVec.toNat_ofNat] at e
  omega

/-- The word of −1 is no position's word. -/
theorem ofNat_ne_neg_one {a : ℕ} (ha : a < 1024) : BitVec.ofNat 32 a ≠ (-1 : BitVec 32) := by
  intro h
  have e := congrArg BitVec.toNat h
  rw [BitVec.toNat_ofNat] at e
  have h1 : (-1 : BitVec 32).toNat = 4294967295 := by decide
  rw [h1] at e
  omega

/-- The 0/1-weighted sum over the source positions is the copy term. -/
theorem sum_onehot (a : Fin 512 → Fin 1024 → EReal) (ids : Fin 1024 → BitVec 32) (t : Fin 512) (v : Fin 96103) :
    ∑ n : Fin 1024, a t n * onehot n (selTable ids v) = copy a ids t v := by
  unfold copy selTable
  by_cases h : (hitSet ids v).Nonempty
  · rw [dif_pos h, dif_pos h, Finset.sum_eq_single ((hitSet ids v).max' h)]
    · unfold onehot
      rw [if_pos rfl, mul_one]
    · intro n _ hn
      unfold onehot
      rw [if_neg (fun e => hn (Fin.ext (ofNat_inj_of_lt n.isLt ((hitSet ids v).max' h).isLt e))), mul_zero]
    · intro hn
      exact absurd (Finset.mem_univ _) hn
  · rw [dif_neg h, dif_neg h]
    refine Finset.sum_eq_zero fun n _ => ?_
    unfold onehot
    rw [if_neg (ofNat_ne_neg_one n.isLt), mul_zero]

/-- The coercion of a finite real sum is the sum of the coercions. -/
theorem coe_finsum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of a row of real logits is one of them. -/
theorem rowMax_attained (lg : Fin 512 → Fin 96103 → EReal) (t : Fin 512) : ∃ v0 : Fin 96103, rowMax lg t = lg t v0 := by
  obtain ⟨v0, _, hv0⟩ := Finset.exists_mem_eq_sup (Finset.univ : Finset (Fin 96103))
    ⟨⟨0, by norm_num⟩, Finset.mem_univ _⟩ (fun v => lg t v)
  exact ⟨v0, hv0⟩

/-- The shifted sum of a row of real logits is a real number, at least 1. -/
theorem rowSum_real (lg : Fin 512 → Fin 96103 → EReal) (hreal : ∀ t v, ∃ r : ℝ, lg t v = (r : EReal)) (t : Fin 512) :
    ∃ y : ℝ, 1 ≤ y ∧ rowSum lg t = (y : EReal) := by
  choose f hf using hreal t
  obtain ⟨v0, hv0⟩ := rowMax_attained lg t
  rw [hf v0] at hv0
  refine ⟨∑ v : Fin 96103, Real.exp (f v - f v0), ?_, ?_⟩
  · calc (1 : ℝ) = Real.exp (f v0 - f v0) := by rw [sub_self, Real.exp_zero]
      _ ≤ ∑ v : Fin 96103, Real.exp (f v - f v0) :=
          Finset.single_le_sum (f := fun v => Real.exp (f v - f v0)) (fun v _ => (Real.exp_pos _).le) (Finset.mem_univ v0)
  · unfold rowSum
    rw [hv0, coe_finsum]
    refine Finset.sum_congr rfl fun v _ => ?_
    rw [hf v, ← EReal.coe_sub, Ideal.exp_coe]

/-- The maximum of a row of real logits is a real number. -/
theorem rowMax_real (lg : Fin 512 → Fin 96103 → EReal) (hreal : ∀ t v, ∃ r : ℝ, lg t v = (r : EReal)) (t : Fin 512) :
    ∃ r : ℝ, rowMax lg t = (r : EReal) := by
  obtain ⟨v0, hv0⟩ := rowMax_attained lg t
  obtain ⟨r, hr⟩ := hreal t v0
  exact ⟨r, hv0.trans hr⟩

/-- The blend as the third kernel spells it, from the true row statistics, is the specification's blend. -/
theorem final_eq_tileOut (a : Fin 512 → Fin 1024 → EReal) (g : Fin 512 → EReal) (lg : Fin 512 → Fin 96103 → EReal)
    (ids : Fin 1024 → BitVec 32) (hreal : ∀ t v, ∃ r : ℝ, lg t v = (r : EReal)) (t : Fin 512) (v : Fin 96103) :
    final a g lg ids t v = tileOut lg a (selTable ids) g (rowMax lg) (rowSum lg) t v := by
  obtain ⟨y, hy, hL⟩ := rowSum_real lg hreal t
  have hy0 : y ≠ 0 := by linarith
  unfold final tileOut dist
  rw [sum_onehot, hL, Ideal.div_coe hy0, Ideal.div_coe hy0, one_mul]

end Cert.Spec

end
-- ==== Proof.Finite.lean ====
/-
  From the precondition to "every entry is a real number".  The precondition says that, for each float argument
  array x, the conjunction over all entries of  |x| < +∞  is true.  A conjunction that is true has only true terms;
  |x| is the larger of x and −x, which is +∞ at either infinity; so every entry is neither infinity: a real number.
-/
import Idealize.ShloMosaic.PureOps.Ideal
import Idealize.ShloMosaic.PureOps.Ideal.Laws
import Idealize.ShloMosaic.Lib.ValueIdx
import Idealize.ShloMosaic.Lib.ReduceAll
import proofs.«156806_j16080357556617_2_alg».proof.Defs
import proofs.«156806_j16080357556617_2_alg».proof.Proof.Gen.Pre_finite_inputs

noncomputable section

namespace Cert.Finite

open Idealize.ShloMosaic Idealize.SL.Sem ValueIdx
open Cert.Pre_finite_inputs

instance : Subsingleton S_.Idx := ⟨fun a b => funext fun d => d.elim0⟩

/-- The single-precision pattern 0x7F800000 denotes +∞. -/
theorem ofBits_inf : Ideal.ofBits .f32 0x7F800000#32 = (⊤ : EReal) := by
  simp [Ideal.ofBits, Ideal.ieee]

/-- An extended real whose absolute value is strictly below +∞ is a real number. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One argument array: if the conjunction over all entries of |x| < +∞ is true, every entry is real. -/
theorem allReal_of_all {s : Shape} {axes : List (Fin s.rank)} (x : FVec Ideal s .f32)
    (bc : S_.BroadcastsInDim s (![] : Fin 0 → Fin s.rank)) (rd : s.ReducesTo axes S_) (hS : 0 < S_.numel)
    (h : Host.reduce IntOp.andi (cmpf .olt (Host.absf x) (broadcastInDim s ![] bc (constant S_ .f32 0x7F800000#32)))
          (constantI S_ 1 1#1) rd hS ix0 = 1#1) :
    ∀ i, ∃ r : ℝ, x i = (r : EReal) := by
  intro i
  have e := Host.reduce_andi_all _ _ rd hS ix0 h i
  have e' : Ideal.cmp .olt (max (x i) (-(x i))) (Ideal.ofBits .f32 0x7F800000#32) = 1#1 := e
  rw [ofBits_inf] at e'
  exact real_of_abs_lt_top (x i) e'

/-- The whole predicate: if it is true, every entry of every float argument array is real. -/
theorem allReal_of_fn (a0 : FVec Ideal S1x16x512x1024 .f32) (a1 : FVec Ideal S1x1024x1024 .f32)
    (a2 a3 : FVec Ideal S1x512x1024 .f32) (a4 : FVec Ideal S1x512x96103 .f32) (a5 : IVec S1024 32)
    (a6 : FVec Ideal S1x3072 .f32) (a7 : FVec Ideal S1 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a6 i = (r : EReal))
      ∧ (∀ i, ∃ r : ℝ, a7 i = (r : EReal)) := by
  have h0 := congrFun h ix0
  dsimp only [Cert.Pre_finite_inputs.fn, Cert.Pre_finite_inputs.fn_part1] at h0
  simp only [andi] at h0
  obtain ⟨h28, h7⟩ := IntOp.andi_eq_one.1 h0
  obtain ⟨h23, h6⟩ := IntOp.andi_eq_one.1 h28
  obtain ⟨h18, h4⟩ := IntOp.andi_eq_one.1 h23
  obtain ⟨h13, h3⟩ := IntOp.andi_eq_one.1 h18
  obtain ⟨h8, h2⟩ := IntOp.andi_eq_one.1 h13
  obtain ⟨h0', h1⟩ := IntOp.andi_eq_one.1 h8
  exact ⟨allReal_of_all a0 _ _ _ h0', allReal_of_all a1 _ _ _ h1, allReal_of_all a2 _ _ _ h2, allReal_of_all a3 _ _ _ h3,
    allReal_of_all a4 _ _ _ h4, allReal_of_all a6 _ _ _ h6, allReal_of_all a7 _ _ _ h7⟩

variable (m : (ℓ : Loc Cert.KernelIdeal.nD Cert.KernelIdeal.τ Cert.KernelIdeal.sig) → Buf (Elt Ideal) ℓ)
  (h : Cert.Pre_KernelIdeal m) (c : Dev Cert.KernelIdeal.nD)

include h

/-- Every logit is a real number. -/
theorem real_arg4 : ∀ i, ∃ r : ℝ,
    m ((c.tc : Thread Cert.KernelIdeal.nD Cert.KernelIdeal.τ).loc Cert.KernelIdeal.main_arg4) i = (r : EReal) :=
  (allReal_of_fn _ _ _ _ _ _ _ _ (h c)).2.2.2.2.1

/-- The logits read at (0, t, v), the form the row statistics take them in. -/
theorem real_logits : ∀ (t : Fin 512) (v : Fin 96103), ∃ r : ℝ,
    m ((c.tc : Thread Cert.KernelIdeal.nD Cert.KernelIdeal.τ).loc Cert.KernelIdeal.main_arg4) (ix3 0 t v) = (r : EReal) :=
  fun t v => real_arg4 m h c (ix3 0 t v)

theorem real_arg0 : ∀ i, ∃ r : ℝ,
    m ((c.tc : Thread Cert.KernelIdeal.nD Cert.KernelIdeal.τ).loc Cert.KernelIdeal.main_arg0) i = (r : EReal) :=
  (allReal_of_fn _ _ _ _ _ _ _ _ (h c)).1

theorem real_arg1 : ∀ i, ∃ r : ℝ,
    m ((c.tc : Thread Cert.KernelIdeal.nD Cert.KernelIdeal.τ).loc Cert.KernelIdeal.main_arg1) i = (r : EReal) :=
  (allReal_of_fn _ _ _ _ _ _ _ _ (h c)).2.1

theorem real_arg2 : ∀ i, ∃ r : ℝ,
    m ((c.tc : Thread Cert.KernelIdeal.nD Cert.KernelIdeal.τ).loc Cert.KernelIdeal.main_arg2) i = (r : EReal) :=
  (allReal_of_fn _ _ _ _ _ _ _ _ (h c)).2.2.1

theorem real_arg3 : ∀ i, ∃ r : ℝ,
    m ((c.tc : Thread Cert.KernelIdeal.nD Cert.KernelIdeal.τ).loc Cert.KernelIdeal.main_arg3) i = (r : EReal) :=
  (allReal_of_fn _ _ _ _ _ _ _ _ (h c)).2.2.2.1

theorem real_arg6 : ∀ i, ∃ r : ℝ,
    m ((c.tc : Thread Cert.KernelIdeal.nD Cert.KernelIdeal.τ).loc Cert.KernelIdeal.main_arg6) i = (r : EReal) :=
  (allReal_of_fn _ _ _ _ _ _ _ _ (h c)).2.2.2.2.2.1

theorem real_arg7 : ∀ i, ∃ r : ℝ,
    m ((c.tc : Thread Cert.KernelIdeal.nD Cert.KernelIdeal.τ).loc Cert.KernelIdeal.main_arg7) i = (r : EReal) :=
  (allReal_of_fn _ _ _ _ _ _ _ _ (h c)).2.2.2.2.2.2

end Cert.Finite

end
-- ==== Proof.KI.ComposeOf.lean ====
/-
  The kernel side composed: what @main's last boundary holds at the two results, as the specification's functions
  of the launch memory's argument arrays. The first result is the gate array region 0 leaves, its input arrays
  read back through the first host stretch (reshapes and changes of format: the same entries). The second is the
  tiled blend region 2 leaves, of the logits (argument 4 without its unit axis), the head average and the gate
  region 0 leaves, the table of winning source positions the second host stretch builds from the token ids, and
  the row maxima and row sums region 1 leaves; with real logits the tiled blend from the true row statistics is the
  specification's blend. Region 0's two value statements enter as hypotheses here.
-/
import proofs.«156806_j16080357556617_2_alg».proof.Proof.KI.Fold
import proofs.«156806_j16080357556617_2_alg».proof.Proof.KI.HostStage0
import proofs.«156806_j16080357556617_2_alg».proof.Proof.KI.SelTable
import proofs.«156806_j16080357556617_2_alg».proof.Proof.KI.Value1
import proofs.«156806_j16080357556617_2_alg».proof.Proof.KI.Value2
import proofs.«156806_j16080357556617_2_alg».proof.Proof.Blend
import proofs.«156806_j16080357556617_2_alg».proof.Proof.Finite
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## Congruences: the specification's gate and tiled blend depend on their arrays only through their values -/

theorem gp_congr {a a' : Fin 512 → Fin 1024 → EReal} {enc enc' : Fin 1024 → Fin 1024 → EReal}
    {dh dh' de de' : Fin 512 → Fin 1024 → EReal} {pw pw' : Fin 3072 → EReal} {pb pb' : EReal}
    (ha : a = a') (he : enc = enc') (hh : dh = dh') (hd : de = de') (hw : pw = pw') (hb : pb = pb') :
    Cert.Spec.gp a enc dh de pw pb = Cert.Spec.gp a' enc' dh' de' pw' pb' := by
  rw [ha, he, hh, hd, hw, hb]

theorem tileOut_congr {lg lg' : Fin 512 → Fin 96103 → EReal} {a a' : Fin 512 → Fin 1024 → EReal}
    {sel sel' : Fin 96103 → BitVec 32} {g g' mx mx' l l' : Fin 512 → EReal}
    (hlg : lg = lg') (ha : a = a') (hs : sel = sel') (hg : g = g') (hm : mx = mx') (hl : l = l') :
    Cert.Spec.tileOut lg a sel g mx l = Cert.Spec.tileOut lg' a' sel' g' mx' l' := by
  rw [hlg, ha, hs, hg, hm, hl]

variable (m : (ℓ : Loc nD τ sig) → Buf (Elt Ideal) ℓ)

variable (h06 : ∀ (V : (c : Dev nD) → (b : Ref sig .tc) → Buf (Elt Ideal) ((c : Thread nD τ).loc b)) (c : Dev nD),
  (dat0 (F := Ideal) V c).arrAt 6 cfg0.N = fun i => Cert.Spec.ca (fun h t n => V c main_arg0 (ix4 0 h t n)) (i 0) (i 1))
variable (h07 : ∀ (V : (c : Dev nD) → (b : Ref sig .tc) → Buf (Elt Ideal) ((c : Thread nD τ).loc b)) (c : Dev nD),
  (dat0 (F := Ideal) V c).arrAt 7 cfg0.N = fun i => Cert.Spec.gp (Cert.Spec.ca (fun h t n => V c main_arg0 (ix4 0 h t n))) (fun n j => V c main_v1 (ix2 n j)) (fun t j => V c main_v3 (ix2 t j)) (fun t j => V c main_v5 (ix2 t j)) (fun k => V c main_v6 (ix2 0 k)) (V c main_v7 (ix2 0 0)) (i 0))

/-! ## The arrays the regions are entered with, as the launch memory's arguments -/

/-- Region 0 finds the cross-attention weights as launched. -/
theorem V1_main_arg0 (c : Dev nD) : V1 m c main_arg0 = m ((c : Thread nD τ).loc main_arg0) :=
  (W1_of m c main_arg0 (by decide)).trans rfl

/-- Region 1 finds the logits without their unit axis. -/
theorem V3_main_v23 (c : Dev nD) (t : Fin 512) (v : Fin 96103) :
    (V3 m c main_v23 : S512x96103.Idx → EReal) (ix2 t v)
      = (m ((c : Thread nD τ).loc main_arg4) : S1x512x96103.Idx → EReal) (ix3 0 t v) :=
  (logits2d_eq (W2 m c) t v).trans
    (congrFun ((W2_of_ne m c main_arg4 (by decide)).trans ((W1_of m c main_arg4 (by decide)).trans rfl)) (ix3 0 t v))

/-- The table of winning source positions of the launched token ids. -/
theorem V3_main_v22 (c : Dev nD) (v : Fin 96103) :
    (V3 m c main_v22 : S1x96103.Idx → BitVec 32) (ix2 0 v)
      = Cert.Spec.selTable (fun n => (m ((c : Thread nD τ).loc main_arg5) : S1024.Idx → BitVec 32) (ix1 n)) v :=
  (selTable_eq (W2 m c) v).trans
    (congrArg (fun ids : S1024.Idx → BitVec 32 => Cert.Spec.selTable (fun n => ids (ix1 n)) v)
      ((W2_of_ne m c main_arg5 (by decide)).trans ((W1_of m c main_arg5 (by decide)).trans rfl)))

/-! ## The two results -/
include h06 h07

/-- What region 0 leaves in the gate array is the specification's gate array of the launched arguments. -/
theorem gate_eq_of (c : Dev nD) :
    ((dat0 (V1 m) c).arrAt 7 cfg0.N : S512x1.Idx → EReal) = Cert.Spec.genProbs (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  rw [h07 (V1 m) c]
  funext i
  exact congrFun (gp_congr
    (congrArg Cert.Spec.ca (funext fun h => funext fun t => funext fun n => congrFun (V1_main_arg0 m c) (ix4 0 h t n)))
    (funext fun n => funext fun j => stage_v1 (W0 m c) n j)
    (funext fun t => funext fun j => stage_v3 (W0 m c) t j)
    (funext fun t => funext fun j => stage_v5 (W0 m c) t j)
    (funext fun k => stage_v6 (W0 m c) k)
    (stage_v7 (W0 m c))) (i 0)

/-- The first result. -/
theorem res0_eq_of (c : Dev nD) :
    (W5 m c (Proc.devRef .tc main_v8_1) : S512x1.Idx → EReal) = Cert.Spec.genProbs (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (W5_main_v8_1 m c).trans (gate_eq_of m h06 h07 c)

/-- What region 0 leaves in the averaged-weights array is the head average of the launched weights. -/
theorem avg_eq_of (c : Dev nD) (t : Fin 512) (n : Fin 1024) :
    ((dat0 (V1 m) c).arrAt 6 cfg0.N : S512x1024.Idx → EReal) (ix2 t n)
      = Cert.Spec.caOf (m ((c : Thread nD τ).loc main_arg0)) t n := by
  rw [h06 (V1 m) c]
  exact congrFun (congrFun (congrArg Cert.Spec.ca
    (funext fun h => funext fun t => funext fun n => congrFun (V1_main_arg0 m c) (ix4 0 h t n))) t) n

/-- The second result: the tiled blend of the arrays region 2 is entered with — the logits, the head average, the
    table of winning positions, the gate, the row maxima and the row sums — is the specification's blend, the
    logits being real numbers. -/
theorem res1_eq_of (hpre : Cert.Pre_KernelIdeal m) (c : Dev nD) :
    (W5 m c (Proc.devRef .tc main_v25) : S512x96103.Idx → EReal) = Cert.Spec.finalProbs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W5_main_v25, arrAt2_6 (V4 m) c]
  have hreal : ∀ (t : Fin 512) (v : Fin 96103), ∃ r : ℝ,
      (m ((c : Thread nD τ).loc main_arg4) : S1x512x96103.Idx → EReal) (ix3 0 t v) = (r : EReal) :=
    Cert.Finite.real_logits m hpre c
  have hreal3 : ∀ (t : Fin 512) (v : Fin 96103), ∃ r : ℝ, (V3 m c main_v23 : S512x96103.Idx → EReal) (ix2 t v) = (r : EReal) :=
    fun t v => by rw [V3_main_v23]; exact hreal t v
  have hlg3 : (fun (t : Fin 512) (v : Fin 96103) => (V3 m c main_v23 : S512x96103.Idx → EReal) (ix2 t v))
      = fun t v => (m ((c : Thread nD τ).loc main_arg4) : S1x512x96103.Idx → EReal) (ix3 0 t v) :=
    funext fun t => funext fun v => V3_main_v23 m c t v
  have hlg : (fun (t : Fin 512) (v : Fin 96103) => (V4 m c main_v23 : S512x96103.Idx → EReal) (ix2 t v))
      = fun t v => (m ((c : Thread nD τ).loc main_arg4) : S1x512x96103.Idx → EReal) (ix3 0 t v) :=
    funext fun t => funext fun v => (congrFun (V4_main_v23 m c) (ix2 t v)).trans (V3_main_v23 m c t v)
  have ha : (fun (t : Fin 512) (n : Fin 1024) => (V4 m c main_v8_0 : S512x1024.Idx → EReal) (ix2 t n))
      = Cert.Spec.caOf (m ((c : Thread nD τ).loc main_arg0)) :=
    funext fun t => funext fun n => (congrFun (V4_main_v8_0 m c) (ix2 t n)).trans (avg_eq_of m h06 h07 c t n)
  have hsel : (fun (v : Fin 96103) => (V4 m c main_v22 : S1x96103.Idx → BitVec 32) (ix2 0 v))
      = Cert.Spec.selTable (fun n => (m ((c : Thread nD τ).loc main_arg5) : S1024.Idx → BitVec 32) (ix1 n)) :=
    funext fun v => (congrFun (V4_main_v22 m c) (ix2 0 v)).trans (V3_main_v22 m c v)
  have hg : (fun (t : Fin 512) => (V4 m c main_v8_1 : S512x1.Idx → EReal) (ix2 t 0))
      = Cert.Spec.gpOf (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
    funext fun t => (congrFun ((V4_main_v8_1 m c).trans (gate_eq_of m h06 h07 c)) (ix2 t 0)).trans rfl
  have hmx : (fun (t : Fin 512) => (V4 m c main_v24_0 : S512x1.Idx → EReal) (ix2 t 0))
      = Cert.Spec.rowMax (fun t v => (m ((c : Thread nD τ).loc main_arg4) : S1x512x96103.Idx → EReal) (ix3 0 t v)) :=
    funext fun t => (congrFun ((V4_main_v24_0 m c).trans (arrAt1_1 (V3 m) c hreal3)) (ix2 t 0)).trans
      (congrFun (congrArg Cert.Spec.rowMax hlg3) t)
  have hl : (fun (t : Fin 512) => (V4 m c main_v24_1 : S512x1.Idx → EReal) (ix2 t 0))
      = Cert.Spec.rowSum (fun t v => (m ((c : Thread nD τ).loc main_arg4) : S1x512x96103.Idx → EReal) (ix3 0 t v)) :=
    funext fun t => (congrFun ((V4_main_v24_1 m c).trans (arrAt1_2 (V3 m) c hreal3)) (ix2 t 0)).trans
      (congrFun (congrArg Cert.Spec.rowSum hlg3) t)
  funext i
  exact (congrFun (congrFun (tileOut_congr hlg ha hsel hg hmx hl) (i 0)) (i 1)).trans
    (Cert.Spec.final_eq_tileOut _ _ _ _ hreal (i 0) (i 1)).symm

end Cert.KernelIdeal.Hand

end
-- ==== Proof.LibConcat3.lean ====
/-
  Three arrays of rows joined along the last axis, read at an entry: row r of the joined array is row r of the first
  array, then row r of the second, then row r of the third. A column below the first extent is the first array's; a
  column in the second stretch is the second array's, the first extent less; a column in the third stretch is the third
  array's, the first two extents less.
-/
import Idealize.ShloMosaic.Lib.ValueIdx
import Idealize.ShloMosaic.Lib.Pipeline.Value

noncomputable section

namespace Cert.Lib.Concat3

open Idealize.ShloMosaic Idealize.ShloMosaic.ValueIdx

variable {α : Type}

/-- The first stretch. -/
theorem cols_first {a b₁ b₂ b₃ B : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, B]⟩ 1) (r : Fin a) (c : Fin B)
    (c' : Fin b₁) (hc : c'.val = c.val) :
    concatenate ⟨2, ![a, B]⟩ 1 [⟨⟨2, ![a, b₁]⟩, x₁⟩, ⟨⟨2, ![a, b₂]⟩, x₂⟩, ⟨⟨2, ![a, b₃]⟩, x₃⟩] h (ix2 r c) = x₁ (ix2 r c') :=
  concatenate_apply_piece 1 [⟨⟨2, ![a, b₁]⟩, x₁⟩, ⟨⟨2, ![a, b₂]⟩, x₂⟩, ⟨⟨2, ![a, b₃]⟩, x₃⟩] h (ix2 r c) 0 (by show (0 : ℕ) < 3; omega) ⟨2, ![a, b₁]⟩ x₁ rfl rfl 0 rfl (ix2 r c')
    (fun b hb => by
      match b with
      | ⟨0, _⟩ => rfl
      | ⟨1, _⟩ => exact absurd rfl hb)
    (by show 0 + c'.val = c.val; omega)

/-- The second stretch. -/
theorem cols_second {a b₁ b₂ b₃ B : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, B]⟩ 1) (r : Fin a) (c : Fin B)
    (c' : Fin b₂) (hc : b₁ + c'.val = c.val) :
    concatenate ⟨2, ![a, B]⟩ 1 [⟨⟨2, ![a, b₁]⟩, x₁⟩, ⟨⟨2, ![a, b₂]⟩, x₂⟩, ⟨⟨2, ![a, b₃]⟩, x₃⟩] h (ix2 r c) = x₂ (ix2 r c') :=
  concatenate_apply_piece 1 [⟨⟨2, ![a, b₁]⟩, x₁⟩, ⟨⟨2, ![a, b₂]⟩, x₂⟩, ⟨⟨2, ![a, b₃]⟩, x₃⟩] h (ix2 r c) 1 (by show (1 : ℕ) < 3; omega) ⟨2, ![a, b₂]⟩ x₂ rfl rfl b₁ rfl (ix2 r c')
    (fun b hb => by
      match b with
      | ⟨0, _⟩ => rfl
      | ⟨1, _⟩ => exact absurd rfl hb)
    (by show b₁ + c'.val = c.val; omega)

/-- The third stretch. -/
theorem cols_third {a b₁ b₂ b₃ B : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, B]⟩ 1) (r : Fin a) (c : Fin B)
    (c' : Fin b₃) (hc : b₁ + b₂ + c'.val = c.val) :
    concatenate ⟨2, ![a, B]⟩ 1 [⟨⟨2, ![a, b₁]⟩, x₁⟩, ⟨⟨2, ![a, b₂]⟩, x₂⟩, ⟨⟨2, ![a, b₃]⟩, x₃⟩] h (ix2 r c) = x₃ (ix2 r c') :=
  concatenate_apply_piece 1 [⟨⟨2, ![a, b₁]⟩, x₁⟩, ⟨⟨2, ![a, b₂]⟩, x₂⟩, ⟨⟨2, ![a, b₃]⟩, x₃⟩] h (ix2 r c) 2 (by show (2 : ℕ) < 3; omega) ⟨2, ![a, b₃]⟩ x₃ rfl rfl (b₁ + (b₂ + 0)) rfl (ix2 r c')
    (fun b hb => by
      match b with
      | ⟨0, _⟩ => rfl
      | ⟨1, _⟩ => exact absurd rfl hb)
    (by show b₁ + (b₂ + 0) + c'.val = c.val; omega)

end Cert.Lib.Concat3

end
-- ==== Proof.KI.Value0Epilogue.lean ====
/-
  The gate the first kernel stores at its last grid point, entry by entry on the extended reals: the logistic function of
  the pointer layer's pre-activation — the row made of the context (the scaled accumulator times the encoder matrix), the
  decoder state and the decoder embedding side by side, times the weight column, plus the bias.
-/
import proofs.«156806_j16080357556617_2_alg».proof.Proof.Gen.KernelIdeal.Skeleton
import proofs.«156806_j16080357556617_2_alg».proof.Proof.Spec
import proofs.«156806_j16080357556617_2_alg».proof.Proof.LibPlainProduct
import proofs.«156806_j16080357556617_2_alg».proof.Proof.LibConcat3
import Idealize.ShloMosaic.Lib.Pipeline.Value
import Idealize.ShloMosaic.Lib.Tactic
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.Tactic Idealize.ShloMosaic.ValueIdx

/-! ## The gate's payload on the extended reals, entry by entry -/

section IdealPayloads

/-- The logistic function of a vector at an index, on the extended reals. -/
theorem logistic_at {s : Shape} {φ : FTy} (x : FVec Ideal s φ) (i : s.Idx) :
    logistic x i = Ideal.div 1 (1 + Ideal.exp (-(x i))) := rfl

/-- The gate: the logistic function of the pointer layer's pre-activation. -/
theorem pay4_apply (v13 : Vec Ideal S512x1024 .f32) (v18 : Vec Ideal S1024x1024 .bf16) (v22 v24 : Vec Ideal S512x1024 .bf16)
    (v27 : Vec Ideal S1x3072 .bf16) (v31 : Vec Ideal S1x1 .f32) (i : S512x1.Idx) :
    k0_pay4 v13 v18 v22 v24 v27 v31 i
      = Cert.Spec.gp (fun t n => k0_pay3 v13 (ix2 t n)) (fun n j => v18 (ix2 n j)) (fun t j => v22 (ix2 t j)) (fun t j => v24 (ix2 t j))
          (fun k => v27 (ix2 0 k)) (v31 (ix2 0 0)) (i 0) := by
  have hi : i = ix2 (i 0) 0 := by
    funext a
    match a with
    | ⟨0, _⟩ => rfl
    | ⟨1, _⟩ =>
      have h : (i 1).val < 1 := (i 1).isLt
      exact Fin.ext (by show (i 1).val = 0; omega)
  obtain ⟨t, rfl⟩ : ∃ t, i = ix2 t 0 := ⟨i 0, hi⟩
  unfold k0_pay4
  simp only [shapeCast_self]
  unfold Cert.Spec.gp Cert.Spec.logit
  rw [logistic_at, addf_apply, shapeCast_self, shapeCast_self, shapeCast_self]
  rw [show dot_S512x3072_S3072x1_S512x1_1_0_0_1_n_n = DotDims.plain 512 3072 1 from rfl,
    show dot_S512x1024_S1024x1024_S512x1024_1_0_0_1_n_n = DotDims.plain 512 1024 1024 from rfl,
    PlainProduct.matmul_zero_at 512 3072 1,
    broadcastTo_apply v31 broadcasts_S1x1_S512x1 (ix2 t 0) (ix2 0 0) (fun a => by
      match a with
      | ⟨0, _⟩ => rfl
      | ⟨1, _⟩ => rfl)]
  have hsum : ∀ k : Fin 3072,
      concatenate S512x3072 1
          [⟨S512x1024, truncf .bf16 (matmul (φ₁ := .bf16) (φ₂ := .bf16) (DotDims.plain 512 1024 1024) none (k0_pay3 v13) v18 (constant S512x1024 .f32 0x00000000#32)) bitsLt_bf16_f32⟩,
            ⟨S512x1024, v22⟩, ⟨S512x1024, v24⟩]
          concatenates_S512x1024_S512x1024_S512x1024_S512x3072_d1 (ix2 t k)
        * transpose S3072x1 [1, 0] v27 transposes_S1x3072_p1_0_S3072x1 (ix2 k 0)
      = Cert.Spec.lin (fun t n => k0_pay3 v13 (ix2 t n)) (fun n j => v18 (ix2 n j)) (fun t j => v22 (ix2 t j))
          (fun t j => v24 (ix2 t j)) t k * v27 (ix2 0 k) := fun k => by
    have hW : transpose S3072x1 [1, 0] v27 transposes_S1x3072_p1_0_S3072x1 (ix2 k 0) = v27 (ix2 0 k) :=
      transpose_apply [1, 0] v27 transposes_S1x3072_p1_0_S3072x1 (ix2 k 0) (ix2 0 k) (fun b => by
        match b with
        | ⟨0, _⟩ => rfl
        | ⟨1, _⟩ => rfl)
    have hC : concatenate S512x3072 1 [⟨S512x1024, (truncf .bf16 (matmul (φ₁ := .bf16) (φ₂ := .bf16) (DotDims.plain 512 1024 1024) none (k0_pay3 v13) v18 (constant S512x1024 .f32 0x00000000#32)) bitsLt_bf16_f32)⟩, ⟨S512x1024, v22⟩, ⟨S512x1024, v24⟩] concatenates_S512x1024_S512x1024_S512x1024_S512x3072_d1 (ix2 t k)
        = Cert.Spec.lin (fun t n => k0_pay3 v13 (ix2 t n)) (fun n j => v18 (ix2 n j)) (fun t j => v22 (ix2 t j))
            (fun t j => v24 (ix2 t j)) t k := by
      unfold Cert.Spec.lin
      by_cases h1 : k.val < 1024
      · rw [dif_pos h1]
        exact (Cert.Lib.Concat3.cols_first (truncf .bf16 (matmul (φ₁ := .bf16) (φ₂ := .bf16) (DotDims.plain 512 1024 1024) none (k0_pay3 v13) v18 (constant S512x1024 .f32 0x00000000#32)) bitsLt_bf16_f32) v22 v24 concatenates_S512x1024_S512x1024_S512x1024_S512x3072_d1 t k ⟨k.val, h1⟩ rfl).trans
          (PlainProduct.matmul_zero_at 512 1024 1024 (φ₁ := .bf16) (φ₂ := .bf16) (k0_pay3 v13) v18 t ⟨k.val, h1⟩)
      · rw [dif_neg h1]
        by_cases h2 : k.val < 2048
        · rw [dif_pos h2]
          exact Cert.Lib.Concat3.cols_second (truncf .bf16 (matmul (φ₁ := .bf16) (φ₂ := .bf16) (DotDims.plain 512 1024 1024) none (k0_pay3 v13) v18 (constant S512x1024 .f32 0x00000000#32)) bitsLt_bf16_f32) v22 v24 concatenates_S512x1024_S512x1024_S512x1024_S512x3072_d1 t k ⟨k.val - 1024, by omega⟩ (by show 1024 + (k.val - 1024) = k.val; omega)
        · rw [dif_neg h2]
          exact Cert.Lib.Concat3.cols_third (truncf .bf16 (matmul (φ₁ := .bf16) (φ₂ := .bf16) (DotDims.plain 512 1024 1024) none (k0_pay3 v13) v18 (constant S512x1024 .f32 0x00000000#32)) bitsLt_bf16_f32) v22 v24 concatenates_S512x1024_S512x1024_S512x1024_S512x3072_d1 t k ⟨k.val - 2048, by have := k.isLt; omega⟩ (by show 1024 + 1024 + (k.val - 2048) = k.val; omega)
    rw [hW, hC]
  exact congrArg (fun s => Ideal.div 1 (1 + Ideal.exp (-(s + v31 (ix2 0 0))))) (Finset.sum_congr rfl fun k _ => hsum k)

end IdealPayloads

end Cert.KernelIdeal.Hand

end
-- ==== Proof.KI.Value0.lean ====
/-
  Region 0 at the extended reals: what its two result arrays hold when it ends, as closed forms of the entry contents.
  The accumulator after point n is zero plus heads 0..n added in point order, a sum; at the last point the first result is
  that sum times 1/16 (the head average) and the second the gate computed from it; the one write-back of each, at the last
  point, writes its one block, which is the whole array.
-/
import proofs.«156806_j16080357556617_2_alg».proof.Proof.KI.Region0
import proofs.«156806_j16080357556617_2_alg».proof.Proof.KI.Value0Epilogue
import proofs.«156806_j16080357556617_2_alg».proof.Proof.Spec
import Idealize.ShloMosaic.Lib.Pipeline.Value
import Idealize.ShloMosaic.Lib.Tactic
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.Tactic Idealize.ShloMosaic.ValueIdx

variable {F : FTy → Type} [FloatOps F] [Named F]
variable (V : (c : Dev nD) → (b : Ref sig .tc) → Buf (Elt F) ((c : Thread nD τ).loc b))

theorem r0_hz2 : (![0, 0] : Fin 2 → Nat) = fun _ => 0 := funext fun a => by fin_cases a <;> rfl
theorem r0_hz4 : (![0, 0, 0, 0] : Fin 4 → Nat) = fun _ => 0 := funext fun a => by fin_cases a <;> rfl

/-- A middle point leaves in the accumulator what it held plus the head's block. -/
theorem sout0_B_eq (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    sout0_B_0 c i arg1 harg1 arg2 harg2 arg3 harg3 arg4 harg4 arg5 harg5 arg6 harg6 arg7 harg7 arg8 harg8 arg9 harg9 hc0 hc1 x0 x1 x2 x3 x4 x5 xs0 = k0_pay2 xs0 x0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0)]
  unfold kernelRun0_B
  dsimp only
  rw [View.canon_unit_zero r0_hz2]
  simp only [View.readAt_eq_ld, harg9.read_unread, harg1.read_unread, View.ld_unit_zero (S := S512x1024) r0_hz2, View.ld_unit_zero (S := S1x1x512x1024) r0_hz4]

/-- The first point zeroes the accumulator, reads it back and leaves zero plus the head's block. -/
theorem sout0_A_eq (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) :
    sout0_A_0 c i arg1 harg1 arg2 harg2 arg3 harg3 arg4 harg4 arg5 harg5 arg6 harg6 arg7 harg7 arg8 harg8 arg9 harg9 hc0 hc1 x0 x1 x2 x3 x4 x5 = k0_pay2 (k0_pay1 (F := F)) x0 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) r0_hz2]
  simp only [View.readCov_unit_zero (S := S512x1024) _ r0_hz2, View.readAt_eq_ld, harg1.read_unread, View.ld_unit_zero (S := S1x1x512x1024) r0_hz4]

/-- The last point leaves in the accumulator what it held plus the head's block, -/
theorem sout0_C_eq (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    sout0_C_0 c i arg1 harg1 arg2 harg2 arg3 harg3 arg4 harg4 arg5 harg5 arg6 harg6 arg7 harg7 arg8 harg8 arg9 harg9 hc0 hc1 x0 x1 x2 x3 x4 x5 xs0 = k0_pay2 xs0 x0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero r0_hz2]
  simp only [View.readAt_eq_ld, harg9.read_unread, harg1.read_unread, View.ld_unit_zero (S := S512x1024) r0_hz2, View.ld_unit_zero (S := S1x1x512x1024) r0_hz4]

/-- in output 6 the scaled accumulator, -/
theorem out0_C_6_eq (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    out0_C_6 c i arg1 harg1 arg2 harg2 arg3 harg3 arg4 harg4 arg5 harg5 arg6 harg6 arg7 harg7 arg8 harg8 arg9 harg9 hc0 hc1 x0 x1 x2 x3 x4 x5 xs0 = k0_pay3 (k0_pay2 xs0 x0) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero r0_hz2]
  simp only [View.readCov_unit_zero (S := S512x1024) _ r0_hz2, View.readAt_eq_ld, harg9.read_unread, harg1.read_unread, View.ld_unit_zero (S := S512x1024) r0_hz2, View.ld_unit_zero (S := S1x1x512x1024) r0_hz4]

/-- and in output 7 the gate computed from it and the five whole-array inputs. -/
theorem out0_C_7_eq (c : Dev nD) (i : grid0.Coords) (arg1 : Memref sig .tc .vmem S1x1x512x1024 .f32) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x3072 .bf16) (harg5 : arg5.IsWhole) (arg6 : Memref sig .tc .vmem S1x1 .f32) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x1x512x1024 .f32) (x1 : Vec F S1024x1024 .bf16) (x2 : Vec F S512x1024 .bf16) (x3 : Vec F S512x1024 .bf16) (x4 : Vec F S1x3072 .bf16) (x5 : Vec F S1x1 .f32) (xs0 : Vec F S512x1024 .f32) :
    out0_C_7 c i arg1 harg1 arg2 harg2 arg3 harg3 arg4 harg4 arg5 harg5 arg6 harg6 arg7 harg7 arg8 harg8 arg9 harg9 hc0 hc1 x0 x1 x2 x3 x4 x5 xs0 = k0_pay4 (k0_pay2 xs0 x0) x1 x2 x3 x4 x5 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero r0_hz2]
  simp only [View.readCov_unit_zero (S := S512x1024) _ r0_hz2, View.readAt_eq_ld, harg9.read_unread, harg1.read_unread, harg2.read_unread, harg3.read_unread, harg4.read_unread, harg5.read_unread, harg6.read_unread, View.ld_unit_zero (S := S512x1024) r0_hz2, View.ld_unit_zero (S := S1x1x512x1024) r0_hz4, View.ld_unit_zero (S := S1024x1024) r0_hz2, View.ld_unit_zero (S := S1x3072) r0_hz2, View.ld_unit_zero (S := S1x1) r0_hz2]

/-! ## The accumulator point by point -/

/-- The accumulator after point `n`: zero plus the first head's block, then each later head's block added. -/
def acc0 (c : Dev nD) : (n : ℕ) → n < cfg0.N → Vec F S512x1024 .f32
  | 0, h => k0_pay2 (k0_pay1 (F := F)) (iblk0 V c 0 ⟨0, h⟩)
  | n + 1, h => k0_pay2 (acc0 c n (Nat.lt_of_succ_lt h)) (iblk0 V c 0 ⟨n + 1, h⟩)

theorem acc0_zero (c : Dev nD) (h : 0 < cfg0.N) : acc0 V c 0 h = k0_pay2 (k0_pay1 (F := F)) (iblk0 V c 0 ⟨0, h⟩) := by rw [acc0]
theorem acc0_succ (c : Dev nD) (n : ℕ) (h : n + 1 < cfg0.N) :
    acc0 V c (n + 1) h = k0_pay2 (acc0 V c n (Nat.lt_of_succ_lt h)) (iblk0 V c 0 ⟨n + 1, h⟩) := by rw [acc0]

theorem acc0_pos (c : Dev nD) (t : Fin cfg0.N) (hz : t.val ≠ 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd rfl hz
  | succ n => exact acc0_succ V c n hn

/-- What the invariant names in the accumulator after point `n` is that running sum: by induction on the point. -/
theorem outsAt0_acc (c : Dev nD) : ∀ (n : ℕ) (h : n < cfg0.N), (outsAt0 V c n h).2.2 = acc0 V c n h := by
  intro n
  induction n with
  | zero =>
    intro h
    rw [acc0_zero]
    have e2 := congrArg (fun p => p.2.2) (outsAt0_A V c ⟨0, h⟩ (Nat.zero_mod 16) (by show ¬0 % 16 = 15; decide))
    dsimp only at e2
    rw [e2, sout0_A_eq]
  | succ n ih =>
    intro h
    have hN : cfg0.N = 16 := N_0
    rw [acc0_succ]
    have h0 : ¬(n + 1) % 16 = 0 := by omega
    by_cases h1 : (n + 1) % 16 = 15
    · have e2 := congrArg (fun p => p.2.2) (outsAt0_C V c ⟨n + 1, h⟩ h0 h1)
      dsimp only at e2
      rw [e2, sout0_C_eq]
      show k0_pay2 (outsAt0 V c n _).2.2 _ = k0_pay2 (acc0 V c n _) _
      rw [ih]
    · have e2 := congrArg (fun p => p.2.2) (outsAt0_B V c ⟨n + 1, h⟩ h0 h1)
      dsimp only at e2
      rw [e2, sout0_B_eq]
      show k0_pay2 (outsAt0 V c n _).2.2 _ = k0_pay2 (acc0 V c n _) _
      rw [ih]

/-- At the last point output 6's buffer is left at the scaled accumulator, -/
theorem out0_6_at (c : Dev nD) (t : Fin cfg0.N) (ht : t.val % 16 = 15) :
    (outsAt0 V c t.val t.isLt).1 = k0_pay3 (acc0 V c t.val t.isLt) := by
  have h0 : ¬t.val % 16 = 0 := by omega
  have hz : t.val ≠ 0 := by omega
  rw [outsAt0_C V c t h0 ht]
  dsimp only
  rw [out0_C_6_eq, outsAt0_acc, ← acc0_pos V c t hz]

/-- and output 7's at the gate of the accumulator and the five whole-array inputs. -/
theorem out0_7_at (c : Dev nD) (t : Fin cfg0.N) (ht : t.val % 16 = 15) :
    (outsAt0 V c t.val t.isLt).2.1 = k0_pay4 (acc0 V c t.val t.isLt) (iblk0 V c 1 t) (iblk0 V c 2 t) (iblk0 V c 3 t) (iblk0 V c 4 t) (iblk0 V c 5 t) := by
  have h0 : ¬t.val % 16 = 0 := by omega
  have hz : t.val ≠ 0 := by omega
  rw [outsAt0_C V c t h0 ht]
  dsimp only
  rw [out0_C_7_eq, outsAt0_acc, ← acc0_pos V c t hz]

/-! ## The two result arrays after the region -/

theorem r0_lt15 : 15 < cfg0.N := by rw [show cfg0.N = 16 from N_0]; decide

/-- Output 6's array after the region: the one write-back, at the last point, writes its one block, the whole array. -/
abbrev result0_6 (c : Dev nD) : Buf (Elt F) ((c : Thread nD τ).loc main_v8_0) := k0_pay3 (acc0 V c 15 r0_lt15)
/-- Output 7's. -/
abbrev result0_7 (c : Dev nD) : Buf (Elt F) ((c : Thread nD τ).loc main_v8_1) :=
  k0_pay4 (acc0 V c 15 r0_lt15) (iblk0 V c 1 t0_15) (iblk0 V c 2 t0_15) (iblk0 V c 3 t0_15) (iblk0 V c 4 t0_15) (iblk0 V c 5 t0_15)

theorem flushed0_6_eq (c : Dev nD) (t : Fin cfg0.N) (hf : (cfg0.win 6).flush t = true) :
    (dat0 V c).flushed 6 t = ((cfg0.win 6).blk t).view.read (Elt F) (result0_6 V c) := by
  have hN : cfg0.N = 16 := N_0
  have h15 : t.val = 15 := by have := (flush0_6 t).mp hf; have := t.isLt; omega
  show (cfg0.win 6).cut (grid0.coords t) ((dat0 V c).after 6 t) = _
  rw [after0_6, out0_6_at V c t (by omega)]
  obtain rfl : t = t0_15 := Fin.ext h15
  have hz' : (fun a => win0_6.index t0_15 a * main_v8_0.ty.shape.size a) = fun _ => 0 := funext fun a => by fin_cases a <;> decide
  exact (Memref.read_access_unit_zero (Elt F) main_v8_0 hz' (fun a => by rw [congrFun hz' a]; simp) (result0_6 V c)).symm

theorem final0_6 (c : Dev nD) : (dat0 V c).arrAt 6 cfg0.N = result0_6 V c :=
  (dat0 V c).arrAt_eq_of_cover 6 (result0_6 V c) (flushed0_6_eq V c) fun i =>
    ⟨t0_15, (flush0_6 t0_15).mpr rfl, by
      show i ∈ ((View.whole main_v8_0).slice (win0_6.rect t0_15)).set
      rw [View.set_slice_whole, Rect.mem_set_unit]
      intro a
      have h0 : (i 0 : Nat) < 512 := (i 0).isLt
      have h1 : (i 1 : Nat) < 1024 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 512 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 1024 from by decide +kernel]; omega⟩

theorem flushed0_7_eq (c : Dev nD) (t : Fin cfg0.N) (hf : (cfg0.win 7).flush t = true) :
    (dat0 V c).flushed 7 t = ((cfg0.win 7).blk t).view.read (Elt F) (result0_7 V c) := by
  have hN : cfg0.N = 16 := N_0
  have h15 : t.val = 15 := by have := (flush0_7 t).mp hf; have := t.isLt; omega
  show (cfg0.win 7).cut (grid0.coords t) ((dat0 V c).after 7 t) = _
  rw [after0_7, out0_7_at V c t (by omega)]
  obtain rfl : t = t0_15 := Fin.ext h15
  have hz' : (fun a => win0_7.index t0_15 a * main_v8_1.ty.shape.size a) = fun _ => 0 := funext fun a => by fin_cases a <;> decide
  exact (Memref.read_access_unit_zero (Elt F) main_v8_1 hz' (fun a => by rw [congrFun hz' a]; simp) (result0_7 V c)).symm

theorem final0_7 (c : Dev nD) : (dat0 V c).arrAt 7 cfg0.N = result0_7 V c :=
  (dat0 V c).arrAt_eq_of_cover 7 (result0_7 V c) (flushed0_7_eq V c) fun i =>
    ⟨t0_15, (flush0_7 t0_15).mpr rfl, by
      show i ∈ ((View.whole main_v8_1).slice (win0_7.rect t0_15)).set
      rw [View.set_slice_whole, Rect.mem_set_unit]
      intro a
      have h0 : (i 0 : Nat) < 512 := (i 0).isLt
      have h1 : (i 1 : Nat) < 1 := (i 1).isLt
      match a with
      | ⟨0, _⟩ => show win0_7.index t0_15 0 * win0_7.size 0 ≤ (i 0 : Nat) ∧ (i 0 : Nat) < win0_7.index t0_15 0 * win0_7.size 0 + win0_7.xsize (grid0.coords t0_15) 0
                  rw [show win0_7.index t0_15 0 * win0_7.size 0 = 0 from by decide +kernel, show win0_7.xsize (grid0.coords t0_15) 0 = 512 from by decide +kernel]; omega
      | ⟨1, _⟩ => show win0_7.index t0_15 1 * win0_7.size 1 ≤ (i 1 : Nat) ∧ (i 1 : Nat) < win0_7.index t0_15 1 * win0_7.size 1 + win0_7.xsize (grid0.coords t0_15) 1
                  rw [show win0_7.index t0_15 1 * win0_7.size 1 = 0 from by decide +kernel, show win0_7.xsize (grid0.coords t0_15) 1 = 1 from by decide +kernel]; omega⟩

/-! ## The payloads on the extended reals, entry by entry -/

section IdealPayloads

theorem r0_sixteenth : Ideal.ofBits .f32 0x3D800000#32 = ((1 / 16 : ℝ) : EReal) := by
  simp [Ideal.ofBits, Ideal.ieee, -EReal.coe_mul]; norm_num

/-- The zero block. -/
theorem pay0_1_apply (j : S512x1024.Idx) : k0_pay1 (F := Ideal) j = 0 := by
  unfold k0_pay1
  simp only [shapeCast_self]
  exact Ideal.ofBits_zero_f32

/-- The accumulator plus the head's block, the block's two unit axes dropped. -/
theorem pay0_2_apply (v3 : Vec Ideal S512x1024 .f32) (v4 : Vec Ideal S1x1x512x1024 .f32) (j : S512x1024.Idx) :
    k0_pay2 v3 v4 j = v3 j + v4 (ix4 0 0 (j 0) (j 1)) := by
  unfold k0_pay2
  simp only [shapeCast_self]
  show v3 j + shapeCast S512x1024 v4 shapeCasts_S1x1x512x1024_S512x1024 j = _
  congr 1
  refine shapeCast_apply v4 _ j (ix4 0 0 (j 0) (j 1)) ?_
  rw [Shape.rowMajor_val_four, Shape.rowMajor_val_two]
  simp

/-- The accumulator times 1/16 (the narrowing to bf16 is the identity on the extended reals). -/
theorem pay0_3_apply (v13 : Vec Ideal S512x1024 .f32) (j : S512x1024.Idx) :
    k0_pay3 v13 j = v13 j * ((1 / 16 : ℝ) : EReal) := by
  unfold k0_pay3
  show v13 j * Ideal.ofBits .f32 0x3D800000#32 = _
  rw [r0_sixteenth]

end IdealPayloads

/-! ## The two result arrays as closed forms of the entry contents -/

section IdealValues

variable (V : (c : Dev nD) → (b : Ref sig .tc) → Buf (Elt Ideal) ((c : Thread nD τ).loc b))

theorem r0_lt16 (t : Fin cfg0.N) : t.val < 16 := lt_of_lt_of_eq t.isLt N_0

/-- The block window 0 reads at point `t` is head `t` of the argument. -/
theorem iblk0_0_apply (c : Dev nD) (t : Fin cfg0.N) (jj : S1x1x512x1024.Idx) :
    (iblk0 V c 0 t : Vec Ideal S1x1x512x1024 .f32) jj = V c main_arg0 (ix4 0 ⟨t.val, r0_lt16 t⟩ (jj 2) (jj 3)) := by
  have hi : win0_0.index t 0 = 0 ∧ win0_0.index t 1 = t.val ∧ win0_0.index t 2 = 0 ∧ win0_0.index t 3 = 0 := by
    rcases fin_N0 t with rfl | rfl | rfl | rfl | rfl | rfl | rfl | rfl | rfl | rfl | rfl | rfl | rfl | rfl | rfl | rfl <;> decide
  unfold iblk0
  rw [View.read_apply]
  show V c main_arg0 _ = V c main_arg0 _
  congr 1
  funext a
  apply Fin.ext
  have j0 : (jj 0).val < 1 := (jj 0).isLt
  have j1 : (jj 1).val < 1 := (jj 1).isLt
  match a with
  | ⟨0, _⟩ => show win0_0.index t 0 * 1 + 1 * (jj 0).val = 0; rw [hi.1]; omega
  | ⟨1, _⟩ => show win0_0.index t 1 * 1 + 1 * (jj 1).val = t.val; rw [hi.2.1]; omega
  | ⟨2, _⟩ => show win0_0.index t 2 * 512 + 1 * (jj 2).val = (jj 2).val; rw [hi.2.2.1]; omega
  | ⟨3, _⟩ => show win0_0.index t 3 * 1024 + 1 * (jj 3).val = (jj 3).val; rw [hi.2.2.2]; omega

/-- Window 1's one block is its whole array. -/
theorem iblk0_1_last (c : Dev nD) : (iblk0 V c 1 t0_15 : Vec Ideal S1024x1024 .bf16) = V c main_v1 := by
  have hz' : (fun a => win0_1.index t0_15 a * main_v1.ty.shape.size a) = fun _ => 0 := funext fun a => by fin_cases a <;> decide
  exact Memref.read_access_unit_zero (Elt Ideal) main_v1 hz' (fun a => by rw [congrFun hz' a]; simp) (V c main_v1)

/-- Window 2's one block is its whole array. -/
theorem iblk0_2_last (c : Dev nD) : (iblk0 V c 2 t0_15 : Vec Ideal S512x1024 .bf16) = V c main_v3 := by
  have hz' : (fun a => win0_2.index t0_15 a * main_v3.ty.shape.size a) = fun _ => 0 := funext fun a => by fin_cases a <;> decide
  exact Memref.read_access_unit_zero (Elt Ideal) main_v3 hz' (fun a => by rw [congrFun hz' a]; simp) (V c main_v3)

/-- Window 3's one block is its whole array. -/
theorem iblk0_3_last (c : Dev nD) : (iblk0 V c 3 t0_15 : Vec Ideal S512x1024 .bf16) = V c main_v5 := by
  have hz' : (fun a => win0_3.index t0_15 a * main_v5.ty.shape.size a) = fun _ => 0 := funext fun a => by fin_cases a <;> decide
  exact Memref.read_access_unit_zero (Elt Ideal) main_v5 hz' (fun a => by rw [congrFun hz' a]; simp) (V c main_v5)

/-- Window 4's one block is its whole array. -/
theorem iblk0_4_last (c : Dev nD) : (iblk0 V c 4 t0_15 : Vec Ideal S1x3072 .bf16) = V c main_v6 := by
  have hz' : (fun a => win0_4.index t0_15 a * main_v6.ty.shape.size a) = fun _ => 0 := funext fun a => by fin_cases a <;> decide
  exact Memref.read_access_unit_zero (Elt Ideal) main_v6 hz' (fun a => by rw [congrFun hz' a]; simp) (V c main_v6)

/-- Window 5's one block is its whole array. -/
theorem iblk0_5_last (c : Dev nD) : (iblk0 V c 5 t0_15 : Vec Ideal S1x1 .f32) = V c main_v7 := by
  have hz' : (fun a => win0_5.index t0_15 a * main_v7.ty.shape.size a) = fun _ => 0 := funext fun a => by fin_cases a <;> decide
  exact Memref.read_access_unit_zero (Elt Ideal) main_v7 hz' (fun a => by rw [congrFun hz' a]; simp) (V c main_v7)

/-- Head `k` of the argument at an entry of the accumulator; zero past the last head. -/
def r0_headAt (c : Dev nD) (k : ℕ) (j : S512x1024.Idx) : EReal :=
  if hk : k < 16 then V c main_arg0 (ix4 0 ⟨k, hk⟩ (j 0) (j 1)) else 0

/-- The accumulator after point `n` holds the sum of heads 0..n: the additions in point order are a sum. -/
theorem acc0_apply (c : Dev nD) : ∀ (n : ℕ) (h : n < cfg0.N) (j : S512x1024.Idx),
    acc0 V c n h j = ∑ k ∈ Finset.range (n + 1), r0_headAt V c k j := by
  intro n
  induction n with
  | zero =>
    intro h j
    rw [acc0_zero, pay0_2_apply, pay0_1_apply, zero_add, iblk0_0_apply, Finset.sum_range_one]
    unfold r0_headAt
    rw [dif_pos (by decide)]
  | succ n ih =>
    intro h j
    rw [acc0_succ, pay0_2_apply, ih, iblk0_0_apply, Finset.sum_range_succ _ (n + 1)]
    congr 1
    unfold r0_headAt
    rw [dif_pos (r0_lt16 ⟨n + 1, h⟩)]

/-- Output 6's array: the head average. -/
theorem result0_6_apply (c : Dev nD) (i : S512x1024.Idx) :
    result0_6 V c i = Cert.Spec.ca (fun h t n => V c main_arg0 (ix4 0 h t n)) (i 0) (i 1) := by
  show k0_pay3 (acc0 V c 15 r0_lt15) i = _
  have e : ∑ k ∈ Finset.range (15 + 1), r0_headAt V c k i = @Finset.sum (Fin 16) EReal _ Finset.univ (fun h => V c main_arg0 (ix4 0 h (i 0) (i 1))) := by
    rw [Finset.sum_range]
    refine Finset.sum_congr rfl fun k _ => ?_
    unfold r0_headAt
    rw [dif_pos k.isLt]
  rw [pay0_3_apply, acc0_apply, e]
  unfold Cert.Spec.ca
  rfl

theorem arrAt0_6 (c : Dev nD) : (dat0 (F := Ideal) V c).arrAt 6 cfg0.N
    = fun i => Cert.Spec.ca (fun h t n => V c main_arg0 (ix4 0 h t n)) (i 0) (i 1) :=
  (final0_6 V c).trans (funext fun i => result0_6_apply V c i)

/-- Output 7's array: the gate. -/
theorem result0_7_apply (c : Dev nD) (i : S512x1.Idx) :
    result0_7 V c i = Cert.Spec.gp (Cert.Spec.ca (fun h t n => V c main_arg0 (ix4 0 h t n))) (fun n j => V c main_v1 (ix2 n j))
      (fun t j => V c main_v3 (ix2 t j)) (fun t j => V c main_v5 (ix2 t j)) (fun k => V c main_v6 (ix2 0 k)) (V c main_v7 (ix2 0 0)) (i 0) := by
  show k0_pay4 (acc0 V c 15 r0_lt15) (iblk0 V c 1 t0_15) (iblk0 V c 2 t0_15) (iblk0 V c 3 t0_15) (iblk0 V c 4 t0_15) (iblk0 V c 5 t0_15) i = _
  rw [pay4_apply, iblk0_1_last, iblk0_2_last, iblk0_3_last, iblk0_4_last, iblk0_5_last]
  have ha : (fun (t : Fin 512) (n : Fin 1024) => k0_pay3 (acc0 V c 15 r0_lt15) (ix2 t n))
      = Cert.Spec.ca (fun h t n => V c main_arg0 (ix4 0 h t n)) :=
    funext fun t => funext fun n => result0_6_apply V c (ix2 t n)
  rw [ha]

theorem arrAt0_7 (c : Dev nD) : (dat0 (F := Ideal) V c).arrAt 7 cfg0.N
    = fun i => Cert.Spec.gp (Cert.Spec.ca (fun h t n => V c main_arg0 (ix4 0 h t n))) (fun n j => V c main_v1 (ix2 n j))
      (fun t j => V c main_v3 (ix2 t j)) (fun t j => V c main_v5 (ix2 t j)) (fun k => V c main_v6 (ix2 0 k)) (V c main_v7 (ix2 0 0)) (i 0) :=
  (final0_7 V c).trans (funext fun i => result0_7_apply V c i)

end IdealValues

end Cert.KernelIdeal.Hand

end
-- ==== Proof.KI.Compose.lean ====
/-
  The kernel side composed, region 0's value statements discharged: the two results at @main's last boundary are
  the specification's gate array and blended distribution of the launch memory's argument arrays.
-/
import proofs.«156806_j16080357556617_2_alg».proof.Proof.KI.ComposeOf
import proofs.«156806_j16080357556617_2_alg».proof.Proof.KI.Value0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The first result. -/
theorem res0_eq (c : Dev nD) :
    (W5 m c (Proc.devRef .tc main_v8_1) : S512x1.Idx → EReal) = Cert.Spec.genProbs (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  res0_eq_of m arrAt0_6 arrAt0_7 c

/-- The second result, the logits being real numbers. -/
theorem res1_eq (hpre : Cert.Pre_KernelIdeal m) (c : Dev nD) :
    (W5 m c (Proc.devRef .tc main_v25) : S512x96103.Idx → EReal) = Cert.Spec.finalProbs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  res1_eq_of m arrAt0_6 arrAt0_7 hpre c

end Cert.KernelIdeal.Hand

end
-- ==== Proof.Ref.Ca.lean ====
/-
  The head average on the reference side: the sum over the sixteen heads started from zero, divided by the real 16,
  is the sum times 1/16 at every entry.
-/
import proofs.«156806_j16080357556617_2_alg».proof.Proof.Gen.ReferenceIdeal.Read
import proofs.«156806_j16080357556617_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.StableHlo ValueIdx

/-- The word 0x41800000 is the real 16. -/
theorem ofBits_sixteen : Ideal.ofBits .f32 0x41800000#32 = ((16 : ℝ) : EReal) := by
  simp [Ideal.ofBits, Ideal.ieee, -EReal.coe_mul]; norm_num

/-- Entry (t, n) of the averaged weights: the heads' sum from zero over the real 16 is the sum times 1/16. -/
theorem v3_apply (x0 : (⟨S1x16x512x1024, .f32⟩ : BufTy).Contents (Elt Ideal)) (t : Fin 512) (n : Fin 1024) :
    val_main_v3 (F := Ideal) x0 (ix2 t n) = Cert.Spec.caOf x0 t n := by
  rw [val_main_v3_apply, val_main_v1_apply, val_main_v2_apply, val_main_cst_apply, val_main_cst_0_apply]
  simp only [val_main_v0_apply]
  simp only [Ideal.hostDivf_def, Ideal.ofBits_def, Ideal.ofBits_zero_f32, ofBits_sixteen, zero_add]
  rw [Ideal.div_coe (by norm_num : (16:ℝ) ≠ 0)]
  unfold Cert.Spec.caOf Cert.Spec.ca
  congr 1
  refine Finset.sum_congr rfl fun k _ => congrArg x0 ?_
  funext a
  apply Fin.ext
  have hk := k.isLt; have ht := t.isLt; have hn := n.isLt
  match a with
  | ⟨0, _⟩ => rfl
  | ⟨1, _⟩ => show ((k.val * 512 + t.val) * 1024 + n.val) / 524288 % 16 = k.val; omega
  | ⟨2, _⟩ => show ((k.val * 512 + t.val) * 1024 + n.val) / 1024 % 512 = t.val; omega
  | ⟨3, _⟩ => show ((k.val * 512 + t.val) * 1024 + n.val) % 1024 = n.val; omega

end Cert.ReferenceIdeal.RefValue

end
-- ==== Proof.Ref.Lin.lean ====
/-
  The pointer layer's input on the reference side: the product of the averaged weights with the encoder states is the
  context; the [1, 512, 1024] arrays lose their unit axis; the three [512, 1024] arrays joined along the columns are
  the row (context, decoder state, decoder embedding).
-/
import proofs.«156806_j16080357556617_2_alg».proof.Proof.Gen.ReferenceIdeal.Read
import proofs.«156806_j16080357556617_2_alg».proof.Proof.Spec
import Idealize.ShloMosaic.Lib.IdealHost
import proofs.«156806_j16080357556617_2_alg».proof.Proof.Ref.Ca
import proofs.«156806_j16080357556617_2_alg».proof.Proof.LibConcat3

noncomputable section

namespace Cert.ReferenceIdeal.RefValue

open Cert.ReferenceIdeal Cert.ReferenceIdeal.Gen Cert.ReferenceIdeal.Read Idealize.ShloMosaic Idealize.ShloMosaic.StableHlo ValueIdx

/-- The encoder states, the decoder states and the decoder embeddings of the argument arrays, by coordinates. -/
abbrev encOf (x1 : (⟨S1x1024x1024, .f32⟩ : BufTy).Contents (Elt Ideal)) : Fin 1024 → Fin 1024 → EReal := fun n j => x1 (ix3 0 n j)
abbrev decOf (x : (⟨S1x512x1024, .f32⟩ : BufTy).Contents (Elt Ideal)) : Fin 512 → Fin 1024 → EReal := fun t j => x (ix3 0 t j)

/-- Entry (t, j) of the product of the averaged weights with the encoder states is the context. -/
theorem v8_apply (x0 : (⟨S1x16x512x1024, .f32⟩ : BufTy).Contents (Elt Ideal)) (x1 : (⟨S1x1024x1024, .f32⟩ : BufTy).Contents (Elt Ideal))
    (t : Fin 512) (j : Fin 1024) :
    val_main_v8 (F := Ideal) x0 x1 (ix2 t j) = Cert.Spec.ctx (Cert.Spec.caOf x0) (encOf x1) t j := by
  rw [val_main_v8_apply]
  unfold Cert.Spec.ctx
  refine Finset.sum_congr rfl fun k _ => ?_
  have e1 : lidx_main_v8 (ix2 t j) k = ix2 t k := funext fun a => Fin.ext (by match a with | ⟨0, _⟩ => rfl | ⟨1, _⟩ => rfl)
  rw [e1, v3_apply, val_main_v4_apply]
  congr 1
  refine congrArg x1 (funext fun a => Fin.ext ?_)
  have hk := k.isLt; have hj := j.isLt
  match a with
  | ⟨0, _⟩ => rfl
  | ⟨1, _⟩ => show (k.val * 1024 + j.val) / 1024 % 1024 = k.val; omega
  | ⟨2, _⟩ => show (k.val * 1024 + j.val) % 1024 = j.val; omega

/-- A [1, 512, 1024] argument array with its unit axis dropped, at (t, j). -/
theorem v5_apply (x2 : (⟨S1x512x1024, .f32⟩ : BufTy).Contents (Elt Ideal)) (t : Fin 512) (j : Fin 1024) :
    val_main_v5 (F := Ideal) x2 (ix2 t j) = decOf x2 t j := by
  rw [val_main_v5_apply]
  refine congrArg x2 (funext fun a => Fin.ext ?_)
  have ht := t.isLt; have hj := j.isLt
  match a with
  | ⟨0, _⟩ => rfl
  | ⟨1, _⟩ => show (t.val * 1024 + j.val) / 1024 % 512 = t.val; omega
  | ⟨2, _⟩ => show (t.val * 1024 + j.val) % 1024 = j.val; omega

theorem v6_apply (x3 : (⟨S1x512x1024, .f32⟩ : BufTy).Contents (Elt Ideal)) (t : Fin 512) (j : Fin 1024) :
    val_main_v6 (F := Ideal) x3 (ix2 t j) = decOf x3 t j := by
  rw [val_main_v6_apply]
  refine congrArg x3 (funext fun a => Fin.ext ?_)
  have ht := t.isLt; have hj := j.isLt
  match a with
  | ⟨0, _⟩ => rfl
  | ⟨1, _⟩ => show (t.val * 1024 + j.val) / 1024 % 512 = t.val; omega
  | ⟨2, _⟩ => show (t.val * 1024 + j.val) % 1024 = j.val; omega

/-- Row t of the three arrays joined side by side is the pointer layer's input row. -/
theorem v9_apply (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (t : Fin 512) (k : Fin 3072) :
    val_main_v9 (F := Ideal) x0 x1 x2 x3 (ix2 t k) = Cert.Spec.lin (Cert.Spec.caOf x0) (encOf x1) (decOf x2) (decOf x3) t k := by
  unfold val_main_v9 Cert.Spec.lin
  have hk := k.isLt
  by_cases h1 : k.val < 1024
  · rw [dif_pos h1, Cert.Lib.Concat3.cols_first _ _ _ _ t k ⟨k.val, h1⟩ rfl, v8_apply]
  · rw [dif_neg h1]
    by_cases h2 : k.val < 2048
    · rw [dif_pos h2, Cert.Lib.Concat3.cols_second _ _ _ _ t k ⟨k.val - 1024, by omega⟩ (by show 1024 + (k.val - 1024) = k.val; omega), v5_apply]
    · rw [dif_neg h2, Cert.Lib.Concat3.cols_third _ _ _ _ t k ⟨k.val - 2048, by omega⟩ (by show 1024 + 1024 + (k.val - 2048) = k.val; omega), v6_apply]

end Cert.ReferenceIdeal.RefValue

end
-- ==== Proof.Ref.Gp.lean ====
/-
  The generation probability on the reference side: the input row times the transposed pointer weights plus the bias is
  the pre-activation; one over one plus the exponential of its negative is the gate; the [512, 1] result is the
  specification's array.
-/
import proofs.«156806_j16080357556617_2_alg».proof.Proof.Gen.ReferenceIdeal.Read
import proofs.«156806_j16080357556617_2_alg».proof.Proof.Spec
import Idealize.ShloMosaic.Lib.IdealHost
import proofs.«156806_j16080357556617_2_alg».proof.Proof.Ref.Lin

noncomputable section

namespace Cert.ReferenceIdeal.RefValue

open Cert.ReferenceIdeal Cert.ReferenceIdeal.Gen Cert.ReferenceIdeal.Read Idealize.ShloMosaic Idealize.ShloMosaic.StableHlo ValueIdx

/-- The pointer weights and bias of the argument arrays, by coordinates. -/
abbrev pwOf (x6 : (⟨S1x3072, .f32⟩ : BufTy).Contents (Elt Ideal)) : Fin 3072 → EReal := fun k => x6 (ix2 0 k)
abbrev pbOf (x7 : (⟨S1, .f32⟩ : BufTy).Contents (Elt Ideal)) : EReal := x7 (ix1 0)

/-- Row t of the product with the transposed pointer weights, plus the bias: the pre-activation. -/
theorem v14_apply (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (x6 : (⟨S1x3072, .f32⟩ : BufTy).Contents (Elt Ideal)) (x7 : (⟨S1, .f32⟩ : BufTy).Contents (Elt Ideal)) (t : Fin 512) :
    val_main_v14 (F := Ideal) x0 x1 x2 x3 x6 x7 (ix2 t (0 : Fin 1))
      = Cert.Spec.logit (Cert.Spec.caOf x0) (encOf x1) (decOf x2) (decOf x3) (pwOf x6) (pbOf x7) t := by
  rw [val_main_v14_apply, val_main_v11_apply, val_main_v13_apply, val_main_v12_apply]
  unfold Cert.Spec.logit
  simp only [Ideal.addf_def]
  congr 1
  · refine Finset.sum_congr rfl fun k _ => ?_
    have e1 : lidx_main_v11 (ix2 t (0 : Fin 1)) k = ix2 t k :=
      funext fun a => Fin.ext (by match a with | ⟨0, _⟩ => rfl | ⟨1, _⟩ => rfl)
    rw [e1, v9_apply, val_main_v10_apply]
    congr 1
    refine congrArg x6 (funext fun a => Fin.ext ?_)
    match a with
    | ⟨0, _⟩ => rfl
    | ⟨1, _⟩ => rfl
  · refine congrArg x7 (funext fun a => Fin.ext ?_)
    match a with
    | ⟨0, _⟩ => rfl

/-- Row t of the gate: one over one plus the exponential of minus the pre-activation. -/
theorem v20_apply (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (x6 : (⟨S1x3072, .f32⟩ : BufTy).Contents (Elt Ideal)) (x7 : (⟨S1, .f32⟩ : BufTy).Contents (Elt Ideal)) (t : Fin 512) :
    val_main_v20 (F := Ideal) x0 x1 x2 x3 x6 x7 (ix2 t (0 : Fin 1)) = Cert.Spec.gpOf x0 x1 x2 x3 x6 x7 t := by
  rw [val_main_v20_apply, val_main_v19_apply, val_main_cst_2_apply, val_main_v18_apply, val_main_v17_apply,
    val_main_cst_1_apply, val_main_v16_apply, val_main_v15_apply, v14_apply]
  simp only [Ideal.hostDivf_def, Ideal.ofBits_def, Ideal.ofBits_one_f32, Ideal.addf_def, Ideal.hostUnary_exp_def,
    Ideal.hostNegf_def, Ideal.negf_def]
  rfl

/-- The first result: the reference's [512, 1] result (its last stage; the composed term of the run is this stage by
    definition) is the specification's gate array. -/
theorem v20_eq (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (x6 : (⟨S1x3072, .f32⟩ : BufTy).Contents (Elt Ideal)) (x7 : (⟨S1, .f32⟩ : BufTy).Contents (Elt Ideal)) :
    val_main_v20 (F := Ideal) x0 x1 x2 x3 x6 x7 = Cert.Spec.genProbs x0 x1 x2 x3 x6 x7 :=
  funext fun i => by
    obtain ⟨t, z, rfl⟩ : ∃ (t : Fin 512) (z : Fin 1), i = ix2 t z := ⟨i 0, i 1, eq_ix2 i⟩
    obtain rfl : z = 0 := Subsingleton.elim _ _
    rw [v20_apply]
    rfl

end Cert.ReferenceIdeal.RefValue

end
-- ==== Proof.LibRowExtrema.lean ====
/-
  Row extrema of an [a, b] array of extended reals read at a row, as a supremum or an infimum over the row: the
  vector unit's reduction along the last axis started from -inf (maximum) or +inf (minimum), and the host's reduction
  along the last axis from a scalar initial value that is -inf or +inf. A fold of max from the bottom element is the
  supremum, a fold of min from the top element the infimum; so a row extremum taken tile by tile and one taken on
  the whole row can be compared by the order alone.
-/
import Idealize.ShloMosaic.PureOps.Ideal.Laws
import Idealize.ShloMosaic.Lib.ValueIdx

noncomputable section

namespace Cert.Lib.RowExtrema

open Idealize.ShloMosaic Idealize.ShloMosaic.ValueIdx

theorem negInf_f32 : Ideal.ofBits .f32 0xFF800000#32 = (⊥ : EReal) := by simp [Ideal.ofBits, Ideal.ieee]
theorem posInf_f32 : Ideal.ofBits .f32 0x7F800000#32 = (⊤ : EReal) := by simp [Ideal.ofBits, Ideal.ieee]

/-- A fold of `max` from the bottom element is the supremum. -/
theorem fold_max_bot {ι : Type} (s : Finset ι) (f : ι → EReal) : s.fold max ⊥ f = s.sup f := rfl
/-- A fold of `min` from the top element is the infimum. -/
theorem fold_min_top {ι : Type} (s : Finset ι) (f : ι → EReal) : s.fold min ⊤ f = s.inf f := rfl

/-- The vector unit's maximum over the last axis of an `[a, b]` array from -inf, at row `r`. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).sup (fun k => src (ix2 r k)) := by
  have e : (Finset.univ : Finset (Fin b)).fold max (Ideal.ofBits .f32 0xFF800000#32) (fun k => src (ix2 r k))
      = (Finset.univ : Finset (Fin b)).sup (fun k => src (ix2 r k)) := by rw [negInf_f32]; rfl
  refine (Ideal.multiReduction_maximumf_single src _ h hφ hacc (ix1 r)).trans (Eq.trans ?_ e)
  exact congrArg (fun f : Fin b → EReal => (Finset.univ : Finset (Fin b)).fold max (Ideal.ofBits .f32 0xFF800000#32) f)
    (funext fun k => congrArg src (funext fun ax => Fin.ext (by
      match ax with
      | ⟨0, _⟩ => rfl
      | ⟨1, _⟩ => rfl)))

/-- The vector unit's minimum over the last axis of an `[a, b]` array from +inf, at row `r`. -/
theorem rowMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).inf (fun k => src (ix2 r k)) := by
  have e : (Finset.univ : Finset (Fin b)).fold min (Ideal.ofBits .f32 0x7F800000#32) (fun k => src (ix2 r k))
      = (Finset.univ : Finset (Fin b)).inf (fun k => src (ix2 r k)) := by rw [posInf_f32]; rfl
  rw [multiReduction_minimumf_eq_fold]
  refine (h.fold_filter_drop_single _ _ src (ix1 r)).trans (Eq.trans ?_ e)
  exact congrArg (fun f : Fin b → EReal => (Finset.univ : Finset (Fin b)).fold min (Ideal.ofBits .f32 0x7F800000#32) f)
    (funext fun k => congrArg src (funext fun ax => Fin.ext (by
      match ax with
      | ⟨0, _⟩ => rfl
      | ⟨1, _⟩ => rfl)))

/-- The host's maximum over the last axis of an `[a, b]` array from a scalar initial value that is -inf, at row `r`. -/
theorem hostRowMax_apply {a b : ℕ} (x : FVec Ideal ⟨2, ![a, b]⟩ .f32) (init : (⟨0, ![]⟩ : Shape).Idx → Ideal .f32)
    (hinit : ∀ i, init i = (⊥ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r) = (Finset.univ : Finset (Fin b)).sup (fun k => x (ix2 r k)) := by
  have e : (Finset.univ : Finset (Fin b)).fold max (⊥ : EReal) (fun k => x (ix2 r k))
      = (Finset.univ : Finset (Fin b)).sup (fun k => x (ix2 r k)) := rfl
  refine (Host.reduce_eq_fold_single FloatOps.maximumf x init h' h hu (ix1 r)).trans (Eq.trans ?_ e)
  rw [hinit]
  exact congrArg (fun f : Fin b → EReal => (Finset.univ : Finset (Fin b)).fold max (⊥ : EReal) f)
    (funext fun k => congrArg x (funext fun ax => Fin.ext (by
      match ax with
      | ⟨0, _⟩ => rfl
      | ⟨1, _⟩ => rfl)))

/-- The host's minimum over the last axis of an `[a, b]` array from a scalar initial value that is +inf, at row `r`. -/
theorem hostRowMin_apply {a b : ℕ} (x : FVec Ideal ⟨2, ![a, b]⟩ .f32) (init : (⟨0, ![]⟩ : Shape).Idx → Ideal .f32)
    (hinit : ∀ i, init i = (⊤ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.minimumf x init h' hu (ix1 r) = (Finset.univ : Finset (Fin b)).inf (fun k => x (ix2 r k)) := by
  have e : (Finset.univ : Finset (Fin b)).fold min (⊤ : EReal) (fun k => x (ix2 r k))
      = (Finset.univ : Finset (Fin b)).inf (fun k => x (ix2 r k)) := rfl
  refine (Host.reduce_eq_fold_single FloatOps.minimumf x init h' h hu (ix1 r)).trans (Eq.trans ?_ e)
  rw [hinit]
  exact congrArg (fun f : Fin b → EReal => (Finset.univ : Finset (Fin b)).fold min (⊤ : EReal) f)
    (funext fun k => congrArg x (funext fun ax => Fin.ext (by
      match ax with
      | ⟨0, _⟩ => rfl
      | ⟨1, _⟩ => rfl)))

end Cert.Lib.RowExtrema

end
-- ==== Proof.Ref.Softmax.lean ====
/-
  The row softmax on the reference side: the row maximum (the larger of −inf and the maximum over the row started from
  −inf) is the row's supremum; the shifted exponentials; their sum from zero; the quotient.
-/
import proofs.«156806_j16080357556617_2_alg».proof.Proof.Gen.ReferenceIdeal.Read
import proofs.«156806_j16080357556617_2_alg».proof.Proof.Spec
import Idealize.ShloMosaic.Lib.IdealHost
import proofs.«156806_j16080357556617_2_alg».proof.Proof.LibRowExtrema

noncomputable section

namespace Cert.ReferenceIdeal.RefValue

open Cert.ReferenceIdeal Cert.ReferenceIdeal.Gen Cert.ReferenceIdeal.Read Idealize.ShloMosaic Idealize.ShloMosaic.StableHlo ValueIdx

/-- The logits of the argument array, by coordinates. -/
abbrev lgOf (x4 : (⟨S1x512x96103, .f32⟩ : BufTy).Contents (Elt Ideal)) : Fin 512 → Fin 96103 → EReal := fun t v => x4 (ix3 0 t v)

/-- The [1, 512, 96103] argument array with its unit axis dropped, at (t, v). -/
theorem v7_apply (x4 : (⟨S1x512x96103, .f32⟩ : BufTy).Contents (Elt Ideal)) (t : Fin 512) (v : Fin 96103) :
    val_main_v7 (F := Ideal) x4 (ix2 t v) = lgOf x4 t v := by
  rw [val_main_v7_apply]
  refine congrArg x4 (funext fun a => Fin.ext ?_)
  have ht := t.isLt; have hv := v.isLt
  match a with
  | ⟨0, _⟩ => rfl
  | ⟨1, _⟩ => show (t.val * 96103 + v.val) / 96103 % 512 = t.val; omega
  | ⟨2, _⟩ => show (t.val * 96103 + v.val) % 96103 = v.val; omega

/-- The row maximum: the larger of −inf and the maximum over the row started from −inf is the row's supremum. -/
theorem v23_apply (x4 : (⟨S1x512x96103, .f32⟩ : BufTy).Contents (Elt Ideal)) (t : Fin 512) :
    val_main_v23 (F := Ideal) x4 (ix1 t) = Cert.Spec.rowMax (lgOf x4) t := by
  rw [val_main_v23_apply, val_main_v22_apply, val_main_cst_4_apply]
  unfold val_main_v21
  rw [Cert.Lib.RowExtrema.hostRowMax_apply (val_main_v7 (F := Ideal) x4) (val_main_cst_3 (F := Ideal))
    (fun _ => Cert.Lib.RowExtrema.negInf_f32) reducesTo_S512x96103_S512_d1 (by decide) h_S_ t]
  simp only [Ideal.maximumf_def, Ideal.ofBits_def, Cert.Lib.RowExtrema.negInf_f32, max_bot_left]
  unfold Cert.Spec.rowMax
  exact congrArg (Finset.univ : Finset (Fin 96103)).sup (funext fun v => v7_apply x4 t v)

/-- The shifted exponential at (t, v). -/
theorem v27_apply (x4 : (⟨S1x512x96103, .f32⟩ : BufTy).Contents (Elt Ideal)) (t : Fin 512) (v : Fin 96103) :
    val_main_v27 (F := Ideal) x4 (ix2 t v) = Ideal.exp (lgOf x4 t v - Cert.Spec.rowMax (lgOf x4) t) := by
  have e : idx_main_v24 (idx_main_v25 (ix2 t v)) = ix1 t :=
    funext fun a => Fin.ext (by match a with | ⟨0, _⟩ => rfl)
  rw [val_main_v27_apply, val_main_v26_apply, val_main_v25_apply, val_main_v24_apply, e, v23_apply, v7_apply]
  simp only [Ideal.hostUnary_exp_def, Ideal.subf_def]

/-- The row's sum of shifted exponentials, started from zero. -/
theorem v28_apply (x4 : (⟨S1x512x96103, .f32⟩ : BufTy).Contents (Elt Ideal)) (t : Fin 512) :
    val_main_v28 (F := Ideal) x4 (ix1 t) = Cert.Spec.rowSum (lgOf x4) t := by
  rw [val_main_v28_apply, val_main_cst_5_apply]
  simp only [Ideal.ofBits_def, Ideal.ofBits_zero_f32, zero_add]
  unfold Cert.Spec.rowSum
  refine Finset.sum_congr rfl fun k _ => ?_
  have e : idx_main_v28 (ix1 t) k = ix2 t k :=
    funext fun a => Fin.ext (by match a with | ⟨0, _⟩ => rfl | ⟨1, _⟩ => rfl)
  rw [e, v27_apply]

/-- The row softmax at (t, v). -/
theorem v31_apply (x4 : (⟨S1x512x96103, .f32⟩ : BufTy).Contents (Elt Ideal)) (t : Fin 512) (v : Fin 96103) :
    val_main_v31 (F := Ideal) x4 (ix2 t v) = Cert.Spec.dist (lgOf x4) t v := by
  have e : idx_main_v29 (idx_main_v30 (ix2 t v)) = ix1 t :=
    funext fun a => Fin.ext (by match a with | ⟨0, _⟩ => rfl)
  rw [val_main_v31_apply, val_main_v30_apply, val_main_v29_apply, e, v28_apply, v27_apply]
  simp only [Ideal.hostDivf_def]
  rfl

end Cert.ReferenceIdeal.RefValue

end
-- ==== Proof.Ref.Final.lean ====
/-
  The blended distribution on the reference side: the gate broadcast along the rows times the softmax, plus one minus
  the gate times the scattered weights. The scatter enters as a hypothesis here: the array it writes, read at (t, v),
  is the update of the LAST source position whose token id is v, and zero where no position carries v.
-/
import proofs.«156806_j16080357556617_2_alg».proof.Proof.Gen.ReferenceIdeal.Read
import proofs.«156806_j16080357556617_2_alg».proof.Proof.Spec
import Idealize.ShloMosaic.Lib.IdealHost
import proofs.«156806_j16080357556617_2_alg».proof.Proof.Ref.Gp
import proofs.«156806_j16080357556617_2_alg».proof.Proof.Ref.Softmax

noncomputable section

namespace Cert.ReferenceIdeal.RefValue

open Cert.ReferenceIdeal Cert.ReferenceIdeal.Gen Cert.ReferenceIdeal.Read Idealize.ShloMosaic Idealize.ShloMosaic.StableHlo ValueIdx

/-- The token ids of the argument array, by position. -/
abbrev idsOf (x5 : (⟨S1024, .i32⟩ : BufTy).Contents (Elt Ideal)) : Fin 1024 → BitVec 32 := fun n => x5 (ix1 n)

/-- Entry (t, v) of the second result, given the scatter read as "the last update landing at (t, v) wins, zero where
    none lands": the gate times the softmax plus one minus the gate times the copied weight. -/
theorem v58_apply_of (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (x4 : (⟨S1x512x96103, .f32⟩ : BufTy).Contents (Elt Ideal))
    (x5 : (⟨S1024, .i32⟩ : BufTy).Contents (Elt Ideal)) (x6 : (⟨S1x3072, .f32⟩ : BufTy).Contents (Elt Ideal))
    (x7 : (⟨S1, .f32⟩ : BufTy).Contents (Elt Ideal))
    (hsc : ∀ (a : (⟨S512x1024, .f32⟩ : BufTy).Contents (Elt Ideal)) (t : Fin 512) (v : Fin 96103),
      Host.scatter scatter_S512x96103_S512x1024x2_S512x1024_n_01_01_2 (fun _ b => b) (val_main_v39 (F := Ideal))
        (val_main_v52 (F := Ideal) x5) a (ix2 t v) = Cert.Spec.copy (fun t n => a (ix2 t n)) (fun n => x5 (ix1 n)) t v) (t : Fin 512) (v : Fin 96103) :
    val_main_v58 (F := Ideal) x0 x1 x2 x3 x4 x5 x6 x7 (ix2 t v)
      = Cert.Spec.final (Cert.Spec.caOf x0) (Cert.Spec.gpOf x0 x1 x2 x3 x6 x7) (lgOf x4) (idsOf x5) t v := by
  have e32 : idx_main_v32 (ix2 t v) = ix2 t (0 : Fin 1) :=
    funext fun a => Fin.ext (by match a with | ⟨0, _⟩ => rfl | ⟨1, _⟩ => rfl)
  have e56 : idx_main_v56 (ix2 t v) = ix2 t (0 : Fin 1) :=
    funext fun a => Fin.ext (by match a with | ⟨0, _⟩ => rfl | ⟨1, _⟩ => rfl)
  have hcopy : val_main_v53 (F := Ideal) x0 x5 (ix2 t v) = Cert.Spec.copy (Cert.Spec.caOf x0) (idsOf x5) t v := by
    unfold val_main_v53
    rw [hsc]
    exact congrArg (fun a => Cert.Spec.copy a (idsOf x5) t v) (funext fun t => funext fun n => v3_apply x0 t n)
  rw [val_main_v58_apply, val_main_v33_apply, val_main_v57_apply, val_main_v32_apply, val_main_v56_apply,
    val_main_v55_apply, val_main_v54_apply, val_main_cst_10_apply, e32, e56, v20_apply, v31_apply, hcopy]
  simp only [Ideal.addf_def, Ideal.mulf_def, Ideal.subf_def, Ideal.ofBits_def, Ideal.ofBits_one_f32]
  rfl

/-- The second result as an array, under the same reading of the scatter. -/
theorem v58_val_of (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (x4 : (⟨S1x512x96103, .f32⟩ : BufTy).Contents (Elt Ideal))
    (x5 : (⟨S1024, .i32⟩ : BufTy).Contents (Elt Ideal)) (x6 : (⟨S1x3072, .f32⟩ : BufTy).Contents (Elt Ideal))
    (x7 : (⟨S1, .f32⟩ : BufTy).Contents (Elt Ideal))
    (hsc : ∀ (a : (⟨S512x1024, .f32⟩ : BufTy).Contents (Elt Ideal)) (t : Fin 512) (v : Fin 96103),
      Host.scatter scatter_S512x96103_S512x1024x2_S512x1024_n_01_01_2 (fun _ b => b) (val_main_v39 (F := Ideal))
        (val_main_v52 (F := Ideal) x5) a (ix2 t v) = Cert.Spec.copy (fun t n => a (ix2 t n)) (fun n => x5 (ix1 n)) t v) :
    val_main_v58 (F := Ideal) x0 x1 x2 x3 x4 x5 x6 x7 = Cert.Spec.finalProbs x0 x1 x2 x3 x4 x5 x6 x7 :=
  funext fun i => by
    obtain ⟨t, v, rfl⟩ : ∃ (t : Fin 512) (v : Fin 96103), i = ix2 t v := ⟨i 0, i 1, eq_ix2 i⟩
    rw [v58_apply_of x0 x1 x2 x3 x4 x5 x6 x7 hsc]
    rfl

end Cert.ReferenceIdeal.RefValue

end
-- ==== Proof.RefScatter.lean ====
/-
  The reference's scatter read at one entry.  The operand is the [512, 96103] array of zeros; the scatter indices
  are the [512, 1024, 2] array whose pair at (p, q) is (the word of p, the sign-normalised token id of source
  position q); the updates are a [512, 1024] array `a`.  Update (p, q) lands on the entry (p, id q) when that is a
  vocabulary entry, and the scatter keeps the update, so at entry (t, v) the last source position carrying `v` wins:
  the result is `a (t, n*)` for the greatest `n*` with id `n* = v`, and the operand's zero when there is none.
-/
import proofs.«156806_j16080357556617_2_alg».proof.Proof.Gen.ReferenceIdeal.Read
import proofs.«156806_j16080357556617_2_alg».proof.Proof.Spec
import proofs.«156806_j16080357556617_2_alg».proof.Proof.LibScatterFold
import proofs.«156806_j16080357556617_2_alg».proof.Proof.LibScatterPair

noncomputable section

namespace Cert.ReferenceIdeal.Hand

open Cert.ReferenceIdeal Cert.ReferenceIdeal.Gen Cert.ReferenceIdeal.Read Idealize.ShloMosaic Idealize.ShloMosaic.StableHlo
open Idealize.ShloMosaic.ValueIdx Cert.Lib.ScatterPair Cert.Lib.ScatterFold

/-- WHERE UPDATE `j` OF A PAIR SCATTER LANDS, both ways: on row `a`, column `b` exactly when its index pair reads
    (signed) as `a` and `b`. -/
theorem resultIdx_pair_iff {A B R C w : Nat} (wf) (j : (⟨2, ![R, C]⟩ : Shape).Idx) (idx : IVec ⟨3, ![R, C, 2]⟩ w)
    (a : Fin A) (b : Fin B) :
    (pairDims A B R C wf).resultIdx? j idx = some (ix2 a b)
      ↔ (idx (pairIdx j 0)).toInt = (a.val : Int) ∧ (idx (pairIdx j 1)).toInt = (b.val : Int) := by
  constructor
  · intro h
    unfold ScatterDims.resultIdx? at h
    split at h
    · next hin =>
      have h' := Option.some.inj h
      have e0 : ((pairDims A B R C wf).start j idx 0 + ((pairDims A B R C wf).window j 0 : Int)).toNat = a.val :=
        congrArg (fun g => (g 0).val) h'
      have e1 : ((pairDims A B R C wf).start j idx 1 + ((pairDims A B R C wf).window j 1 : Int)).toNat = b.val :=
        congrArg (fun g => (g 1).val) h'
      have n0 := (hin 0).1
      have n1 := (hin 1).1
      rw [window_zero, start0] at e0 n0
      rw [window_zero, start1] at e1 n1
      constructor <;> omega
    · cases h
  · rintro ⟨h0, h1⟩
    exact resultIdx_pair wf j idx a.val b.val a.isLt b.isLt h0 h1

/-- The scatter indices' row component at update (p, q): the word of `p`. -/
theorem idx_row (x5 : (⟨S1024, .i32⟩ : BufTy).Contents (Elt Ideal)) (j : S512x1024.Idx) :
    val_main_v52 (F := Ideal) x5 (pairIdx j 0) = BitVec.ofNat 32 (j 0).val := by
  unfold val_main_v52
  rw [concatenate_pair_apply_left (t := S512x1024x2) (s₁ := S512x1024x1) (s₂ := S512x1024x1) (2 : Fin 3) _ _
    concatenates_S512x1024x1_S512x1024x1_S512x1024x2_d2 (pairIdx j 0) rfl
    (ix3 (j 0) (j 1) (0 : Fin 1)) (fun b => match b with | ⟨0, _⟩ => rfl | ⟨1, _⟩ => rfl | ⟨2, _⟩ => rfl)]
  rw [val_main_v50_apply, val_main_v44_apply, val_main_v41_apply, val_main_v43_apply, val_main_v36_apply,
    val_main_v35_apply, val_main_v34_apply, val_main_v40_apply, val_main_c_apply, val_main_v42_apply, val_main_c_7_apply]
  show Scalar.select (IntOp.cmpi .slt (BitVec.ofNat 32 (j 0).val) 0#32) (IntOp.addi (BitVec.ofNat 32 (j 0).val) 512#32)
    (BitVec.ofNat 32 (j 0).val) = _
  rw [slt_zero_small _ (by have := idx2_lt0 j; omega), select_zero]

/-- The scatter indices' column component at update (p, q): the sign-normalised token id of source position `q`. -/
theorem idx_col (x5 : (⟨S1024, .i32⟩ : BufTy).Contents (Elt Ideal)) (j : S512x1024.Idx) :
    val_main_v52 (F := Ideal) x5 (pairIdx j 1) = Cert.Spec.normId (x5 (ix1 (j 1))) := by
  unfold val_main_v52
  rw [concatenate_pair_apply_right (t := S512x1024x2) (s₁ := S512x1024x1) (s₂ := S512x1024x1) (2 : Fin 3) _ _
    concatenates_S512x1024x1_S512x1024x1_S512x1024x2_d2 (pairIdx j 1) rfl rfl
    (ix3 (j 0) (j 1) (0 : Fin 1)) (fun b hb => match b, hb with | ⟨0, _⟩, _ => rfl | ⟨1, _⟩, _ => rfl | ⟨2, _⟩, hb => absurd rfl hb) rfl]
  rw [val_main_v51_apply, val_main_v49_apply, val_main_v46_apply, val_main_v48_apply, val_main_v38_apply,
    val_main_v37_apply, val_main_v45_apply, val_main_c_8_apply, val_main_v47_apply, val_main_c_9_apply]
  have e : idx_main_v37 (idx_main_v38 (idx_main_v51 (ix3 (j 0) (j 1) (0 : Fin 1)))) = ix1 (j 1) := by
    funext d; match d with | ⟨0, _⟩ => rfl
  rw [e]; rfl

/-- Update `j` lands on entry (t, v) exactly when its row is `t` and its source position carries `v`. -/
theorem lands_iff (x5 : (⟨S1024, .i32⟩ : BufTy).Contents (Elt Ideal)) (j : S512x1024.Idx) (t : Fin 512) (v : Fin 96103) :
    scatter_S512x96103_S512x1024x2_S512x1024_n_01_01_2.resultIdx? j (val_main_v52 (F := Ideal) x5) = some (ix2 t v)
      ↔ j 0 = t ∧ Cert.Spec.Hits (fun n => x5 (ix1 n)) v (j 1) := by
  show (pairDims 512 96103 512 1024 _).resultIdx? j _ = _ ↔ _
  rw [resultIdx_pair_iff, idx_row, idx_col, toInt_ofNat_small _ (by have := idx2_lt0 j; omega)]
  unfold Cert.Spec.Hits
  constructor
  · rintro ⟨h0, h1⟩; exact ⟨Fin.ext (by exact_mod_cast h0), h1⟩
  · rintro ⟨h0, h1⟩; exact ⟨by rw [← h0], h1⟩

/-- A source position is in the hit set exactly when it carries `v`. -/
theorem mem_hitSet (ids : Fin 1024 → BitVec 32) (v : Fin 96103) (n : Fin 1024) :
    n ∈ Cert.Spec.hitSet ids v ↔ Cert.Spec.Hits ids v n := by
  unfold Cert.Spec.hitSet
  rw [Finset.mem_filter]
  exact and_iff_right (Finset.mem_univ _)

/-- THE REFERENCE'S SCATTER AT AN ENTRY: the copy term. -/
theorem scatter_copy (x5 : (⟨S1024, .i32⟩ : BufTy).Contents (Elt Ideal)) (a : (⟨S512x1024, .f32⟩ : BufTy).Contents (Elt Ideal))
    (t : Fin 512) (v : Fin 96103) :
    Host.scatter scatter_S512x96103_S512x1024x2_S512x1024_n_01_01_2 (fun _ b => b) (Read.val_main_v39 (F := Ideal))
        (Read.val_main_v52 (F := Ideal) x5) a (ix2 t v)
      = Cert.Spec.copy (fun t n => a (ix2 t n)) (fun n => x5 (ix1 n)) t v := by
  unfold Cert.Spec.copy
  split
  · next hne =>
    refine scatter_apply_of_last _ _ (fun _ _ => True) (fun _ _ _ => rfl) _ _ _ _
      (ix2 t ((Cert.Spec.hitSet (fun n => x5 (ix1 n)) v).max' hne)) ?_ ?_ (fun _ _ => trivial) (fun _ _ _ _ _ => trivial)
    · rw [lands_iff]
      refine ⟨rfl, ?_⟩
      exact (mem_hitSet _ _ _).1 (Finset.max'_mem _ hne)
    · intro j' hj'
      rw [lands_iff] at hj'
      have hle : j' 1 ≤ (Cert.Spec.hitSet (fun n => x5 (ix1 n)) v).max' hne :=
        Finset.le_max' _ _ ((mem_hitSet _ _ _).2 hj'.2)
      rw [Fin.le_def, Shape.rowMajor_val_two, Shape.rowMajor_val_two]
      have h0 : (j' 0).val = t.val := congrArg Fin.val hj'.1
      have hle' : (j' 1).val ≤ ((Cert.Spec.hitSet (fun n => x5 (ix1 n)) v).max' hne).val := hle
      show (j' 0).val * 1024 + (j' 1).val ≤ t.val * 1024 + ((Cert.Spec.hitSet (fun n => x5 (ix1 n)) v).max' hne).val
      omega
  · next hne =>
    rw [scatter_apply_of_none]
    · rw [val_main_v39_apply, val_main_cst_6_apply]
      exact Ideal.ofBits_zero_f32
    · intro j hj
      rw [lands_iff] at hj
      exact hne ⟨j 1, (mem_hitSet _ _ _).2 hj.2⟩

end Cert.ReferenceIdeal.Hand

end
-- ==== Proof.RefValue.lean ====
/-
  The reference's two results are the specification's functions of the argument arrays: the gate array, and the blend
  of the row softmax with the scattered weights, the scatter read as "the last source position carrying v wins, zero
  where none does".
-/
import proofs.«156806_j16080357556617_2_alg».proof.Proof.Gen.ReferenceIdeal.Read
import proofs.«156806_j16080357556617_2_alg».proof.Proof.Spec
import Idealize.ShloMosaic.Lib.IdealHost
import proofs.«156806_j16080357556617_2_alg».proof.Proof.Ref.Gp
import proofs.«156806_j16080357556617_2_alg».proof.Proof.Ref.Final
import proofs.«156806_j16080357556617_2_alg».proof.Proof.RefScatter

noncomputable section

namespace Cert.ReferenceIdeal.RefValue

open Cert.ReferenceIdeal Cert.ReferenceIdeal.Gen Cert.ReferenceIdeal.Read Idealize.ShloMosaic Idealize.ShloMosaic.StableHlo ValueIdx

open Idealize.ShloMosaic.TcCoe Idealize.SL.Sem

/-- The second result: the reference's [512, 96103] result (its last stage) is the specification's blended
    distribution. -/
theorem v58_eq (x0 : (⟨S1x16x512x1024, .f32⟩ : BufTy).Contents (Elt Ideal)) (x1 : (⟨S1x1024x1024, .f32⟩ : BufTy).Contents (Elt Ideal))
    (x2 x3 : (⟨S1x512x1024, .f32⟩ : BufTy).Contents (Elt Ideal)) (x4 : (⟨S1x512x96103, .f32⟩ : BufTy).Contents (Elt Ideal))
    (x5 : (⟨S1024, .i32⟩ : BufTy).Contents (Elt Ideal)) (x6 : (⟨S1x3072, .f32⟩ : BufTy).Contents (Elt Ideal))
    (x7 : (⟨S1, .f32⟩ : BufTy).Contents (Elt Ideal)) :
    val_main_v58 (F := Ideal) x0 x1 x2 x3 x4 x5 x6 x7 = Cert.Spec.finalProbs x0 x1 x2 x3 x4 x5 x6 x7 :=
  v58_val_of x0 x1 x2 x3 x4 x5 x6 x7 (fun a t v => Cert.ReferenceIdeal.Hand.scatter_copy x5 a t v)

/-- The same for the term the run names: on every device the second result's buffer ends at the specification's
    blended distribution of the argument buffers' contents. -/
theorem v58_run (m : (ℓ : Loc nD τ sig) → Buf (Elt Ideal) ℓ) (c : Dev nD) :
    Cert.ReferenceIdeal.Value.res_main_v58 (F := Ideal) m c
      = Cert.Spec.finalProbs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v58_eq (F := Ideal) m c).trans (v58_eq _ _ _ _ _ _ _ _)

/-- The first result for the run's buffers: the stage at the argument buffers' contents. -/
theorem v20_run (m : (ℓ : Loc nD τ sig) → Buf (Elt Ideal) ℓ) (c : Dev nD) :
    val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      = Cert.Spec.genProbs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) :=
  v20_eq _ _ _ _ _ _

/-- The reference's run with both results named by the specification: on every device, every weakly fair execution
    ends with the first result's buffer at the gate array and the second's at the blended distribution of the
    argument buffers' launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = Cert.Spec.genProbs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v58) = Cert.Spec.finalProbs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨by rw [(h c).1, val_main_v20_eq, v20_eq], by rw [(h c).2.1, v58_run], (h c).2.2⟩)
    (Cert.ReferenceIdeal.Value.run (F := Ideal) m ρ)

end Cert.ReferenceIdeal.RefValue

end
-- ==== Proof.Small.lean ====
/-
  The two short claims.  The idealized kernel differs from the kernel as printed in one named constant: the mask
  value −10³⁰ is named "neg_big" and the table gives that name the value −∞; at the extended reals the printed
  constant is −∞, as a splat of any shape and as a scalar.  And the reference program runs and leaves its argument
  arrays as it found them: its run with the two result arrays dropped from the conclusion.
-/
import proofs.«156806_j16080357556617_2_alg».proof.Defs
import proofs.«156806_j16080357556617_2_alg».proof.Proof.Gen.ReferenceIdeal
import proofs.«156806_j16080357556617_2_alg».proof.Proof.Gen.Pre_finite_inputs
import proofs.«156806_j16080357556617_2_alg».proof.Proof.Gen.ReferenceIdeal.Run

noncomputable section

namespace Cert.Proof.Hand

open Idealize.ShloMosaic Idealize.ShloMosaic.TcCoe Idealize.SL.Sem

/-- The name "neg_big" has the value −∞ in the table, at both places the mask constant is printed. -/
theorem preserves : Cert.preserves_Kernel_KernelIdeal :=
  ⟨IdealRules.named_const.statement Cert.KernelIdeal.κ "neg_big" .f32 0xF149F2CA#32 ⊥ rfl,
    IdealRules.named_const.statement Cert.KernelIdeal.κ "neg_big" .f32 0xF149F2CA#32 ⊥ rfl⟩

/-- The reference program terminates, nothing faulting, with its eight argument arrays unchanged. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

end Cert.Proof.Hand

end
-- ==== Proof.lean ====
/-
  The claim of this certificate, assembled.

  * The two kernel programs' frames: @main is five segments — a stretch of host operations, the first kernel
    region (sixteen grid points accumulating the attention heads in a scratch buffer, the head average and the
    pointer gate stored at the last), a second host stretch (the table of winning source positions), the second
    region (the row maximum and the row's sum of shifted exponentials, tile by tile), the third region (the
    blended distribution, tile by tile). Each region's arrays are split out of the core's buffers at its entry
    and put back at its exit; no segment writes an argument.
  * The reference's frame: its run, the results dropped.
  * The idealization's one rule: the finite stand-in for minus infinity denotes minus infinity.
  * The value claim: at the ideal instance the kernel program's two results are the specification's functions
    of the argument arrays (the head average, the logistic gate, the row softmax, the last-writer-wins copy
    term), and so are the reference's; the arguments agree, so the results do.
-/
import proofs.«156806_j16080357556617_2_alg».proof.Defs
import proofs.«156806_j16080357556617_2_alg».proof.Proof.Gen.Kernel
import proofs.«156806_j16080357556617_2_alg».proof.Proof.Gen.KernelIdeal
import proofs.«156806_j16080357556617_2_alg».proof.Proof.Gen.ReferenceIdeal
import proofs.«156806_j16080357556617_2_alg».proof.Proof.Gen.Pre_finite_inputs
import proofs.«156806_j16080357556617_2_alg».proof.Proof.K.RunR
import proofs.«156806_j16080357556617_2_alg».proof.Proof.KI.RunR
import proofs.«156806_j16080357556617_2_alg».proof.Proof.KI.Run
import proofs.«156806_j16080357556617_2_alg».proof.Proof.KI.Compose
import proofs.«156806_j16080357556617_2_alg».proof.Proof.RefValue
import proofs.«156806_j16080357556617_2_alg».proof.Proof.Small
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : @Cert.frame_Kernel Cert.Kernel.Gen.facts Cert.Pre_finite_inputs.Gen.facts :=
  fun m ρ _ => Cert.Kernel.Hand.frame (F := Bits) m ρ

/-- So does the idealized kernel program. -/
theorem frame_ki : @Cert.frame_KernelIdeal Cert.KernelIdeal.Gen.facts Cert.Pre_finite_inputs.Gen.facts :=
  fun m ρ _ => Cert.KernelIdeal.Hand.frame (F := Ideal) m ρ

/-- At the ideal instance both programs end with the specification's two arrays of the argument arrays, and the
    argument arrays agree. -/
theorem algebraic : @Cert.algebraic_KernelIdeal_ReferenceIdeal Cert.KernelIdeal.Gen.facts Cert.ReferenceIdeal.Gen.facts
    Cert.Pre_finite_inputs.Gen.facts := by
  intro m g m' g' hpre hagree
  refine ⟨fun c => Cert.Spec.genProbs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.Spec.finalProbs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel program: every unscoped buffer ends at the last boundary's contents
    refine (θ_run Cert.KernelIdeal.defs _ _).mono (fun r h c => ?_) (Cert.KernelIdeal.Hand.run_all m g)
    exact ⟨(h c _ (Cert.KernelIdeal.Hand.mem_uc Cert.KernelIdeal.main_v8_1 (by decide))).trans (Cert.KernelIdeal.Hand.res0_eq m c),
      (h c _ (Cert.KernelIdeal.Hand.mem_uc Cert.KernelIdeal.main_v25 (by decide))).trans (Cert.KernelIdeal.Hand.res1_eq m hpre c),
      (h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c),
      (h c _ (Cert.KernelIdeal.Hand.mem_uc Cert.KernelIdeal.main_arg7 (by decide))).trans (Cert.KernelIdeal.Hand.W5_main_arg7 m c)⟩
  · -- the reference: its run read at the same specification, its arguments being the kernel's
    refine (θ_run Cert.ReferenceIdeal.defs _ _).mono (fun r h c => ?_) (Cert.ReferenceIdeal.RefValue.ref_run m' g')
    obtain ⟨h0, h1, hr⟩ := h c
    obtain ⟨e0, e1, e2, e3, e4, e5, e6, e7⟩ := hagree c
    refine ⟨?_, ?_, hr⟩
    · rw [h0, e0, e1, e2, e3, e6, e7]
    · rw [h1, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, Cert.Proof.Hand.frame_ri, Cert.Proof.Hand.preserves, algebraic⟩

end Cert.Proof

end
